-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg15 : FVec F S64x10 .f32) (main_arg16 : FVec F S10 .f32) (main_v63 : IVec S_ 1) (main_v67 : IVec S_ 1) : IVec S_ 1 :=
  let main_v68 : IVec S_ 1 := andi main_v63 main_v67
  let main_v69 : FVec F S64x10 .f32 := Host.absf main_arg15
  let main_cst_26 : FVec F S_ .f32 := constant S_ .f32 0x7F800000#32
  let main_v70 : FVec F S64x10 .f32 := broadcastInDim S64x10 ![] bcast_S_S64x10 main_cst_26
  let main_v71 : IVec S64x10 1 := cmpf .olt main_v69 main_v70
  let main_c_27 : IVec S_ 1 := constantI S_ 1 1#1
  let main_v72 : IVec S_ 1 := (fun x v => Host.reduce IntOp.andi x v reducesTo_S64x10_S_d0_1 h_S_) main_v71 main_c_27
  let main_v73 : IVec S_ 1 := andi main_v68 main_v72
  let main_v74 : FVec F S10 .f32 := Host.absf main_arg16
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg12 : FVec F S128 .f32) (main_arg13 : FVec F S128x64 .f32) (main_arg14 : FVec F S64 .f32) (main_arg15 : FVec F S64x10 .f32) (main_arg16 : FVec F S10 .f32) (main_v48 : IVec S_ 1) (main_v49 : FVec F S384x128 .f32) (main_v50 : FVec F S384x128 .f32) : IVec S_ 1 :=
  let main_v51 : IVec S384x128 1 := cmpf .olt main_v49 main_v50
  let main_c_19 : IVec S_ 1 := constantI S_ 1 1#1
  let main_v52 : IVec S_ 1 := (fun x v => Host.reduce IntOp.andi x v reducesTo_S384x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S384x128 .f32) (main_arg12 : FVec F S128 .f32) (main_arg13 : FVec F S128x64 .f32) (main_arg14 : FVec F S64 .f32) (main_arg15 : FVec F S64x10 .f32) (main_arg16 : FVec F S10 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S384x128 .f32 := Host.absf main_arg11
  let main_cst_18 : FVec F S_ .f32 := constant S_ .f32 0x7F800000#32
  let main_v50 : FVec F S384x128 .f32 := broadcastInDim S384x128 ![] bcast_S_S384x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x64 .f32) (main_arg14 : FVec F S64 .f32) (main_arg15 : FVec F S64x10 .f32) (main_arg16 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x128 .f32) (main_arg1 : FVec F S50000x128 .f32) (main_arg2 : IVec S2x1600000 32) (main_arg3 : FVec F S256x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S384x128 .f32) (main_arg12 : FVec F S128 .f32) (main_arg13 : FVec F S128x64 .f32) (main_arg14 : FVec F S64 .f32) (main_arg15 : FVec F S64x10 .f32) (main_arg16 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x128 : Shape := ⟨2, ![50000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S1x64 : Shape := ⟨2, ![1, 64]⟩
abbrev S1x10 : Shape := ⟨2, ![1, 10]⟩
abbrev S5000x128 : Shape := ⟨2, ![5000, 128]⟩
abbrev S1650000x128 : Shape := ⟨2, ![1650000, 128]⟩
abbrev S50000x10 : Shape := ⟨2, ![50000, 10]⟩
abbrev S5000x10 : Shape := ⟨2, ![5000, 10]⟩
abbrev S5000x64 : Shape := ⟨2, ![5000, 64]⟩

abbrev nBuf : Space → Nat
  | .hbm => 117
  | .vmem => 43
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S384x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S64x10, .f32⟩
  | .hbm, ⟨16, _⟩ => ⟨S10, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S50000, .i32⟩
  | .hbm, ⟨22, _⟩ => ⟨S1650000, .i32⟩
  | .hbm, ⟨23, _⟩ => ⟨S1650000, .i32⟩
  | .hbm, ⟨24, _⟩ => ⟨S_, .f32⟩
  | .hbm, ⟨25, _⟩ => ⟨S1650000, .f32⟩
  | .hbm, ⟨26, _⟩ => ⟨S_, .f32⟩
  | .hbm, ⟨27, _⟩ => ⟨S50000, .f32⟩
  | .hbm, ⟨28, _⟩ => ⟨S1650000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000, .f32⟩
  | .hbm, ⟨56, _⟩ => ⟨S1650000, .f32⟩
  | .hbm, ⟨57, _⟩ => ⟨S128x128, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .bf16⟩
  | .hbm, ⟨63, _⟩ => ⟨S128x128, .bf16⟩
  | .hbm, ⟨64, _⟩ => ⟨S128x128, .bf16⟩
  | .hbm, ⟨65, _⟩ => ⟨S128x128, .bf16⟩
  | .hbm, ⟨66, _⟩ => ⟨S128x128, .bf16⟩
  | .hbm, ⟨67, _⟩ => ⟨S128x128, .bf16⟩
  | .hbm, ⟨68, _⟩ => ⟨S128x128, .bf16⟩
  | .hbm, ⟨69, _⟩ => ⟨S128x128, .bf16⟩
  | .hbm, ⟨70, _⟩ => ⟨S128x64, .bf16⟩
  | .hbm, ⟨71, _⟩ => ⟨S64x10, .bf16⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S1x128, .f32⟩
  | .hbm, ⟨77, _⟩ => ⟨S1x64, .f32⟩
  | .hbm, ⟨78, _⟩ => ⟨S1x10, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S1650000, .i32⟩
  | .hbm, ⟨84, _⟩ => ⟨S1650000, .i1⟩
  | .hbm, ⟨85, _⟩ => ⟨S_, .i32⟩
  | .hbm, ⟨86, _⟩ => ⟨S1650000, .i32⟩
  | .hbm, ⟨87, _⟩ => ⟨S1650000, .i32⟩
  | .hbm, ⟨88, _⟩ => ⟨S1650000, .i32⟩
  | .hbm, ⟨89, _⟩ => ⟨S1650000x1, .i32⟩
  | .hbm, ⟨90, _⟩ => ⟨S1650000x128, .f32⟩
  | .hbm, ⟨91, _⟩ => ⟨S1650000x1, .f32⟩
  | .hbm, ⟨92, _⟩ => ⟨S1650000x128, .f32⟩
  | .hbm, ⟨93, _⟩ => ⟨S1650000x128, .f32⟩
  | .hbm, ⟨94, _⟩ => ⟨S_, .f32⟩
  | .hbm, ⟨95, _⟩ => ⟨S50000x128, .f32⟩
  | .hbm, ⟨96, _⟩ => ⟨S1650000x1, .i32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .i32⟩
  | .hbm, ⟨101, _⟩ => ⟨S1650000, .i32⟩
  | .hbm, ⟨102, _⟩ => ⟨S1650000, .i1⟩
  | .hbm, ⟨103, _⟩ => ⟨S_, .i32⟩
  | .hbm, ⟨104, _⟩ => ⟨S1650000, .i32⟩
  | .hbm, ⟨105, _⟩ => ⟨S1650000, .i32⟩
  | .hbm, ⟨106, _⟩ => ⟨S1650000, .i32⟩
  | .hbm, ⟨107, _⟩ => ⟨S1650000x1, .i32⟩
  | .hbm, ⟨108, _⟩ => ⟨S1650000x128, .f32⟩
  | .hbm, ⟨109, _⟩ => ⟨S1650000x1, .f32⟩
  | .hbm, ⟨110, _⟩ => ⟨S1650000x128, .f32⟩
  | .hbm, ⟨111, _⟩ => ⟨S1650000x128, .f32⟩
  | .hbm, ⟨112, _⟩ => ⟨S_, .f32⟩
  | .hbm, ⟨113, _⟩ => ⟨S50000x128, .f32⟩
  | .hbm, ⟨114, _⟩ => ⟨S1650000x1, .i32⟩
  | .hbm, ⟨115, _⟩ => ⟨S50000x128, .f32⟩
  | .hbm, ⟨116, _⟩ => ⟨S50000x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S128x128, .bf16⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S128x128, .bf16⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S128x128, .bf16⟩
  | .local _ .vmem, ⟨34, _⟩ => ⟨S128x128, .bf16⟩
  | .local _ .vmem, ⟨35, _⟩ => ⟨S128x128, .bf16⟩
  | .local _ .vmem, ⟨36, _⟩ => ⟨S1x128, .f32⟩
  | .local _ .vmem, ⟨37, _⟩ => ⟨S128x64, .bf16⟩
  | .local _ .vmem, ⟨38, _⟩ => ⟨S1x64, .f32⟩
  | .local _ .vmem, ⟨39, _⟩ => ⟨S64x10, .bf16⟩
  | .local _ .vmem, ⟨40, _⟩ => ⟨S1x10, .f32⟩
  | .local _ .vmem, ⟨41, _⟩ => ⟨S5000x10, .f32⟩
  | .local _ .vmem, ⟨42, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52_0 : Ref sig .tc := ⟨.hbm, 79, rfl⟩
abbrev main_v52_1 : Ref sig .tc := ⟨.hbm, 80, rfl⟩
abbrev main_v52_2 : Ref sig .tc := ⟨.hbm, 81, rfl⟩
abbrev main_c_6 : Ref sig .tc := ⟨.hbm, 82, rfl⟩
abbrev main_v53 : Ref sig .tc := ⟨.hbm, 83, rfl⟩
abbrev main_v54 : Ref sig .tc := ⟨.hbm, 84, rfl⟩
abbrev main_c_7 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_8 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66_0 : Ref sig .tc := ⟨.hbm, 98, rfl⟩
abbrev main_v66_1 : Ref sig .tc := ⟨.hbm, 99, rfl⟩
abbrev main_c_9 : Ref sig .tc := ⟨.hbm, 100, rfl⟩
abbrev main_v67 : Ref sig .tc := ⟨.hbm, 101, rfl⟩
abbrev main_v68 : Ref sig .tc := ⟨.hbm, 102, rfl⟩
abbrev main_c_10 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_11 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg11_0 : Ref sig .tc := ⟨.vmem, 39, rfl⟩
abbrev cc2_stg12_0 : Ref sig .tc := ⟨.vmem, 40, rfl⟩
abbrev cc2_stg13_0 : Ref sig .tc := ⟨.vmem, 41, rfl⟩
abbrev cc2_stg13_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem3_1 : DmaSem sig := 30
abbrev cc2_sem4_0 : DmaSem sig := 31
abbrev cc2_sem4_1 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem11_0 : DmaSem sig := 39
abbrev cc2_sem12_0 : DmaSem sig := 40
abbrev cc2_sem13_0 : DmaSem sig := 41
abbrev cc2_sem13_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S128x64 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x10 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x10 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S5000x10 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  slices_S256x128_S128x128_0_0 : S256x128.Slices ![0, 0] S128x128
  slices_S256x128_S128x128_128_0 : S256x128.Slices ![128, 0] S128x128
  slices_S384x128_S128x128_0_0 : S384x128.Slices ![0, 0] S128x128
  slices_S384x128_S128x128_128_0 : S384x128.Slices ![128, 0] S128x128
  slices_S384x128_S128x128_256_0 : S384x128.Slices ![256, 0] S128x128
  bitsLt_bf16_f32 : FTy.bits .bf16 < FTy.bits .f32
  shapeCasts_S128_S1x128 : S128.ShapeCasts S1x128
  shapeCasts_S64_S1x64 : S64.ShapeCasts S1x64
  shapeCasts_S10_S1x10 : S10.ShapeCasts S1x10
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x128_S5000x128_1_0_0_1_n_n_wf : DotDims.WF S5000x128 S128x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x64_S5000x64_1_0_0_1_n_n_wf : DotDims.WF S5000x128 S128x64 S5000x64 [1] [0] [0] [1] [] []
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S50000x128.size a
  hwx0_9 : ∀ i : grid0.Coords, EltTy.bits .f32 = 32 ∨ (Rect.block (s := S50000x128) S5000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .bf16 = 32 ∨ (Rect.block (s := S128x128) S128x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .bf16 = 32 ∨ (Rect.block (s := S128x128) S128x128.size (cc2_transform_6 i) (hinb2_6 i)).WholeWords (EltTy.packing .bf16)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .bf16 = 32 ∨ (Rect.block (s := S128x128) S128x128.size (cc2_transform_7 i) (hinb2_7 i)).WholeWords (EltTy.packing .bf16)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S128x64.size a ≤ S128x64.size a
  hwx2_9 : ∀ i : grid2.Coords, EltTy.bits .bf16 = 32 ∨ (Rect.block (s := S128x64) S128x64.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x10.size a ≤ S64x10.size a
  hwx2_11 : ∀ i : grid2.Coords, EltTy.bits .bf16 = 32 ∨ (Rect.block (s := S64x10) S64x10.size (cc2_transform_11 i) (hinb2_11 i)).WholeWords (EltTy.packing .bf16)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x10.size a ≤ S1x10.size a
  hwx2_12 : ∀ i : grid2.Coords, EltTy.bits .f32 = 32 ∨ (Rect.block (s := S1x10) S1x10.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S5000x10.size a ≤ S50000x10.size a
  hwx2_13 : ∀ i : grid2.Coords, EltTy.bits .f32 = 32 ∨ (Rect.block (s := S50000x10) S5000x10.size (cc2_transform_13 i) (hinb2_13 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52_0) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v52_1) S5000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v52_2) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v65) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v66_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v79) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52_1) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v66_0) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v49) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v43) S128x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v50) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v44) S64x10.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v51) S1x10.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v80) S5000x10.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S384x128 : Shape := ⟨2, ![384, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S50000x256 : Shape := ⟨2, ![50000, 256]⟩
abbrev S1x128 : Shape := ⟨2, ![1, 128]⟩
abbrev S_ : Shape := ⟨0, ![]⟩
abbrev S50000 : Shape := ⟨1, ![50000]⟩
abbrev S1650000 : Shape := ⟨1, ![1650000]⟩
abbrev S1650000x1 : Shape := ⟨2, ![1650000, 1]⟩
abbrev S1650000x128 : Shape := ⟨2, ![1650000, 128]⟩
abbrev S50000x384 : Shape := ⟨2, ![50000, 384]⟩
abbrev S50000x64 : Shape := ⟨2, ![50000, 64]⟩
abbrev S1x64 : Shape := ⟨2, ![1, 64]⟩
abbrev S50000x10 : Shape := ⟨2, ![50000, 10]⟩
abbrev S1x10 : Shape := ⟨2, ![1, 10]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S50000x128, .f32⟩
  | 2 => ⟨S2x1600000, .i32⟩
  | 3 => ⟨S256x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S384x128, .f32⟩
  | 12 => ⟨S128, .f32⟩
  | 13 => ⟨S128x64, .f32⟩
  | 14 => ⟨S64, .f32⟩
  | 15 => ⟨S64x10, .f32⟩
  | 16 => ⟨S10, .f32⟩
  | 17 => ⟨S1x1600000, .i32⟩
  | 18 => ⟨S1600000, .i32⟩
  | 19 => ⟨S1x1600000, .i32⟩
  | 20 => ⟨S1600000, .i32⟩
  | 21 => ⟨S50000x256, .f32⟩
  | 22 => ⟨S50000x128, .f32⟩
  | 23 => ⟨S1x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x128, .f32⟩
  | 30 => ⟨S1x128, .f32⟩
  | 31 => ⟨S50000x128, .f32⟩
  | 32 => ⟨S50000x128, .f32⟩
  | 33 => ⟨S50000x128, .f32⟩
  | 34 => ⟨S50000x128, .f32⟩
  | 35 => ⟨S50000, .i32⟩
  | 36 => ⟨S1650000, .i32⟩
  | 37 => ⟨S1650000, .i32⟩
  | 38 => ⟨S_, .f32⟩
  | 39 => ⟨S1650000, .f32⟩
  | 40 => ⟨S_, .f32⟩
  | 41 => ⟨S50000, .f32⟩
  | 42 => ⟨S1650000x1, .i32⟩
  | 43 => ⟨S50000, .f32⟩
  | 44 => ⟨S_, .f32⟩
  | 45 => ⟨S50000, .f32⟩
  | 46 => ⟨S50000, .i1⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000, .f32⟩
  | 61 => ⟨S_, .i32⟩
  | 62 => ⟨S1650000, .i32⟩
  | 63 => ⟨S1650000, .i1⟩
  | 64 => ⟨S_, .i32⟩
  | 65 => ⟨S1650000, .i32⟩
  | 66 => ⟨S1650000, .i32⟩
  | 67 => ⟨S1650000, .i32⟩
  | 68 => ⟨S1650000x1, .i32⟩
  | 69 => ⟨S1650000, .f32⟩
  | 70 => ⟨S1650000, .f32⟩
  | 71 => ⟨S_, .i32⟩
  | 72 => ⟨S1650000, .i32⟩
  | 73 => ⟨S1650000, .i1⟩
  | 74 => ⟨S_, .i32⟩
  | 75 => ⟨S1650000, .i32⟩
  | 76 => ⟨S1650000, .i32⟩
  | 77 => ⟨S1650000, .i32⟩
  | 78 => ⟨S1650000x1, .i32⟩
  | 79 => ⟨S1650000x128, .f32⟩
  | 80 => ⟨S1650000x1, .f32⟩
  | 81 => ⟨S1650000x128, .f32⟩
  | 82 => ⟨S1650000x128, .f32⟩
  | 83 => ⟨S_, .f32⟩
  | 84 => ⟨S50000x128, .f32⟩
  | 85 => ⟨S1650000x1, .i32⟩
  | 86 => ⟨S50000x128, .f32⟩
  | 87 => ⟨S1x128, .f32⟩
  | 88 => ⟨S50000x128, .f32⟩
  | 89 => ⟨S50000x128, .f32⟩
  | 90 => ⟨S_, .f32⟩
  | 91 => ⟨S50000x128, .f32⟩
  | 92 => ⟨S50000x128, .f32⟩
  | 93 => ⟨S50000x128, .f32⟩
  | 94 => ⟨S50000, .i32⟩
  | 95 => ⟨S1650000, .i32⟩
  | 96 => ⟨S1650000, .i32⟩
  | 97 => ⟨S_, .f32⟩
  | 98 => ⟨S1650000, .f32⟩
  | 99 => ⟨S_, .f32⟩
  | 100 => ⟨S50000, .f32⟩
  | 101 => ⟨S1650000x1, .i32⟩
  | 102 => ⟨S50000, .f32⟩
  | 103 => ⟨S_, .f32⟩
  | 104 => ⟨S50000, .f32⟩
  | 105 => ⟨S50000, .i1⟩
  | 106 => ⟨S50000, .f32⟩
  | 107 => ⟨S_, .f32⟩
  | 108 => ⟨S_, .f32⟩
  | 109 => ⟨S50000, .f32⟩
  | 110 => ⟨S50000, .f32⟩
  | 111 => ⟨S_, .i32⟩
  | 112 => ⟨S1650000, .i32⟩
  | 113 => ⟨S1650000, .i1⟩
  | 114 => ⟨S_, .i32⟩
  | 115 => ⟨S1650000, .i32⟩
  | 116 => ⟨S1650000, .i32⟩
  | 117 => ⟨S1650000, .i32⟩
  | 118 => ⟨S1650000x1, .i32⟩
  | 119 => ⟨S1650000, .f32⟩
  | 120 => ⟨S_, .i32⟩
  | 121 => ⟨S1650000, .i32⟩
  | 122 => ⟨S1650000, .i1⟩
  | 123 => ⟨S_, .i32⟩
  | 124 => ⟨S1650000, .i32⟩
  | 125 => ⟨S1650000, .i32⟩
  | 126 => ⟨S1650000, .i32⟩
  | 127 => ⟨S1650000x1, .i32⟩
  | _ => ⟨S50000x128, .f32⟩

abbrev hbmTy0_1 (i : Nat) : BufTy := match i % 128 with
  | 0 => ⟨S1650000, .f32⟩
  | 1 => ⟨S1650000, .f32⟩
  | 2 => ⟨S_, .i32⟩
  | 3 => ⟨S1650000, .i32⟩
  | 4 => ⟨S1650000, .i1⟩
  | 5 => ⟨S_, .i32⟩
  | 6 => ⟨S1650000, .i32⟩
  | 7 => ⟨S1650000, .i32⟩
  | 8 => ⟨S1650000, .i32⟩
  | 9 => ⟨S1650000x1, .i32⟩
  | 10 => ⟨S1650000x128, .f32⟩
  | 11 => ⟨S1650000x1, .f32⟩
  | 12 => ⟨S1650000x128, .f32⟩
  | 13 => ⟨S1650000x128, .f32⟩
  | 14 => ⟨S_, .f32⟩
  | 15 => ⟨S50000x128, .f32⟩
  | 16 => ⟨S1650000x1, .i32⟩
  | 17 => ⟨S50000x128, .f32⟩
  | 18 => ⟨S1x128, .f32⟩
  | 19 => ⟨S50000x128, .f32⟩
  | 20 => ⟨S50000x128, .f32⟩
  | 21 => ⟨S_, .f32⟩
  | 22 => ⟨S50000x128, .f32⟩
  | 23 => ⟨S50000x128, .f32⟩
  | 24 => ⟨S50000x384, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S50000x64, .f32⟩
  | 34 => ⟨S1x64, .f32⟩
  | 35 => ⟨S50000x64, .f32⟩
  | 36 => ⟨S50000x64, .f32⟩
  | 37 => ⟨S_, .f32⟩
  | 38 => ⟨S50000x64, .f32⟩
  | 39 => ⟨S50000x64, .f32⟩
  | 40 => ⟨S50000x10, .f32⟩
  | 41 => ⟨S1x10, .f32⟩
  | 42 => ⟨S50000x10, .f32⟩
  | 43 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_cst : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_cst_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_2 : Ref sig .tc := ⟨.hbm, 48, rfl⟩
abbrev main_call1_v0 : Ref sig .tc := ⟨.hbm, 49, rfl⟩
abbrev main_call1_v1 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_4 : Ref sig .tc := ⟨.hbm, 61, rfl⟩
abbrev main_v34 : Ref sig .tc := ⟨.hbm, 62, rfl⟩
abbrev main_v35 : Ref sig .tc := ⟨.hbm, 63, rfl⟩
abbrev main_c_5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_v42 : Ref sig .tc := ⟨.hbm, 72, rfl⟩
abbrev main_v43 : Ref sig .tc := ⟨.hbm, 73, rfl⟩
abbrev main_c_7 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_8 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call2_cst : Ref sig .tc := ⟨.hbm, 90, rfl⟩
abbrev main_call2_v0 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_12 : Ref sig .tc := ⟨.hbm, 107, rfl⟩
abbrev main_call3_v0 : Ref sig .tc := ⟨.hbm, 108, rfl⟩
abbrev main_call3_v1 : Ref sig .tc := ⟨.hbm, 109, rfl⟩
abbrev main_v70 : Ref sig .tc := ⟨.hbm, 110, rfl⟩
abbrev main_c_13 : Ref sig .tc := ⟨.hbm, 111, rfl⟩
abbrev main_v71 : Ref sig .tc := ⟨.hbm, 112, rfl⟩
abbrev main_v72 : Ref sig .tc := ⟨.hbm, 113, rfl⟩
abbrev main_c_14 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_c_15 : Ref sig .tc := ⟨.hbm, 120, rfl⟩
abbrev main_v78 : Ref sig .tc := ⟨.hbm, 121, rfl⟩
abbrev main_v79 : Ref sig .tc := ⟨.hbm, 122, rfl⟩
abbrev main_c_16 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_17 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_19 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_call4_cst : Ref sig .tc := ⟨.hbm, 149, rfl⟩
abbrev main_call4_v0 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_call5_cst : Ref sig .tc := ⟨.hbm, 157, rfl⟩
abbrev main_call5_v0 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_call6_cst : Ref sig .tc := ⟨.hbm, 165, rfl⟩
abbrev main_call6_v0 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  concatenates_S50000x128_S50000x128_S50000x128_S50000x384_d1 : Shape.Concatenates [S50000x128, S50000x128, S50000x128] S50000x384 1
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x384_S384x128_S50000x128_1_0_0_1_n_n_wf : DotDims.WF S50000x384 S384x128 S50000x128 [1] [0] [0] [1] [] []
  dot_S50000x128_S128x64_S50000x64_1_0_0_1_n_n_wf : DotDims.WF S50000x128 S128x64 S50000x64 [1] [0] [0] [1] [] []
  dot_S50000x64_S64x10_S50000x10_1_0_0_1_n_n_wf : DotDims.WF S50000x64 S64x10 S50000x10 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x384_S384x128_S50000x128_1_0_0_1_n_n : DotDims S50000x384 S384x128 S50000x128 where
  lhsContracting := [1]
  rhsContracting := [0]
  lhsNonContracting := [0]
  rhsNonContracting := [1]
  lhsBatch := []
  rhsBatch := []
  wf := dot_S50000x384_S384x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.KernelRun.lean ====
/-
  The kernel program's run with its result named.

  @main is three tiled regions among stretches of host operations. Every weakly fair execution terminates, nothing
  faults, every argument array ends as launched, and the result buffer ends at the contents of the last boundary:
  what region 2's write-backs leave (`W8`). The launch is the one the frame certificate makes (the segments, their
  chain, the initial and final thread states); only the final reading takes one more buffer.
-/
import proofs.«134561_j13649406067417_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and every argument array as launched. -/
theorem run : θ_run defs (onTc (τ := τ) (main (F := F))) ⟨m, fun _ => 0, ρ⟩ (fun r => ∀ c : Dev nD,
      r.2.mem ((c.tc : Thread nD τ).loc main_v80) = W8 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c)⟩)

end Cert.KernelIdeal.Run

end
-- ==== Proof.Spec.lean ====
/-
  The network, one node at a time, on the extended reals.

  Every dense stage acts on a node's feature row alone: a row vector times a weight matrix (`dotv`), a bias,
  a rectifier. The stages below are the rows of the three dense blocks; `Net` composes them around the two
  message-passing steps `P₁`, `P₂` (any maps of node-feature matrices: the certificate never opens them).
-/
import Idealize.ShloMosaic.PureOps.Ideal
import Idealize.ShloMosaic.Lib.ValueIdx

noncomputable section

namespace Cert.Net

open Idealize.ShloMosaic Idealize.ShloMosaic.ValueIdx

/-- An `m×n` array as a matrix of rows, and back. -/
abbrev mat {m n : Nat} (a : (⟨2, ![m, n]⟩ : Shape).Idx → EReal) : Fin m → Fin n → EReal := fun r k => a (ix2 r k)
abbrev arr {m n : Nat} (f : Fin m → Fin n → EReal) : (⟨2, ![m, n]⟩ : Shape).Idx → EReal := fun j => f (j 0) (j 1)

/-- Rows `o … o + K' - 1` of a `K×N` array, as a matrix. -/
def rowsFrom {K N : Nat} (o K' : Nat) (h : o + K' ≤ K) (w : (⟨2, ![K, N]⟩ : Shape).Idx → EReal) : Fin K' → Fin N → EReal :=
  fun k j => w (ix2 (⟨o + k.val, by have := k.isLt; omega⟩ : Fin K) j)
/-- A length-`N` array as a vector. -/
abbrev vec {N : Nat} (b : (⟨1, ![N]⟩ : Shape).Idx → EReal) : Fin N → EReal := fun j => b (ix1 j)

/-- A row vector times a matrix. -/
def dotv {K N : Nat} (v : Fin K → EReal) (w : Fin K → Fin N → EReal) : Fin N → EReal := fun j => ∑ k : Fin K, v k * w k j

/-- `relu (x·W1a + gx·W1b + b1)`. -/
def zrow (x gx : Fin 128 → EReal) (w1a w1b : Fin 128 → Fin 128 → EReal) (b1 : Fin 128 → EReal) : Fin 128 → EReal :=
  fun j => max (dotv x w1a j + dotv gx w1b j + b1 j) 0
/-- `z·Wdr + bdr`. -/
def z0row (z : Fin 128 → EReal) (wdr : Fin 128 → Fin 128 → EReal) (bdr : Fin 128 → EReal) : Fin 128 → EReal :=
  fun j => dotv z wdr j + bdr j
/-- `(z + gx)·Wg1`. -/
def h1row (z gx : Fin 128 → EReal) (wg1 : Fin 128 → Fin 128 → EReal) : Fin 128 → EReal :=
  dotv (fun k => z k + gx k) wg1
/-- `relu (raw + b)`. -/
def z1row (raw bg : Fin 128 → EReal) : Fin 128 → EReal := fun j => max (raw j + bg j) 0
/-- `z1·Wg2`. -/
def h2row (z1 : Fin 128 → EReal) (wg2 : Fin 128 → Fin 128 → EReal) : Fin 128 → EReal := dotv z1 wg2
/-- `relu (z·W2a + z1·W2b + z2·W2c + b2)`. -/
def zcrow (z z1 z2 : Fin 128 → EReal) (w2a w2b w2c : Fin 128 → Fin 128 → EReal) (b2 : Fin 128 → EReal) : Fin 128 → EReal :=
  fun j => max (dotv z w2a j + dotv z1 w2b j + dotv z2 w2c j + b2 j) 0
/-- `relu ((zc + z0)·W3 + b3)`. -/
def zfrow (zc z0 : Fin 128 → EReal) (w3 : Fin 128 → Fin 64 → EReal) (b3 : Fin 64 → EReal) : Fin 64 → EReal :=
  fun j => max (dotv (fun k => zc k + z0 k) w3 j + b3 j) 0
/-- `zf·Wo + bo`. -/
def orow (zf : Fin 64 → EReal) (wo : Fin 64 → Fin 10 → EReal) (bo : Fin 10 → EReal) : Fin 10 → EReal :=
  fun j => dotv zf wo j + bo j
/-- The last dense block on one node: from the second aggregate `raw2` and the kept rows `z`, `z0`, `z1`. -/
def outrow (raw2 bg2 z z0 z1 : Fin 128 → EReal) (w2a w2b w2c : Fin 128 → Fin 128 → EReal) (b2 : Fin 128 → EReal)
    (w3 : Fin 128 → Fin 64 → EReal) (b3 : Fin 64 → EReal) (wo : Fin 64 → Fin 10 → EReal) (bo : Fin 10 → EReal) : Fin 10 → EReal :=
  orow (zfrow (zcrow z z1 (z1row raw2 bg2) w2a w2b w2c b2) z0 w3 b3) wo bo

/-- The whole network on `n` nodes around two message-passing steps. -/
def Net {n : Nat} (P₁ P₂ : (Fin n → Fin 128 → EReal) → (Fin n → Fin 128 → EReal)) (x gx : Fin n → Fin 128 → EReal)
    (w1a w1b : Fin 128 → Fin 128 → EReal) (b1 : Fin 128 → EReal) (wdr : Fin 128 → Fin 128 → EReal) (bdr : Fin 128 → EReal)
    (wg1 : Fin 128 → Fin 128 → EReal) (bg1 : Fin 128 → EReal) (wg2 : Fin 128 → Fin 128 → EReal) (bg2 : Fin 128 → EReal)
    (w2a w2b w2c : Fin 128 → Fin 128 → EReal) (b2 : Fin 128 → EReal) (w3 : Fin 128 → Fin 64 → EReal) (b3 : Fin 64 → EReal)
    (wo : Fin 64 → Fin 10 → EReal) (bo : Fin 10 → EReal) : Fin n → Fin 10 → EReal :=
  fun r =>
    outrow
      (P₂ (fun r₂ => h2row (z1row (P₁ (fun r₁ => h1row (zrow (x r₁) (gx r₁) w1a w1b b1) (gx r₁) wg1) r₂) bg1) wg2) r) bg2
      (zrow (x r) (gx r) w1a w1b b1)
      (z0row (zrow (x r) (gx r) w1a w1b b1) wdr bdr)
      (z1row (P₁ (fun r₁ => h1row (zrow (x r₁) (gx r₁) w1a w1b b1) (gx r₁) wg1) r) bg1)
      w2a w2b w2c b2 w3 b3 wo bo

/-- Splitting a contraction: a concatenated row against a matrix is the sum of the pieces against its row blocks. -/
theorem dotv_append {K₁ K₂ N : Nat} (u : Fin K₁ → EReal) (v : Fin K₂ → EReal) (w : Fin (K₁ + K₂) → Fin N → EReal) (j : Fin N) :
    dotv (Fin.append u v) w j = dotv u (fun k => w (Fin.castAdd K₂ k)) j + dotv v (fun k => w (Fin.natAdd K₁ k)) j := by
  unfold dotv
  rw [Fin.sum_univ_add]
  simp only [Fin.append_left, Fin.append_right]

end Cert.Net

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionA.lean ====
/-
  The first dense block, array by array.

  The first region walks the node axis in ten blocks of 5000 rows. At each block it holds the two node-feature arrays'
  rows of that block and every weight and bias array whole, and stores each of its three outputs once, whole. What it
  stores is row-local: row `p` of a stored block is a function of row `p` of the two feature blocks and of the
  weights alone — the rectified first dense stage `relu (x·W1a + gx·W1b + b1)`, its affine image `z·Wdr + bdr`, and
  the product `(z + gx)·Wg1`. The ten blocks tile the 50000 rows, so after the region each output ARRAY is, row by
  row, that row function of the same row of the input arrays: `final8`, `final9`, `final10`.

  The steps, per output: the stored block at an index (`pay1_apply`, `pay2_apply`, `pay3_apply`: each matrix product
  at an index is its contraction sum, the narrowing of formats is the identity on the extended reals, a bias row is
  spread over the rows); a block's coordinate in its array is block index × block size + the coordinate inside the block
  (`emb0` … `emb10`, from the index maps decided over the ten points, `idx_facts`); so what a point writes back is its
  block of the whole-array function (`flushed8_eq` …); every index lies in the block its row's quotient by 5000 names
  (`cover8` …); hence the array.
-/
import proofs.«134561_j13649406067417_2_alg».proof.Proof.Gen.KernelIdeal.Frame
import proofs.«134561_j13649406067417_2_alg».proof.Proof.Spec
import proofs.«134561_j13649406067417_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionA

open Cert.KernelIdeal Cert.KernelIdeal.Gen Idealize.ShloMosaic Idealize.ShloMosaic.ValueIdx Idealize.ShloMosaic.TcCoe Idealize.SL.Sem
open Idealize.ShloMosaic.Pipeline (Dat)
open Cert

/-- A product of a row block with a whole weight matrix into the zero accumulator, at an index: the contraction sum. -/
theorem mm_apply (l : FVec Ideal S5000x128 .bf16) (w : FVec Ideal S128x128 .bf16) (y : S5000x128.Idx) :
    matmul (F := Ideal) dot_S5000x128_S128x128_S5000x128_1_0_0_1_n_n none l w (constant (F := Ideal) S5000x128 .f32 0x00000000#32) y
      = ∑ k : Fin 128, l (ix2 (y 0) k) * w (ix2 k (y 1)) :=
  Cert.PlainDot.matmul_zero_apply 5000 128 128 none l w y

/-- A bias row spread over the rows of a block, at an index: the bias at the column. -/
theorem bias_apply (b : FVec Ideal S1x128 .f32) (p : Fin 5000) (j : Fin 128) :
    broadcastTo S5000x128 b broadcasts_S1x128_S5000x128 (ix2 p j) = b (ix2 0 j) :=
  broadcastTo_apply b broadcasts_S1x128_S5000x128 (ix2 p j) (ix2 0 j) (fun a => by
    match a with
    | ⟨0, _⟩ => rfl
    | ⟨1, _⟩ => rfl)

/-- Row `p` of the first stored block is the rectified first dense stage of row `p` of the two feature blocks. -/
theorem pay1_apply (v0 v1 : Vec Ideal S5000x128 .f32) (v3 v7 : Vec Ideal S128x128 .bf16) (v11 : Vec Ideal S1x128 .f32)
    (p : Fin 5000) (j : Fin 128) :
    k0_pay1 (F := Ideal) v0 v1 v3 v7 v11 (ix2 p j)
      = Net.zrow (fun k => v0 (ix2 p k)) (fun k => v1 (ix2 p k)) (Net.mat v3) (Net.mat v7) (fun k => v11 (ix2 0 k)) j := by
  unfold k0_pay1
  simp only [shapeCast_self]
  rw [maximumf_apply, addf_apply, addf_apply, mm_apply, mm_apply, bias_apply]
  exact congrArg (max _) Ideal.ofBits_zero_f32

/-- Row `p` of the second stored block is the affine stage of row `p` of the first. -/
theorem pay2_apply (v0 v1 : Vec Ideal S5000x128 .f32) (v3 v7 : Vec Ideal S128x128 .bf16) (v11 : Vec Ideal S1x128 .f32)
    (v19 : Vec Ideal S128x128 .bf16) (v22 : Vec Ideal S1x128 .f32) (p : Fin 5000) (j : Fin 128) :
    k0_pay2 (F := Ideal) v0 v1 v3 v7 v11 v19 v22 (ix2 p j)
      = Net.z0row (Net.zrow (fun k => v0 (ix2 p k)) (fun k => v1 (ix2 p k)) (Net.mat v3) (Net.mat v7) (fun k => v11 (ix2 0 k)))
          (Net.mat v19) (fun k => v22 (ix2 0 k)) j := by
  unfold k0_pay2
  simp only [shapeCast_self]
  rw [addf_apply, mm_apply, bias_apply]
  show (∑ k : Fin 128, k0_pay1 (F := Ideal) v0 v1 v3 v7 v11 (ix2 p k) * v19 (ix2 k j)) + v22 (ix2 0 j) = _
  simp only [pay1_apply]
  rfl

/-- Row `p` of the third stored block is the product stage of row `p` of the first block plus the second feature block. -/
theorem pay3_apply (v0 v1 : Vec Ideal S5000x128 .f32) (v3 v7 : Vec Ideal S128x128 .bf16) (v11 : Vec Ideal S1x128 .f32)
    (v29 : Vec Ideal S128x128 .bf16) (p : Fin 5000) (j : Fin 128) :
    k0_pay3 (F := Ideal) v0 v1 v3 v7 v11 v29 (ix2 p j)
      = Net.h1row (Net.zrow (fun k => v0 (ix2 p k)) (fun k => v1 (ix2 p k)) (Net.mat v3) (Net.mat v7) (fun k => v11 (ix2 0 k)))
          (fun k => v1 (ix2 p k)) (Net.mat v29) j := by
  unfold k0_pay3
  simp only [shapeCast_self]
  rw [mm_apply]
  show (∑ k : Fin 128, (k0_pay1 (F := Ideal) v0 v1 v3 v7 v11 (ix2 p k) + v1 (ix2 p k)) * v29 (ix2 k j)) = _
  simp only [pay1_apply]
  rfl

/-- The zero offsets, however spelt. -/
theorem hz : (![0, 0] : Fin 2 → Nat) = fun _ => 0 := funext fun a => by fin_cases a <;> rfl

/-- The index maps, decided once over the ten grid points: every row-blocked window moves with the node-axis block
    of the first output, the weight and bias windows stay at block zero, and the node-axis block index is below ten. -/
theorem idx_facts : ∀ t : Fin cfg0.N,
      win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_9.index t (0 : Fin 2) = win0_8.index t (0 : Fin 2) ∧ win0_9.index t (1 : Fin 2) = 0
    ∧ win0_10.index t (0 : Fin 2) = win0_8.index t (0 : Fin 2) ∧ win0_10.index t (1 : Fin 2) = 0
    ∧ win0_8.index t (0 : Fin 2) ≤ 9 ∧ win0_8.index t (1 : Fin 2) = 0 :=
  (by decide +kernel : ∀ t : Fin grid0.N, _)

/-- Every node-axis block is some point's. -/
theorem idx_onto : ∀ q0 : Fin 10, ∃ t : Fin cfg0.N, win0_8.index t (0 : Fin 2) = q0.val :=
  (by decide +kernel : ∀ q0 : Fin 10, ∃ t : Fin grid0.N, win0_8.index t (0 : Fin 2) = q0.val)

/-- The array row that row `p` of point `t`'s block is. -/
def row (t : Fin cfg0.N) (p : Fin 5000) : Fin 50000 :=
  ⟨win0_8.index t (0 : Fin 2) * 5000 + p.val, by have := (idx_facts t).2.2.2.2.2.2.2.2.2.2.2.2.2.2.2.2.2.2.2.2.1; have := p.isLt; omega⟩

/-! A block's coordinate in its array is the block index times the block size plus the coordinate inside the block. -/

theorem emb0 (t : Fin cfg0.N) (p : Fin 5000) (k : Fin 128) : ((cfg0.win 0).blk t).view.emb (ix2 p k) = ix2 (row t p) k := by
  obtain ⟨e0, e1, -⟩ := idx_facts t
  funext a; apply Fin.ext
  match a with
  | ⟨0, _⟩ => show win0_0.index t (0 : Fin 2) * 5000 + 1 * p.val = win0_8.index t (0 : Fin 2) * 5000 + p.val; omega
  | ⟨1, _⟩ => show win0_0.index t (1 : Fin 2) * 128 + 1 * k.val = k.val; omega

theorem emb1 (t : Fin cfg0.N) (p : Fin 5000) (k : Fin 128) : ((cfg0.win 1).blk t).view.emb (ix2 p k) = ix2 (row t p) k := by
  obtain ⟨-, -, e0, e1, -⟩ := idx_facts t
  funext a; apply Fin.ext
  match a with
  | ⟨0, _⟩ => show win0_1.index t (0 : Fin 2) * 5000 + 1 * p.val = win0_8.index t (0 : Fin 2) * 5000 + p.val; omega
  | ⟨1, _⟩ => show win0_1.index t (1 : Fin 2) * 128 + 1 * k.val = k.val; omega

theorem emb2 (t : Fin cfg0.N) (x : S128x128.Idx) : ((cfg0.win 2).blk t).view.emb x = x := by
  obtain ⟨-, -, -, -, e0, e1, -⟩ := idx_facts t
  funext a; apply Fin.ext
  match a with
  | ⟨0, _⟩ => show win0_2.index t (0 : Fin 2) * 128 + 1 * (x 0).val = (x 0).val; omega
  | ⟨1, _⟩ => show win0_2.index t (1 : Fin 2) * 128 + 1 * (x 1).val = (x 1).val; omega

theorem emb3 (t : Fin cfg0.N) (x : S128x128.Idx) : ((cfg0.win 3).blk t).view.emb x = x := by
  obtain ⟨-, -, -, -, -, -, e0, e1, -⟩ := idx_facts t
  funext a; apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

theorem emb4 (t : Fin cfg0.N) (x : S1x128.Idx) : ((cfg0.win 4).blk t).view.emb x = x := by
  obtain ⟨-, -, -, -, -, -, -, -, e0, e1, -⟩ := idx_facts t
  funext a; apply Fin.ext
  match a with
  | ⟨0, _⟩ => show win0_4.index t (0 : Fin 2) * 1 + 1 * (x 0).val = (x 0).val; omega
  | ⟨1, _⟩ => show win0_4.index t (1 : Fin 2) * 128 + 1 * (x 1).val = (x 1).val; omega

theorem emb5 (t : Fin cfg0.N) (x : S128x128.Idx) : ((cfg0.win 5).blk t).view.emb x = x := by
  obtain ⟨-, -, -, -, -, -, -, -, -, -, e0, e1, -⟩ := idx_facts t
  funext a; apply Fin.ext
  match a with
  | ⟨0, _⟩ => show win0_5.index t (0 : Fin 2) * 128 + 1 * (x 0).val = (x 0).val; omega
  | ⟨1, _⟩ => show win0_5.index t (1 : Fin 2) * 128 + 1 * (x 1).val = (x 1).val; omega

theorem emb6 (t : Fin cfg0.N) (x : S1x128.Idx) : ((cfg0.win 6).blk t).view.emb x = x := by
  obtain ⟨-, -, -, -, -, -, -, -, -, -, -, -, e0, e1, -⟩ := idx_facts t
  funext a; apply Fin.ext
  match a with
  | ⟨0, _⟩ => show win0_6.index t (0 : Fin 2) * 1 + 1 * (x 0).val = (x 0).val; omega
  | ⟨1, _⟩ => show win0_6.index t (1 : Fin 2) * 128 + 1 * (x 1).val = (x 1).val; omega

theorem emb7 (t : Fin cfg0.N) (x : S128x128.Idx) : ((cfg0.win 7).blk t).view.emb x = x := by
  obtain ⟨-, -, -, -, -, -, -, -, -, -, -, -, -, -, e0, e1, -⟩ := idx_facts t
  funext a; apply Fin.ext
  match a with
  | ⟨0, _⟩ => show win0_7.index t (0 : Fin 2) * 128 + 1 * (x 0).val = (x 0).val; omega
  | ⟨1, _⟩ => show win0_7.index t (1 : Fin 2) * 128 + 1 * (x 1).val = (x 1).val; omega

theorem emb8 (t : Fin cfg0.N) (p : Fin 5000) (k : Fin 128) : ((cfg0.win 8).blk t).view.emb (ix2 p k) = ix2 (row t p) k := by
  have e1 := (idx_facts t).2.2.2.2.2.2.2.2.2.2.2.2.2.2.2.2.2.2.2.2.2
  funext a; apply Fin.ext
  match a with
  | ⟨0, _⟩ => show win0_8.index t (0 : Fin 2) * 5000 + 1 * p.val = win0_8.index t (0 : Fin 2) * 5000 + p.val; omega
  | ⟨1, _⟩ => show win0_8.index t (1 : Fin 2) * 128 + 1 * k.val = k.val; omega

theorem emb9 (t : Fin cfg0.N) (p : Fin 5000) (k : Fin 128) : ((cfg0.win 9).blk t).view.emb (ix2 p k) = ix2 (row t p) k := by
  obtain ⟨-, -, -, -, -, -, -, -, -, -, -, -, -, -, -, -, e0, e1, -⟩ := idx_facts t
  funext a; apply Fin.ext
  match a with
  | ⟨0, _⟩ => show win0_9.index t (0 : Fin 2) * 5000 + 1 * p.val = win0_8.index t (0 : Fin 2) * 5000 + p.val; omega
  | ⟨1, _⟩ => show win0_9.index t (1 : Fin 2) * 128 + 1 * k.val = k.val; omega

theorem emb10 (t : Fin cfg0.N) (p : Fin 5000) (k : Fin 128) : ((cfg0.win 10).blk t).view.emb (ix2 p k) = ix2 (row t p) k := by
  obtain ⟨-, -, -, -, -, -, -, -, -, -, -, -, -, -, -, -, -, -, e0, e1, -⟩ := idx_facts t
  funext a; apply Fin.ext
  match a with
  | ⟨0, _⟩ => show win0_10.index t (0 : Fin 2) * 5000 + 1 * p.val = win0_8.index t (0 : Fin 2) * 5000 + p.val; omega
  | ⟨1, _⟩ => show win0_10.index t (1 : Fin 2) * 128 + 1 * k.val = k.val; omega

variable (V : (c : Dev nD) → (b : Ref sig .tc) → Buf (Elt Ideal) ((c : Thread nD τ).loc b))

/-! Each input block is its array read through the block: a row of a feature block is the array's row, and a weight
    or bias block is the whole array. -/

theorem blk0_row (c : Dev nD) (t : Fin cfg0.N) (p : Fin 5000) (k : Fin 128) :
    iblk0 (F := Ideal) V c 0 t (ix2 p k) = V c main_arg0 (ix2 (row t p) k) := by
  unfold iblk0
  exact congrArg (V c main_arg0) (emb0 t p k)

theorem blk1_row (c : Dev nD) (t : Fin cfg0.N) (p : Fin 5000) (k : Fin 128) :
    iblk0 (F := Ideal) V c 1 t (ix2 p k) = V c main_arg1 (ix2 (row t p) k) := by
  unfold iblk0
  exact congrArg (V c main_arg1) (emb1 t p k)

theorem blk2_eq (c : Dev nD) (t : Fin cfg0.N) : iblk0 (F := Ideal) V c 2 t = V c main_v35 := by
  unfold iblk0
  exact funext fun x => congrArg (V c main_v35) (emb2 t x)

theorem blk3_eq (c : Dev nD) (t : Fin cfg0.N) : iblk0 (F := Ideal) V c 3 t = V c main_v36 := by
  unfold iblk0
  exact funext fun x => congrArg (V c main_v36) (emb3 t x)

theorem blk4_eq (c : Dev nD) (t : Fin cfg0.N) : iblk0 (F := Ideal) V c 4 t = V c main_v45 := by
  unfold iblk0
  exact funext fun x => congrArg (V c main_v45) (emb4 t x)

theorem blk5_eq (c : Dev nD) (t : Fin cfg0.N) : iblk0 (F := Ideal) V c 5 t = V c main_v37 := by
  unfold iblk0
  exact funext fun x => congrArg (V c main_v37) (emb5 t x)

theorem blk6_eq (c : Dev nD) (t : Fin cfg0.N) : iblk0 (F := Ideal) V c 6 t = V c main_v46 := by
  unfold iblk0
  exact funext fun x => congrArg (V c main_v46) (emb6 t x)

theorem blk7_eq (c : Dev nD) (t : Fin cfg0.N) : iblk0 (F := Ideal) V c 7 t = V c main_v38 := by
  unfold iblk0
  exact funext fun x => congrArg (V c main_v38) (emb7 t x)

/-! ## The first output: the rectified first dense stage, row by row -/

/-- What the first output array ends holding. -/
abbrev G8 (c : Dev nD) : S50000x128.Idx → EReal :=
  Net.arr (m := 50000) (n := 128) (fun r => Net.zrow (Net.mat (m := 50000) (n := 128) (V c main_arg0) r) (Net.mat (m := 50000) (n := 128) (V c main_arg1) r)
    (Net.mat (m := 128) (n := 128) (V c main_v35)) (Net.mat (m := 128) (n := 128) (V c main_v36)) (fun j => V c main_v45 (ix2 0 j)))

/-- What point `t` writes back is block `t` of it. -/
theorem flushed8_eq (c : Dev nD) (t : Fin cfg0.N) :
    (dat0 (F := Ideal) V c).flushed 8 t = ((cfg0.win 8).blk t).view.read (Elt Ideal) (G8 V c) := by
  show (cfg0.win 8).cut (grid0.coords t) ((dat0 (F := Ideal) V c).after 8 t) = _
  rw [after0_8]
  unfold out0_8
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 (n0 := 5000) (n1 := 128) y⟩
  refine (pay1_apply _ _ _ _ _ p q).trans ?_
  show _ = G8 V c (((cfg0.win 8).blk t).view.emb (ix2 p q))
  rw [emb8 t p q, blk2_eq, blk3_eq, blk4_eq]
  simp only [blk0_row, blk1_row]

/-- An index of the array is in point `t`'s block iff each coordinate is in the block's range on its axis. -/
theorem mem_blk8 (t : Fin cfg0.N) (i : S50000x128.Idx) :
    i ∈ ((cfg0.win 8).blk t).view.set ↔ ∀ a : Fin 2, win0_8.index t a * S5000x128.size a ≤ (i a).val ∧ (i a).val < win0_8.index t a * S5000x128.size a + S5000x128.size a := by
  show i ∈ ((View.whole main_v52_0).slice (win0_8.rect t)).set ↔ _
  rw [View.set_slice_whole, Rect.mem_set_unit]
  exact Iff.rfl

/-- The ten blocks fill the array: a row lies in the block its quotient by the block height names. -/
theorem cover8 (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := idx_onto ⟨(i 0).val / 5000, by omega⟩
  have q0 : win0_8.index t (0 : Fin 2) = (i 0).val / 5000 := ht
  have q1 : win0_8.index t (1 : Fin 2) = 0 := (idx_facts t).2.2.2.2.2.2.2.2.2.2.2.2.2.2.2.2.2.2.2.2.2
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- The first output array after the region. -/
theorem final8 (c : Dev nD) : (Gen.dat0 (F := Ideal) V c).arrAt 8 cfg0.N = G8 V c :=
  (Gen.dat0 (F := Ideal) V c).arrAt_eq_of_cover 8 (G8 V c) (fun t _ => flushed8_eq V c t) cover8

/-! ## The second output: the affine stage of the first, row by row -/

/-- What the second output array ends holding. -/
abbrev G9 (c : Dev nD) : S50000x128.Idx → EReal :=
  Net.arr (m := 50000) (n := 128) (fun r => Net.z0row (Net.zrow (Net.mat (m := 50000) (n := 128) (V c main_arg0) r) (Net.mat (m := 50000) (n := 128) (V c main_arg1) r)
      (Net.mat (m := 128) (n := 128) (V c main_v35)) (Net.mat (m := 128) (n := 128) (V c main_v36)) (fun j => V c main_v45 (ix2 0 j)))
    (Net.mat (m := 128) (n := 128) (V c main_v37)) (fun j => V c main_v46 (ix2 0 j)))

/-- What point `t` writes back is block `t` of it. -/
theorem flushed9_eq (c : Dev nD) (t : Fin cfg0.N) :
    (dat0 (F := Ideal) V c).flushed 9 t = ((cfg0.win 9).blk t).view.read (Elt Ideal) (G9 V c) := by
  show (cfg0.win 9).cut (grid0.coords t) ((dat0 (F := Ideal) V c).after 9 t) = _
  rw [after0_9]
  unfold out0_9
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 (n0 := 5000) (n1 := 128) y⟩
  refine (pay2_apply _ _ _ _ _ _ _ p q).trans ?_
  show _ = G9 V c (((cfg0.win 9).blk t).view.emb (ix2 p q))
  rw [emb9 t p q, blk2_eq, blk3_eq, blk4_eq, blk5_eq, blk6_eq]
  simp only [blk0_row, blk1_row]

/-- An index of the array is in point `t`'s block iff each coordinate is in the block's range on its axis. -/
theorem mem_blk9 (t : Fin cfg0.N) (i : S50000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v52_1).slice (win0_9.rect t)).set ↔ _
  rw [View.set_slice_whole, Rect.mem_set_unit]
  exact Iff.rfl

/-- The ten blocks fill the array. -/
theorem cover9 (i : S50000x128.Idx) : ∃ t : Fin cfg0.N, (cfg0.win 9).flush t = true ∧ i ∈ ((cfg0.win 9).blk t).view.set := by
  have hi0 : (i 0).val < 50000 := (i 0).isLt
  have hi1 : (i 1).val < 128 := (i 1).isLt
  obtain ⟨t, ht⟩ := idx_onto ⟨(i 0).val / 5000, by omega⟩
  have q0 : win0_8.index t (0 : Fin 2) = (i 0).val / 5000 := ht
  obtain ⟨-, -, -, -, -, -, -, -, -, -, -, -, -, -, -, -, e0, e1, -⟩ := idx_facts t
  refine ⟨t, flush0_9 t, ?_⟩
  rw [mem_blk9]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- The second output array after the region. -/
theorem final9 (c : Dev nD) : (Gen.dat0 (F := Ideal) V c).arrAt 9 cfg0.N = G9 V c :=
  (Gen.dat0 (F := Ideal) V c).arrAt_eq_of_cover 9 (G9 V c) (fun t _ => flushed9_eq V c t) cover9

/-! ## The third output: the product stage of the first output plus the second feature array, row by row -/

/-- What the third output array ends holding. -/
abbrev G10 (c : Dev nD) : S50000x128.Idx → EReal :=
  Net.arr (m := 50000) (n := 128) (fun r => Net.h1row (Net.zrow (Net.mat (m := 50000) (n := 128) (V c main_arg0) r) (Net.mat (m := 50000) (n := 128) (V c main_arg1) r)
      (Net.mat (m := 128) (n := 128) (V c main_v35)) (Net.mat (m := 128) (n := 128) (V c main_v36)) (fun j => V c main_v45 (ix2 0 j)))
    (Net.mat (m := 50000) (n := 128) (V c main_arg1) r) (Net.mat (m := 128) (n := 128) (V c main_v38)))

/-- What point `t` writes back is block `t` of it. -/
theorem flushed10_eq (c : Dev nD) (t : Fin cfg0.N) :
    (dat0 (F := Ideal) V c).flushed 10 t = ((cfg0.win 10).blk t).view.read (Elt Ideal) (G10 V c) := by
  show (cfg0.win 10).cut (grid0.coords t) ((dat0 (F := Ideal) V c).after 10 t) = _
  rw [after0_10]
  unfold out0_10
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 (n0 := 5000) (n1 := 128) y⟩
  refine (pay3_apply _ _ _ _ _ _ p q).trans ?_
  show _ = G10 V c (((cfg0.win 10).blk t).view.emb (ix2 p q))
  rw [emb10 t p q, blk2_eq, blk3_eq, blk4_eq, blk7_eq]
  simp only [blk0_row, blk1_row]

/-- An index of the array is in point `t`'s block iff each coordinate is in the block's range on its axis. -/
theorem mem_blk10 (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v52_2).slice (win0_10.rect t)).set ↔ _
  rw [View.set_slice_whole, Rect.mem_set_unit]
  exact Iff.rfl

/-- The ten blocks fill the array. -/
theorem cover10 (i : S50000x128.Idx) : ∃ t : Fin cfg0.N, (cfg0.win 10).flush t = true ∧ i ∈ ((cfg0.win 10).blk t).view.set := by
  have hi0 : (i 0).val < 50000 := (i 0).isLt
  have hi1 : (i 1).val < 128 := (i 1).isLt
  obtain ⟨t, ht⟩ := idx_onto ⟨(i 0).val / 5000, by omega⟩
  have q0 : win0_8.index t (0 : Fin 2) = (i 0).val / 5000 := ht
  obtain ⟨-, -, -, -, -, -, -, -, -, -, -, -, -, -, -, -, -, -, e0, e1, -⟩ := idx_facts t
  refine ⟨t, flush0_10 t, ?_⟩
  rw [mem_blk10]
  intro a
  match a with
  | ⟨0, _⟩ => show win0_10.index t (0 : Fin 2) * 5000 ≤ (i 0).val ∧ (i 0).val < win0_10.index t (0 : Fin 2) * 5000 + 5000; omega
  | ⟨1, _⟩ => show win0_10.index t (1 : Fin 2) * 128 ≤ (i 1).val ∧ (i 1).val < win0_10.index t (1 : Fin 2) * 128 + 128; omega

/-- The third output array after the region. -/
theorem final10 (c : Dev nD) : (Gen.dat0 (F := Ideal) V c).arrAt 10 cfg0.N = G10 V c :=
  (Gen.dat0 (F := Ideal) V c).arrAt_eq_of_cover 10 (G10 V c) (fun t _ => flushed10_eq V c t) cover10

/-! ## The same three arrays with the row functions written out -/

theorem final8' (c : Dev nD) : (Gen.dat0 (F := Ideal) V c).arrAt 8 cfg0.N
    = Net.arr (fun r => Net.zrow (Net.mat (V c main_arg0) r) (Net.mat (V c main_arg1) r) (Net.mat (V c main_v35)) (Net.mat (V c main_v36)) (fun j => V c main_v45 (ix2 0 j))) :=
  final8 V c
theorem final9' (c : Dev nD) : (Gen.dat0 (F := Ideal) V c).arrAt 9 cfg0.N
    = Net.arr (fun r => Net.z0row (Net.zrow (Net.mat (V c main_arg0) r) (Net.mat (V c main_arg1) r) (Net.mat (V c main_v35)) (Net.mat (V c main_v36)) (fun j => V c main_v45 (ix2 0 j))) (Net.mat (V c main_v37)) (fun j => V c main_v46 (ix2 0 j))) :=
  final9 V c
theorem final10' (c : Dev nD) : (Gen.dat0 (F := Ideal) V c).arrAt 10 cfg0.N
    = Net.arr (fun r => Net.h1row (Net.zrow (Net.mat (V c main_arg0) r) (Net.mat (V c main_arg1) r) (Net.mat (V c main_v35)) (Net.mat (V c main_v36)) (fun j => V c main_v45 (ix2 0 j))) (Net.mat (V c main_arg1) r) (Net.mat (V c main_v38))) :=
  final10 V c

end Cert.KernelIdeal.RegionA

end
-- ==== Proof.RegionB.lean ====
/-
  Region 1 of the kernel program, read as arrays.

  The region tiles the node axis in ten blocks of 5000 rows; point `t` sees rows `5000 t … 5000 t + 4999` of the
  aggregate `raw1`, and the bias row and the weight matrix whole. Its two stores are row-local: row `p` of the first
  is `relu (raw1 row + bias)`, row `p` of the second that row times the weights. So, whatever the buffers hold when
  the region is entered, each output array ends, row by row, at the network's row function of the same row of `raw1`.
-/
import proofs.«134561_j13649406067417_2_alg».proof.Proof.Gen.KernelIdeal.Frame
import proofs.«134561_j13649406067417_2_alg».proof.Proof.Spec
import proofs.«134561_j13649406067417_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384
set_option pp.maxSteps 5000
set_option pp.deepTerms false

noncomputable section

namespace Cert.KernelIdeal.RegionB

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The stored values at an entry of a block -/

/-- `relu (raw + bias)` at row `p`, column `j` of a block. -/
theorem pay1_apply (v0 : Vec Ideal S5000x128 .f32) (v2 : Vec Ideal S1x128 .f32) (p : Fin 5000) (j : Fin 128) :
    k1_pay1 v0 v2 (ix2 p j) = Net.z1row (fun k => v0 (ix2 p k)) (fun k => v2 (ix2 0 k)) j := by
  unfold k1_pay1 Net.z1row
  show max (shapeCast S5000x128 v0 _ (ix2 p j) + broadcastTo S5000x128 (shapeCast S1x128 v2 _) _ (ix2 p j)) (Ideal.ofBits .f32 0x00000000#32)
    = max (v0 (ix2 p j) + v2 (ix2 0 j)) 0
  rw [shapeCast_self, shapeCast_self, Ideal.ofBits_zero_f32]
  refine congrArg (fun e => max (v0 (ix2 p j) + e) 0) ?_
  exact broadcastTo_apply v2 _ (ix2 p j) (ix2 0 j) (fun a => by
    match a with
    | ⟨0, _⟩ => rfl
    | ⟨1, _⟩ => rfl)

/-- That row times the weight matrix. -/
theorem pay2_apply (v0 : Vec Ideal S5000x128 .f32) (v2 : Vec Ideal S1x128 .f32) (v10 : Vec Ideal S128x128 .bf16) (p : Fin 5000) (j : Fin 128) :
    k1_pay2 v0 v2 v10 (ix2 p j)
      = Net.h2row (Net.z1row (fun k => v0 (ix2 p k)) (fun k => v2 (ix2 0 k))) (fun k j => v10 (ix2 k j)) j := by
  unfold k1_pay2 Net.h2row Net.dotv
  show FloatOps.matmul (DotDims.plain 5000 128 128) none (truncf .bf16 (k1_pay1 v0 v2) _) (shapeCast S128x128 v10 _) (constant S5000x128 .f32 0x00000000#32) (ix2 p j) = _
  rw [shapeCast_self]
  refine (Cert.PlainDot.matmul_zero_apply 5000 128 128 (φ₁ := .bf16) (φ₂ := .bf16) none (truncf .bf16 (k1_pay1 v0 v2) bitsLt_bf16_f32) v10 (ix2 p j)).trans ?_
  refine Finset.sum_congr rfl fun k _ => ?_
  exact congrArg (· * v10 (ix2 k j)) (pay1_apply v0 v2 p k)

/-! ## From blocks to arrays -/

/-- The row-blocked windows sit at block `(t, 0)`, the bias and the weights at block `(0, 0)`. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0
    ∧ win1_4.index t (0 : Fin 2) = win1_3.index t (0 : Fin 2) ∧ win1_4.index t (1 : Fin 2) = 0 :=
  (by decide +kernel : ∀ t : Fin grid1.N, _)

/-- Every block of rows is some point's. -/
theorem idx_onto : ∀ q0 : Fin 10, ∃ t : Fin cfg1.N, win1_3.index t = ![q0.val, 0] ∧ win1_4.index t = ![q0.val, 0] :=
  (by decide +kernel : ∀ q0 : Fin 10, ∃ t : Fin grid1.N, win1_3.index t = ![q0.val, 0] ∧ win1_4.index t = ![q0.val, 0])

/-- The first output array: `relu (raw1 + bias)`, row by row. -/
abbrev G3 (c : Dev nD) : S50000x128.Idx → EReal :=
  Net.arr (m := 50000) (n := 128) (fun r => Net.z1row (Net.mat (m := 50000) (n := 128) (V c main_v65) r) (fun j => V c main_v47 (ix2 0 j)))
/-- The second: that row times the weights. -/
abbrev G4 (c : Dev nD) : S50000x128.Idx → EReal :=
  Net.arr (m := 50000) (n := 128) (fun r => Net.h2row (Net.z1row (Net.mat (m := 50000) (n := 128) (V c main_v65) r) (fun j => V c main_v47 (ix2 0 j)))
    (Net.mat (m := 128) (n := 128) (V c main_v39)))

/-- Row `p` of point `t`'s block of `raw1` is row `5000 t + p` of the array, read at the output's block. -/
theorem row0 (c : Dev nD) (t : Fin cfg1.N) (y : S5000x128.Idx) (k : Fin 128) :
    iblk1 V c 0 t (ix2 (y 0) k) = Net.mat (m := 50000) (n := 128) (V c main_v65) ((((cfg1.win 3).blk t).view.emb y) 0) k := by
  obtain ⟨e00, e01, e10, e11, e20, e21, e31, e40, e41⟩ := idx_facts t
  show V c main_v65 (((cfg1.win 0).blk t).view.emb (ix2 (y 0) k)) = V c main_v65 (ix2 ((((cfg1.win 3).blk t).view.emb y) 0) k)
  refine congrArg (V c main_v65) (funext fun a => Fin.ext ?_)
  match a with
  | ⟨0, _⟩ => show win1_0.index t (0 : Fin 2) * 5000 + 1 * (y 0).val = win1_3.index t (0 : Fin 2) * 5000 + 1 * (y 0).val; omega
  | ⟨1, _⟩ => show win1_0.index t (1 : Fin 2) * 128 + 1 * k.val = k.val; omega

/-- The bias row, held whole at every point. -/
theorem row1 (c : Dev nD) (t : Fin cfg1.N) (k : Fin 128) :
    iblk1 V c 1 t (ix2 0 k) = V c main_v47 (ix2 0 k) := by
  obtain ⟨e00, e01, e10, e11, e20, e21, e31, e40, e41⟩ := idx_facts t
  show V c main_v47 (((cfg1.win 1).blk t).view.emb (ix2 0 k)) = V c main_v47 (ix2 0 k)
  refine congrArg (V c main_v47) (funext fun a => Fin.ext ?_)
  match a with
  | ⟨0, _⟩ => show win1_1.index t (0 : Fin 2) * 1 + 1 * 0 = 0; omega
  | ⟨1, _⟩ => show win1_1.index t (1 : Fin 2) * 128 + 1 * k.val = k.val; omega

/-- The weight matrix, held whole at every point. -/
theorem row2 (c : Dev nD) (t : Fin cfg1.N) (k j : Fin 128) :
    iblk1 V c 2 t (ix2 k j) = V c main_v39 (ix2 k j) := by
  obtain ⟨e00, e01, e10, e11, e20, e21, e31, e40, e41⟩ := idx_facts t
  show V c main_v39 (((cfg1.win 2).blk t).view.emb (ix2 k j)) = V c main_v39 (ix2 k j)
  refine congrArg (V c main_v39) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The column of an entry of the output's block is its column in the array. -/
theorem col3 (t : Fin cfg1.N) (y : S5000x128.Idx) : ((((cfg1.win 3).blk t).view.emb y) 1 : Fin 128) = y 1 := by
  obtain ⟨e00, e01, e10, e11, e20, e21, e31, e40, e41⟩ := idx_facts t
  refine Fin.ext ?_
  show win1_3.index t (1 : Fin 2) * 128 + 1 * (y 1).val = (y 1).val; omega

/-- What point `t` writes back through the first output window is its block of `G3`. -/
theorem flushed3_eq (c : Dev nD) (t : Fin cfg1.N) :
    (dat1 (F := Ideal) V c).flushed 3 t = ((cfg1.win 3).blk t).view.read (Elt Ideal) (G3 V c) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz]
  funext y
  show k1_pay1 (iblk1 V c 0 t) (iblk1 V c 1 t) y
    = Net.z1row (Net.mat (m := 50000) (n := 128) (V c main_v65) ((((cfg1.win 3).blk t).view.emb y) 0)) (fun j => V c main_v47 (ix2 0 j)) ((((cfg1.win 3).blk t).view.emb y) 1)
  rw [col3 t y]
  have hy : y = ix2 (y 0) (y 1) := eq_ix2 y
  refine (congrArg (k1_pay1 (iblk1 V c 0 t) (iblk1 V c 1 t)) hy).trans ?_
  refine (pay1_apply (iblk1 V c 0 t) (iblk1 V c 1 t) (y 0) (y 1)).trans ?_
  refine congrArg₂ (fun a b => Net.z1row a b (y 1)) (funext fun k => row0 V c t y k) (funext fun k => row1 V c t k)

/-- The second output window's blocks sit where the first's do. -/
theorem row0' (c : Dev nD) (t : Fin cfg1.N) (y : S5000x128.Idx) (k : Fin 128) :
    iblk1 V c 0 t (ix2 (y 0) k) = Net.mat (m := 50000) (n := 128) (V c main_v65) ((((cfg1.win 4).blk t).view.emb y) 0) k := by
  obtain ⟨e00, e01, e10, e11, e20, e21, e31, e40, e41⟩ := idx_facts t
  show V c main_v65 (((cfg1.win 0).blk t).view.emb (ix2 (y 0) k)) = V c main_v65 (ix2 ((((cfg1.win 4).blk t).view.emb y) 0) k)
  refine congrArg (V c main_v65) (funext fun a => Fin.ext ?_)
  match a with
  | ⟨0, _⟩ => show win1_0.index t (0 : Fin 2) * 5000 + 1 * (y 0).val = win1_4.index t (0 : Fin 2) * 5000 + 1 * (y 0).val; omega
  | ⟨1, _⟩ => show win1_0.index t (1 : Fin 2) * 128 + 1 * k.val = k.val; omega

theorem col4 (t : Fin cfg1.N) (y : S5000x128.Idx) : ((((cfg1.win 4).blk t).view.emb y) 1 : Fin 128) = y 1 := by
  obtain ⟨e00, e01, e10, e11, e20, e21, e31, e40, e41⟩ := idx_facts t
  refine Fin.ext ?_
  show win1_4.index t (1 : Fin 2) * 128 + 1 * (y 1).val = (y 1).val; omega

/-- What point `t` writes back through the second output window is its block of `G4`. -/
theorem flushed4_eq (c : Dev nD) (t : Fin cfg1.N) :
    (dat1 (F := Ideal) V c).flushed 4 t = ((cfg1.win 4).blk t).view.read (Elt Ideal) (G4 V c) := by
  show (cfg1.win 4).cut (grid1.coords t) ((dat1 V c).after 4 t) = _
  rw [after1_4]
  unfold out1_4
  rw [View.canon_unit_zero hz]
  simp only [View.ld_unit_zero (S := S5000x128) hz, View.ld_unit_zero (S := S1x128) hz, View.ld_unit_zero (S := S128x128) hz]
  funext y
  show k1_pay2 (iblk1 V c 0 t) (iblk1 V c 1 t) (iblk1 V c 2 t) y
    = Net.h2row (Net.z1row (Net.mat (m := 50000) (n := 128) (V c main_v65) ((((cfg1.win 4).blk t).view.emb y) 0)) (fun j => V c main_v47 (ix2 0 j)))
        (Net.mat (m := 128) (n := 128) (V c main_v39)) ((((cfg1.win 4).blk t).view.emb y) 1)
  rw [col4 t y]
  have hy : y = ix2 (y 0) (y 1) := eq_ix2 y
  refine (congrArg (k1_pay2 (iblk1 V c 0 t) (iblk1 V c 1 t) (iblk1 V c 2 t)) hy).trans ?_
  refine (pay2_apply (iblk1 V c 0 t) (iblk1 V c 1 t) (iblk1 V c 2 t) (y 0) (y 1)).trans ?_
  have h0 : (fun k => iblk1 V c 0 t (ix2 (y 0) k)) = Net.mat (m := 50000) (n := 128) (V c main_v65) ((((cfg1.win 4).blk t).view.emb y) 0) :=
    funext fun k => row0' V c t y k
  have h1 : (fun k => iblk1 V c 1 t (ix2 0 k)) = (fun j => V c main_v47 (ix2 0 j)) := funext fun k => row1 V c t k
  have h2 : (fun k j => iblk1 V c 2 t (ix2 k j)) = Net.mat (m := 128) (n := 128) (V c main_v39) :=
    funext fun k => funext fun j => row2 V c t k j
  rw [h0, h1, h2]

/-- An index of an output array is in point `t`'s block iff each coordinate is in the block's range. -/
theorem mem_blk3 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v66_0).slice (win1_3.rect t)).set ↔ _
  rw [View.set_slice_whole, Rect.mem_set_unit]
  exact Iff.rfl
theorem mem_blk4 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v66_1).slice (win1_4.rect t)).set ↔ _
  rw [View.set_slice_whole, Rect.mem_set_unit]
  exact Iff.rfl

/-- Every index of an output array lies in the block of the point that handles its row. -/
theorem cover3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht, -⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega
theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, -, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- THE ARRAYS after the region: `relu (raw1 + bias)` and that times the weights, row by row. -/
theorem final3 (c : Dev nD) : (dat1 (F := Ideal) V c).arrAt 3 cfg1.N = G3 V c :=
  (dat1 (F := Ideal) V c).arrAt_eq_of_cover 3 (G3 V c) (fun t _ => flushed3_eq V c t) cover3
theorem final4 (c : Dev nD) : (dat1 (F := Ideal) V c).arrAt 4 cfg1.N = G4 V c :=
  (dat1 (F := Ideal) V c).arrAt_eq_of_cover 4 (G4 V c) (fun t _ => flushed4_eq V c t) cover4

end Cert.KernelIdeal.RegionB

end
-- ==== Proof.RegionC.lean ====
/-
  Region 2 of the kernel program, read as an array.

  The region tiles the node axis in ten blocks of 5000 rows; point `t` sees rows `5000 t … 5000 t + 4999` of the second
  aggregate `raw2` and of the kept rows `z`, `z0`, `z1`, and every weight matrix and bias row whole. Its one store
  is row-local: row `p` of the stored block is the network's last dense block
  `relu ((relu (z·W2a + z1·W2b + relu (raw2 + bg2)·W2c + b2) + z0)·W3 + b3)·Wo + bo` of row `p` of those inputs. So,
  whatever the buffers hold when the region is entered, the output array ends, row by row, at that function of the
  same row of the input arrays.
-/
import proofs.«134561_j13649406067417_2_alg».proof.Proof.Gen.KernelIdeal.Frame
import proofs.«134561_j13649406067417_2_alg».proof.Proof.Spec
import proofs.«134561_j13649406067417_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionC

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The stored value at an entry of a block -/

/-- A row vector broadcast down the rows, at an index: the row's entry in that column. -/
theorem broadcastRow_apply {M N : Nat} (v : (⟨2, ![1, N]⟩ : Shape).Idx → EReal)
    (h : (⟨2, ![1, N]⟩ : Shape).Broadcasts ⟨2, ![M, N]⟩) (p : Fin M) (j : Fin N) :
    broadcastTo (⟨2, ![M, N]⟩ : Shape) v h (ix2 p j) = v (ix2 0 j) := by
  refine broadcastTo_apply v h (ix2 p j) (ix2 0 j) fun a => ?_
  match a with
  | ⟨0, _⟩ => exact (if_pos rfl).symm
  | ⟨1, _⟩ =>
    show j.val = if N = 1 then 0 else j.val
    split
    · have := j.isLt; omega
    · rfl

/-- The last two dense stages on one row: `relu (v·W3 + b3)·Wo + bo`, for any row-blocked `v`. -/
theorem pay1_apply (v35 : FVec Ideal S5000x128 .bf16) (v36 : Vec Ideal S128x64 .bf16) (v39 : Vec Ideal S1x64 .f32)
    (v46 : Vec Ideal S64x10 .bf16) (v49 : Vec Ideal S1x10 .f32) (p : Fin 5000) (j : Fin 10) :
    k2_pay1 (F := Ideal) v35 v36 v39 v46 v49 (ix2 p j)
      = Net.orow (fun i => max (Net.dotv (fun k => v35 (ix2 p k)) (Net.mat v36) i + v39 (ix2 0 i)) 0)
          (Net.mat v46) (fun i => v49 (ix2 0 i)) j := by
  unfold k2_pay1
  simp only [shapeCast_self]
  show FloatOps.matmul (DotDims.plain 5000 64 10) none _ v46 (constant (F := Ideal) (⟨2, ![5000, 10]⟩ : Shape) .f32 0x00000000#32) (ix2 p j)
      + broadcastTo S5000x10 v49 broadcasts_S1x10_S5000x10 (ix2 p j) = _
  rw [broadcastRow_apply]
  refine congrArg (· + v49 (ix2 0 j)) ?_
  refine (Cert.PlainDot.matmul_zero_apply 5000 64 10 (φ₁ := .bf16) (φ₂ := .bf16) none _ v46 (ix2 p j)).trans ?_
  refine Finset.sum_congr rfl fun k _ => ?_
  refine congrArg (· * v46 (ix2 k j)) ?_
  show max (FloatOps.matmul (DotDims.plain 5000 128 64) none v35 v36 (constant (F := Ideal) (⟨2, ![5000, 64]⟩ : Shape) .f32 0x00000000#32) (ix2 p k)
      + broadcastTo S5000x64 v39 broadcasts_S1x64_S5000x64 (ix2 p k)) (Ideal.ofBits .f32 0x00000000#32) = _
  rw [Ideal.ofBits_zero_f32, broadcastRow_apply]
  exact congrArg (fun x => max (x + v39 (ix2 0 k)) 0) (Cert.PlainDot.matmul_zero_apply 5000 128 64 (φ₁ := .bf16) (φ₂ := .bf16) none v35 v36 (ix2 p k))

/-- The combined row `relu (z·W2a + z1·W2b + relu (raw2 + bg2)·W2c + b2) + z0`. -/
theorem pay2_apply (v0 : Vec Ideal S5000x128 .f32) (v2 : Vec Ideal S1x128 .f32) (v8 v10 v12 : Vec Ideal S5000x128 .f32)
    (v15 v19 v24 : Vec Ideal S128x128 .bf16) (v28 : Vec Ideal S1x128 .f32) (p : Fin 5000) (j : Fin 128) :
    k2_pay2 (F := Ideal) v0 v2 v8 v10 v12 v15 v19 v24 v28 (ix2 p j)
      = Net.zcrow (fun k => v8 (ix2 p k)) (fun k => v10 (ix2 p k))
          (Net.z1row (fun k => v0 (ix2 p k)) (fun k => v2 (ix2 0 k)))
          (Net.mat v15) (Net.mat v19) (Net.mat v24) (fun k => v28 (ix2 0 k)) j + v12 (ix2 p j) := by
  unfold k2_pay2
  simp only [shapeCast_self]
  have e1 : FloatOps.matmul (φ₁ := .bf16) (φ₂ := .bf16) (DotDims.plain 5000 128 128) none v8 v15
        (constant (F := Ideal) (⟨2, ![5000, 128]⟩ : Shape) .f32 0x00000000#32) (ix2 p j)
      = Net.dotv (fun k => v8 (ix2 p k)) (Net.mat v15) j :=
    Cert.PlainDot.matmul_zero_apply 5000 128 128 (φ₁ := .bf16) (φ₂ := .bf16) none v8 v15 (ix2 p j)
  have e2 : FloatOps.matmul (φ₁ := .bf16) (φ₂ := .bf16) (DotDims.plain 5000 128 128) none v10 v19
        (constant (F := Ideal) (⟨2, ![5000, 128]⟩ : Shape) .f32 0x00000000#32) (ix2 p j)
      = Net.dotv (fun k => v10 (ix2 p k)) (Net.mat v19) j :=
    Cert.PlainDot.matmul_zero_apply 5000 128 128 (φ₁ := .bf16) (φ₂ := .bf16) none v10 v19 (ix2 p j)
  have e3 : FloatOps.matmul (φ₁ := .bf16) (φ₂ := .bf16) (DotDims.plain 5000 128 128) none
        (fun y => max (v0 y + broadcastTo S5000x128 v2 broadcasts_S1x128_S5000x128 y) (Ideal.ofBits .f32 0x00000000#32)) v24
        (constant (F := Ideal) (⟨2, ![5000, 128]⟩ : Shape) .f32 0x00000000#32) (ix2 p j)
      = Net.dotv (Net.z1row (fun k => v0 (ix2 p k)) (fun k => v2 (ix2 0 k))) (Net.mat v24) j := by
    refine (Cert.PlainDot.matmul_zero_apply 5000 128 128 (φ₁ := .bf16) (φ₂ := .bf16) none _ v24 (ix2 p j)).trans ?_
    refine Finset.sum_congr rfl fun k _ => ?_
    show max (v0 (ix2 p k) + broadcastTo S5000x128 v2 broadcasts_S1x128_S5000x128 (ix2 p k)) (Ideal.ofBits .f32 0x00000000#32) * v24 (ix2 k j)
      = max (v0 (ix2 p k) + v2 (ix2 0 k)) 0 * v24 (ix2 k j)
    rw [Ideal.ofBits_zero_f32, broadcastRow_apply]
  show max (FloatOps.matmul (φ₁ := .bf16) (φ₂ := .bf16) (DotDims.plain 5000 128 128) none v8 v15 (constant (F := Ideal) (⟨2, ![5000, 128]⟩ : Shape) .f32 0x00000000#32) (ix2 p j)
        + FloatOps.matmul (φ₁ := .bf16) (φ₂ := .bf16) (DotDims.plain 5000 128 128) none v10 v19 (constant (F := Ideal) (⟨2, ![5000, 128]⟩ : Shape) .f32 0x00000000#32) (ix2 p j)
        + FloatOps.matmul (φ₁ := .bf16) (φ₂ := .bf16) (DotDims.plain 5000 128 128) none
            (fun y => max (v0 y + broadcastTo S5000x128 v2 broadcasts_S1x128_S5000x128 y) (Ideal.ofBits .f32 0x00000000#32)) v24
            (constant (F := Ideal) (⟨2, ![5000, 128]⟩ : Shape) .f32 0x00000000#32) (ix2 p j)
        + broadcastTo S5000x128 v28 broadcasts_S1x128_S5000x128 (ix2 p j)) (Ideal.ofBits .f32 0x00000000#32) + v12 (ix2 p j) = _
  rw [e1, e2, e3, Ideal.ofBits_zero_f32, broadcastRow_apply]
  rfl

/-- The two composed: the network's last dense block on one node's rows. -/
theorem pay_apply (x0 : Vec Ideal S5000x128 .f32) (x1 : Vec Ideal S1x128 .f32) (x2 x3 x4 : Vec Ideal S5000x128 .f32)
    (x5 x6 x7 : Vec Ideal S128x128 .bf16) (x8 : Vec Ideal S1x128 .f32) (x9 : Vec Ideal S128x64 .bf16) (x10 : Vec Ideal S1x64 .f32)
    (x11 : Vec Ideal S64x10 .bf16) (x12 : Vec Ideal S1x10 .f32) (p : Fin 5000) (j : Fin 10) :
    k2_pay1 (F := Ideal) (k2_pay2 x0 x1 x2 x4 x3 x5 x6 x7 x8) x9 x10 x11 x12 (ix2 p j)
      = Net.outrow (fun k => x0 (ix2 p k)) (fun k => x1 (ix2 0 k)) (fun k => x2 (ix2 p k)) (fun k => x3 (ix2 p k)) (fun k => x4 (ix2 p k))
          (Net.mat x5) (Net.mat x6) (Net.mat x7) (fun k => x8 (ix2 0 k)) (Net.mat x9) (fun k => x10 (ix2 0 k))
          (Net.mat x11) (fun k => x12 (ix2 0 k)) j := by
  refine (pay1_apply (k2_pay2 x0 x1 x2 x4 x3 x5 x6 x7 x8) x9 x10 x11 x12 p j).trans ?_
  have h : (fun k => k2_pay2 (F := Ideal) x0 x1 x2 x4 x3 x5 x6 x7 x8 (ix2 p k))
      = fun k => Net.zcrow (fun k => x2 (ix2 p k)) (fun k => x4 (ix2 p k)) (Net.z1row (fun k => x0 (ix2 p k)) (fun k => x1 (ix2 0 k)))
          (Net.mat x5) (Net.mat x6) (Net.mat x7) (fun k => x8 (ix2 0 k)) k + x3 (ix2 p k) :=
    funext fun k => pay2_apply x0 x1 x2 x4 x3 x5 x6 x7 x8 p k
  rw [h]
  rfl

/-! ## From blocks to arrays -/

/-- The row-blocked windows sit at block `(t, 0)`, every weight and bias at block `(0, 0)`. -/
theorem idx_facts : ∀ t : Fin cfg2.N,
    win2_0.index t (0 : Fin 2) = win2_13.index t (0 : Fin 2)
    ∧ win2_0.index t (1 : Fin 2) = 0
    ∧ win2_1.index t (0 : Fin 2) = 0
    ∧ win2_1.index t (1 : Fin 2) = 0
    ∧ win2_2.index t (0 : Fin 2) = win2_13.index t (0 : Fin 2)
    ∧ win2_2.index t (1 : Fin 2) = 0
    ∧ win2_3.index t (0 : Fin 2) = win2_13.index t (0 : Fin 2)
    ∧ win2_3.index t (1 : Fin 2) = 0
    ∧ win2_4.index t (0 : Fin 2) = win2_13.index t (0 : Fin 2)
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = 0
    ∧ win2_11.index t (1 : Fin 2) = 0
    ∧ win2_12.index t (0 : Fin 2) = 0
    ∧ win2_12.index t (1 : Fin 2) = 0
    ∧ win2_13.index t (1 : Fin 2) = 0 :=
  (by decide +kernel : ∀ t : Fin grid2.N, _)

/-- Every block of rows is some point's. -/
theorem idx_onto : ∀ q0 : Fin 10, ∃ t : Fin cfg2.N, win2_13.index t = ![q0.val, 0] :=
  (by decide +kernel : ∀ q0 : Fin 10, ∃ t : Fin grid2.N, win2_13.index t = ![q0.val, 0])

/-- The output array: the network's last dense block, row by row. -/
abbrev G13 (c : Dev nD) : S50000x10.Idx → EReal :=
  Net.arr (m := 50000) (n := 10) (fun r => Net.outrow (Net.mat (m := 50000) (n := 128) (V c main_v79) r) (fun j => V c main_v48 (ix2 0 j))
    (Net.mat (m := 50000) (n := 128) (V c main_v52_0) r) (Net.mat (m := 50000) (n := 128) (V c main_v52_1) r)
    (Net.mat (m := 50000) (n := 128) (V c main_v66_0) r)
    (Net.mat (m := 128) (n := 128) (V c main_v40)) (Net.mat (m := 128) (n := 128) (V c main_v41)) (Net.mat (m := 128) (n := 128) (V c main_v42))
    (fun j => V c main_v49 (ix2 0 j)) (Net.mat (m := 128) (n := 64) (V c main_v43)) (fun j => V c main_v50 (ix2 0 j))
    (Net.mat (m := 64) (n := 10) (V c main_v44)) (fun j => V c main_v51 (ix2 0 j)))

/-- Row `p` of point `t`'s block of window 0's array is row `5000 t + p` of the array, read at the output's block. -/
theorem row0 (c : Dev nD) (t : Fin cfg2.N) (y : S5000x10.Idx) (k : Fin 128) :
    iblk2 V c 0 t (ix2 (y 0 : Fin 5000) k) = Net.mat (m := 50000) (n := 128) (V c main_v79) ((((cfg2.win 13).blk t).view.emb y) 0) k := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v79 (((cfg2.win 0).blk t).view.emb (ix2 (y 0 : Fin 5000) k)) = V c main_v79 (ix2 ((((cfg2.win 13).blk t).view.emb y) 0) k)
  refine congrArg (V c main_v79) (funext fun a => Fin.ext ?_)
  match a with
  | ⟨0, _⟩ => show win2_0.index t (0 : Fin 2) * 5000 + 1 * (y 0).val = win2_13.index t (0 : Fin 2) * 5000 + 1 * (y 0).val; omega
  | ⟨1, _⟩ => show win2_0.index t (1 : Fin 2) * 128 + 1 * k.val = k.val; omega

/-- Row `p` of point `t`'s block of window 2's array is row `5000 t + p` of the array, read at the output's block. -/
theorem row2 (c : Dev nD) (t : Fin cfg2.N) (y : S5000x10.Idx) (k : Fin 128) :
    iblk2 V c 2 t (ix2 (y 0 : Fin 5000) k) = Net.mat (m := 50000) (n := 128) (V c main_v52_0) ((((cfg2.win 13).blk t).view.emb y) 0) k := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v52_0 (((cfg2.win 2).blk t).view.emb (ix2 (y 0 : Fin 5000) k)) = V c main_v52_0 (ix2 ((((cfg2.win 13).blk t).view.emb y) 0) k)
  refine congrArg (V c main_v52_0) (funext fun a => Fin.ext ?_)
  match a with
  | ⟨0, _⟩ => show win2_2.index t (0 : Fin 2) * 5000 + 1 * (y 0).val = win2_13.index t (0 : Fin 2) * 5000 + 1 * (y 0).val; omega
  | ⟨1, _⟩ => show win2_2.index t (1 : Fin 2) * 128 + 1 * k.val = k.val; omega

/-- Row `p` of point `t`'s block of window 3's array is row `5000 t + p` of the array, read at the output's block. -/
theorem row3 (c : Dev nD) (t : Fin cfg2.N) (y : S5000x10.Idx) (k : Fin 128) :
    iblk2 V c 3 t (ix2 (y 0 : Fin 5000) k) = Net.mat (m := 50000) (n := 128) (V c main_v52_1) ((((cfg2.win 13).blk t).view.emb y) 0) k := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v52_1 (((cfg2.win 3).blk t).view.emb (ix2 (y 0 : Fin 5000) k)) = V c main_v52_1 (ix2 ((((cfg2.win 13).blk t).view.emb y) 0) k)
  refine congrArg (V c main_v52_1) (funext fun a => Fin.ext ?_)
  match a with
  | ⟨0, _⟩ => show win2_3.index t (0 : Fin 2) * 5000 + 1 * (y 0).val = win2_13.index t (0 : Fin 2) * 5000 + 1 * (y 0).val; omega
  | ⟨1, _⟩ => show win2_3.index t (1 : Fin 2) * 128 + 1 * k.val = k.val; omega

/-- Row `p` of point `t`'s block of window 4's array is row `5000 t + p` of the array, read at the output's block. -/
theorem row4 (c : Dev nD) (t : Fin cfg2.N) (y : S5000x10.Idx) (k : Fin 128) :
    iblk2 V c 4 t (ix2 (y 0 : Fin 5000) k) = Net.mat (m := 50000) (n := 128) (V c main_v66_0) ((((cfg2.win 13).blk t).view.emb y) 0) k := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v66_0 (((cfg2.win 4).blk t).view.emb (ix2 (y 0 : Fin 5000) k)) = V c main_v66_0 (ix2 ((((cfg2.win 13).blk t).view.emb y) 0) k)
  refine congrArg (V c main_v66_0) (funext fun a => Fin.ext ?_)
  match a with
  | ⟨0, _⟩ => show win2_4.index t (0 : Fin 2) * 5000 + 1 * (y 0).val = win2_13.index t (0 : Fin 2) * 5000 + 1 * (y 0).val; omega
  | ⟨1, _⟩ => show win2_4.index t (1 : Fin 2) * 128 + 1 * k.val = k.val; omega

/-- Window 1's row vector, held whole at every point. -/
theorem row1 (c : Dev nD) (t : Fin cfg2.N) (k : Fin 128) :
    iblk2 V c 1 t (ix2 0 k) = V c main_v48 (ix2 0 k) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v48 (((cfg2.win 1).blk t).view.emb (ix2 0 k)) = V c main_v48 (ix2 0 k)
  refine congrArg (V c main_v48) (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

/-- Window 8's row vector, held whole at every point. -/
theorem row8 (c : Dev nD) (t : Fin cfg2.N) (k : Fin 128) :
    iblk2 V c 8 t (ix2 0 k) = V c main_v49 (ix2 0 k) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v49 (((cfg2.win 8).blk t).view.emb (ix2 0 k)) = V c main_v49 (ix2 0 k)
  refine congrArg (V c main_v49) (funext fun a => Fin.ext ?_)
  match a with
  | ⟨0, _⟩ => show win2_8.index t (0 : Fin 2) * 1 + 1 * 0 = 0; omega
  | ⟨1, _⟩ => show win2_8.index t (1 : Fin 2) * 128 + 1 * k.val = k.val; omega

/-- Window 10's row vector, held whole at every point. -/
theorem row10 (c : Dev nD) (t : Fin cfg2.N) (k : Fin 64) :
    iblk2 V c 10 t (ix2 0 k) = V c main_v50 (ix2 0 k) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v50 (((cfg2.win 10).blk t).view.emb (ix2 0 k)) = V c main_v50 (ix2 0 k)
  refine congrArg (V c main_v50) (funext fun a => Fin.ext ?_)
  match a with
  | ⟨0, _⟩ => show win2_10.index t (0 : Fin 2) * 1 + 1 * 0 = 0; omega
  | ⟨1, _⟩ => show win2_10.index t (1 : Fin 2) * 64 + 1 * k.val = k.val; omega

/-- Window 12's row vector, held whole at every point. -/
theorem row12 (c : Dev nD) (t : Fin cfg2.N) (k : Fin 10) :
    iblk2 V c 12 t (ix2 0 k) = V c main_v51 (ix2 0 k) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v51 (((cfg2.win 12).blk t).view.emb (ix2 0 k)) = V c main_v51 (ix2 0 k)
  refine congrArg (V c main_v51) (funext fun a => Fin.ext ?_)
  match a with
  | ⟨0, _⟩ => show win2_12.index t (0 : Fin 2) * 1 + 1 * 0 = 0; omega
  | ⟨1, _⟩ => show win2_12.index t (1 : Fin 2) * 10 + 1 * k.val = k.val; omega

/-- Window 5's weight matrix, held whole at every point. -/
theorem row5 (c : Dev nD) (t : Fin cfg2.N) (k : Fin 128) (j : Fin 128) :
    iblk2 V c 5 t (ix2 k j) = V c main_v40 (ix2 k j) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v40 (((cfg2.win 5).blk t).view.emb (ix2 k j)) = V c main_v40 (ix2 k j)
  refine congrArg (V c main_v40) (funext fun a => Fin.ext ?_)
  match a with
  | ⟨0, _⟩ => show win2_5.index t (0 : Fin 2) * 128 + 1 * k.val = k.val; omega
  | ⟨1, _⟩ => show win2_5.index t (1 : Fin 2) * 128 + 1 * j.val = j.val; omega

/-- Window 6's weight matrix, held whole at every point. -/
theorem row6 (c : Dev nD) (t : Fin cfg2.N) (k : Fin 128) (j : Fin 128) :
    iblk2 V c 6 t (ix2 k j) = V c main_v41 (ix2 k j) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v41 (((cfg2.win 6).blk t).view.emb (ix2 k j)) = V c main_v41 (ix2 k j)
  refine congrArg (V c main_v41) (funext fun a => Fin.ext ?_)
  match a with
  | ⟨0, _⟩ => show win2_6.index t (0 : Fin 2) * 128 + 1 * k.val = k.val; omega
  | ⟨1, _⟩ => show win2_6.index t (1 : Fin 2) * 128 + 1 * j.val = j.val; omega

/-- Window 7's weight matrix, held whole at every point. -/
theorem row7 (c : Dev nD) (t : Fin cfg2.N) (k : Fin 128) (j : Fin 128) :
    iblk2 V c 7 t (ix2 k j) = V c main_v42 (ix2 k j) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v42 (((cfg2.win 7).blk t).view.emb (ix2 k j)) = V c main_v42 (ix2 k j)
  refine congrArg (V c main_v42) (funext fun a => Fin.ext ?_)
  match a with
  | ⟨0, _⟩ => show win2_7.index t (0 : Fin 2) * 128 + 1 * k.val = k.val; omega
  | ⟨1, _⟩ => show win2_7.index t (1 : Fin 2) * 128 + 1 * j.val = j.val; omega

/-- Window 9's weight matrix, held whole at every point. -/
theorem row9 (c : Dev nD) (t : Fin cfg2.N) (k : Fin 128) (j : Fin 64) :
    iblk2 V c 9 t (ix2 k j) = V c main_v43 (ix2 k j) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v43 (((cfg2.win 9).blk t).view.emb (ix2 k j)) = V c main_v43 (ix2 k j)
  refine congrArg (V c main_v43) (funext fun a => Fin.ext ?_)
  match a with
  | ⟨0, _⟩ => show win2_9.index t (0 : Fin 2) * 128 + 1 * k.val = k.val; omega
  | ⟨1, _⟩ => show win2_9.index t (1 : Fin 2) * 64 + 1 * j.val = j.val; omega

/-- Window 11's weight matrix, held whole at every point. -/
theorem row11 (c : Dev nD) (t : Fin cfg2.N) (k : Fin 64) (j : Fin 10) :
    iblk2 V c 11 t (ix2 k j) = V c main_v44 (ix2 k j) := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  show V c main_v44 (((cfg2.win 11).blk t).view.emb (ix2 k j)) = V c main_v44 (ix2 k j)
  refine congrArg (V c main_v44) (funext fun a => Fin.ext ?_)
  match a with
  | ⟨0, _⟩ => show win2_11.index t (0 : Fin 2) * 64 + 1 * k.val = k.val; omega
  | ⟨1, _⟩ => show win2_11.index t (1 : Fin 2) * 10 + 1 * j.val = j.val; omega

/-- The column of an entry of the output's block is its column in the array. -/
theorem col13 (t : Fin cfg2.N) (y : S5000x10.Idx) : (((((cfg2.win 13).blk t).view.emb y) 1) : Fin 10) = y 1 := by
  obtain ⟨e0r, e0c, e1r, e1c, e2r, e2c, e3r, e3c, e4r, e4c, e5r, e5c, e6r, e6c, e7r, e7c, e8r, e8c, e9r, e9c, e10r, e10c, e11r, e11c, e12r, e12c, e13c⟩ := idx_facts t
  refine Fin.ext ?_
  show win2_13.index t (1 : Fin 2) * 10 + 1 * (y 1).val = (y 1).val; omega

/-- The last dense block respects equal arguments. -/
theorem outrow_congr {raw2 raw2' bg2 bg2' z z' z0 z0' z1 z1' : Fin 128 → EReal} {w2a w2a' w2b w2b' w2c w2c' : Fin 128 → Fin 128 → EReal}
    {b2 b2' : Fin 128 → EReal} {w3 w3' : Fin 128 → Fin 64 → EReal} {b3 b3' : Fin 64 → EReal} {wo wo' : Fin 64 → Fin 10 → EReal}
    {bo bo' : Fin 10 → EReal} (e0 : raw2 = raw2') (e1 : bg2 = bg2') (e2 : z = z') (e3 : z0 = z0') (e4 : z1 = z1') (e5 : w2a = w2a')
    (e6 : w2b = w2b') (e7 : w2c = w2c') (e8 : b2 = b2') (e9 : w3 = w3') (e10 : b3 = b3') (e11 : wo = wo') (e12 : bo = bo') (j : Fin 10) :
    Net.outrow raw2 bg2 z z0 z1 w2a w2b w2c b2 w3 b3 wo bo j = Net.outrow raw2' bg2' z' z0' z1' w2a' w2b' w2c' b2' w3' b3' wo' bo' j := by
  rw [e0, e1, e2, e3, e4, e5, e6, e7, e8, e9, e10, e11, e12]

/-- What point `t` leaves in the output window's staging buffer: the stored value of the input windows' blocks at `t`. -/
theorem stored13 (c : Dev nD) (t : Fin cfg2.N) :
    (dat2 (F := Ideal) V c).flushed 13 t
      = k2_pay1 (k2_pay2 (iblk2 V c 0 t) (iblk2 V c 1 t) (iblk2 V c 2 t) (iblk2 V c 4 t) (iblk2 V c 3 t) (iblk2 V c 5 t) (iblk2 V c 6 t) (iblk2 V c 7 t) (iblk2 V c 8 t)) (iblk2 V c 9 t) (iblk2 V c 10 t) (iblk2 V c 11 t) (iblk2 V c 12 t) := by
  show (cfg2.win 13).cut (grid2.coords t) ((dat2 V c).after 13 t) = _
  rw [after2_13]
  unfold out2_13
  rw [View.canon_unit_zero hz]
  simp only [View.ld_unit_zero (S := S5000x128) hz, View.ld_unit_zero (S := S1x128) hz, View.ld_unit_zero (S := S128x128) hz,
    View.ld_unit_zero (S := S128x64) hz, View.ld_unit_zero (S := S1x64) hz, View.ld_unit_zero (S := S64x10) hz, View.ld_unit_zero (S := S1x10) hz]
  rfl

/-- That stored value at an entry of the block is `G13` at the entry's place in the array. -/
theorem stored13_apply (c : Dev nD) (t : Fin cfg2.N) (y : S5000x10.Idx) :
    k2_pay1 (k2_pay2 (iblk2 V c 0 t) (iblk2 V c 1 t) (iblk2 V c 2 t) (iblk2 V c 4 t) (iblk2 V c 3 t) (iblk2 V c 5 t) (iblk2 V c 6 t) (iblk2 V c 7 t) (iblk2 V c 8 t)) (iblk2 V c 9 t) (iblk2 V c 10 t) (iblk2 V c 11 t) (iblk2 V c 12 t) y
      = G13 V c ((((cfg2.win 13).blk t).view.emb y)) := by
  show _ = Net.outrow (Net.mat (m := 50000) (n := 128) (V c main_v79) ((((cfg2.win 13).blk t).view.emb y) 0)) (fun j => V c main_v48 (ix2 0 j))
        (Net.mat (m := 50000) (n := 128) (V c main_v52_0) ((((cfg2.win 13).blk t).view.emb y) 0)) (Net.mat (m := 50000) (n := 128) (V c main_v52_1) ((((cfg2.win 13).blk t).view.emb y) 0))
        (Net.mat (m := 50000) (n := 128) (V c main_v66_0) ((((cfg2.win 13).blk t).view.emb y) 0))
        (Net.mat (m := 128) (n := 128) (V c main_v40)) (Net.mat (m := 128) (n := 128) (V c main_v41)) (Net.mat (m := 128) (n := 128) (V c main_v42))
        (fun j => V c main_v49 (ix2 0 j)) (Net.mat (m := 128) (n := 64) (V c main_v43)) (fun j => V c main_v50 (ix2 0 j))
        (Net.mat (m := 64) (n := 10) (V c main_v44)) (fun j => V c main_v51 (ix2 0 j)) ((((cfg2.win 13).blk t).view.emb y) 1)
  rw [col13 t y]
  have hy : y = ix2 (y 0 : Fin 5000) (y 1 : Fin 10) := eq_ix2 y
  refine (congrArg (k2_pay1 (k2_pay2 (iblk2 V c 0 t) (iblk2 V c 1 t) (iblk2 V c 2 t) (iblk2 V c 4 t) (iblk2 V c 3 t) (iblk2 V c 5 t) (iblk2 V c 6 t) (iblk2 V c 7 t) (iblk2 V c 8 t)) (iblk2 V c 9 t) (iblk2 V c 10 t) (iblk2 V c 11 t) (iblk2 V c 12 t)) hy).trans ?_
  refine (pay_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (y 0) (y 1)).trans ?_
  exact outrow_congr
    (funext fun k => row0 V c t y k) (funext fun k => row1 V c t k) (funext fun k => row2 V c t y k) (funext fun k => row3 V c t y k)
    (funext fun k => row4 V c t y k) (funext fun k => funext fun j => row5 V c t k j) (funext fun k => funext fun j => row6 V c t k j)
    (funext fun k => funext fun j => row7 V c t k j) (funext fun k => row8 V c t k) (funext fun k => funext fun j => row9 V c t k j)
    (funext fun k => row10 V c t k) (funext fun k => funext fun j => row11 V c t k j) (funext fun k => row12 V c t k) (y 1)

/-- What point `t` writes back through the output window is its block of `G13`. -/
theorem flushed13_eq (c : Dev nD) (t : Fin cfg2.N) :
    (dat2 (F := Ideal) V c).flushed 13 t = ((cfg2.win 13).blk t).view.read (Elt Ideal) (G13 V c) := by
  rw [stored13]
  funext y
  exact stored13_apply V c t y

/-- An index of the output array is in point `t`'s block iff each coordinate is in the block's range. -/
theorem mem_blk13 (t : Fin cfg2.N) (i : S50000x10.Idx) :
    i ∈ ((cfg2.win 13).blk t).view.set ↔ ∀ a : Fin 2, win2_13.index t a * S5000x10.size a ≤ (i a).val ∧ (i a).val < win2_13.index t a * S5000x10.size a + S5000x10.size a := by
  show i ∈ ((View.whole main_v80).slice (win2_13.rect t)).set ↔ _
  rw [View.set_slice_whole, Rect.mem_set_unit]
  exact Iff.rfl

/-- Every index of the output array lies in the block of the point that handles its row. -/
theorem cover13 (i : S50000x10.Idx) : ∃ t : Fin cfg2.N, (cfg2.win 13).flush t = true ∧ i ∈ ((cfg2.win 13).blk t).view.set := by
  have hi0 : (i 0).val < 50000 := (i 0).isLt
  have hi1 : (i 1).val < 10 := (i 1).isLt
  obtain ⟨t, ht⟩ := idx_onto ⟨(i 0).val / 5000, by omega⟩
  have q0 : win2_13.index t (0 : Fin 2) = (i 0).val / 5000 := congrFun ht 0
  have q1 : win2_13.index t (1 : Fin 2) = 0 := congrFun ht 1
  refine ⟨t, flush2_13 t, ?_⟩
  rw [mem_blk13]
  intro a
  match a with
  | ⟨0, _⟩ => show win2_13.index t (0 : Fin 2) * 5000 ≤ (i 0).val ∧ (i 0).val < win2_13.index t (0 : Fin 2) * 5000 + 5000; omega
  | ⟨1, _⟩ => show win2_13.index t (1 : Fin 2) * 10 ≤ (i 1).val ∧ (i 1).val < win2_13.index t (1 : Fin 2) * 10 + 10; omega

/-- THE ARRAY after the region: the network's last dense block of the rows of the region's inputs, row by row. -/
theorem final13 (c : Dev nD) : (dat2 (F := Ideal) V c).arrAt 13 cfg2.N = G13 V c :=
  (dat2 (F := Ideal) V c).arrAt_eq_of_cover 13 (G13 V c) (fun t _ => flushed13_eq V c t) cover13

end Cert.KernelIdeal.RegionC

end
-- ==== Proof.HostChain.lean ====
/-
  The graph side of the network, as pure functions of the edge list.

  `src` / `dst`: the edges' endpoints with one self-loop per node appended. `deg`: each node's in-degree
  (a scatter-add of ones at the targets). `dinv`: `deg^(-1/2)` where the degree is positive, else zero. `norm`: the
  symmetric normalisation `dinv[s] · dinv[d]` of every edge. `msg`: one aggregation step — gather the sources'
  feature rows, scale each by its edge's weight, scatter-add at the targets. Both programs apply exactly these
  operations; the certificate compares what goes in and never opens them.
-/
import proofs.«134561_j13649406067417_2_alg».proof.KernelIdeal
import Idealize.ShloMosaic.PureOps.Ideal
import Idealize.ShloMosaic.Lib.ValueIdx

noncomputable section

namespace Cert.HostChain

open Cert.KernelIdeal Idealize.ShloMosaic

variable [Cert.KernelIdeal.Facts₀]
open Cert.KernelIdeal.Facts₀

abbrev Edges := (⟨S2x1600000, .i32⟩ : BufTy).Contents (Elt Ideal)
abbrev Ends := (⟨S1650000, .i32⟩ : BufTy).Contents (Elt Ideal)
abbrev Feat := (⟨S50000x128, .f32⟩ : BufTy).Contents (Elt Ideal)

/-- The sources: row 0 of the edge list, then every node once. -/
def src (ei : Edges) : Ends :=
  concatenate S1650000 0 [⟨S1600000, (shapeCast _ (extractStridedSlice S1x1600000 ![0, 0] ei slices_S2x1600000_S1x1600000_0_0) shapeCasts_S1x1600000_S1600000)⟩, ⟨S50000, (iotaInDim S50000 32 0)⟩] concatenates_S1600000_S50000_S1650000_d0

/-- The targets: row 1 of the edge list, then every node once. -/
def dst (ei : Edges) : Ends :=
  concatenate S1650000 0 [⟨S1600000, (shapeCast _ (extractStridedSlice S1x1600000 ![1, 0] ei slices_S2x1600000_S1x1600000_1_0) shapeCasts_S1x1600000_S1600000)⟩, ⟨S50000, (iotaInDim S50000 32 0)⟩] concatenates_S1600000_S50000_S1650000_d0

/-- An index vector with its negative entries wrapped by the node count, as a column of gather indices. -/
def wrapCol (s : Ends) : (⟨S1650000x1, .i32⟩ : BufTy).Contents (Elt Ideal) :=
  broadcastInDim S1650000x1 ![0] bcast_S1650000_S1650000x1_0
    (select (cmpi .slt s (broadcastInDim S1650000 ![] bcast_S_S1650000 (constantI S_ 32 0#32)))
      (addi s (broadcastInDim S1650000 ![] bcast_S_S1650000 (constantI S_ 32 50000#32))) s)

/-- In-degrees, self-loops included. -/
def deg (d : Ends) : FVec Ideal S50000 .f32 :=
  Host.scatterAdd scatter_S50000_S1650000x1_S1650000_n_0_0_1 (broadcastInDim S50000 ![] bcast_S_S50000 (constant (F := Ideal) S_ .f32 0x00000000#32))
    (broadcastInDim S1650000x1 ![0] bcast_S1650000_S1650000x1_0 d) (broadcastInDim S1650000 ![] bcast_S_S1650000 (constant (F := Ideal) S_ .f32 0x3F800000#32))

/-- `deg^(-1/2)` where positive, zero elsewhere. -/
def dinv (d : Ends) : FVec Ideal S50000 .f32 :=
  select (cmpf .ogt (deg d) (broadcastInDim S50000 ![] bcast_S_S50000 (constant (F := Ideal) S_ .f32 0x00000000#32))) (Host.rsqrt (F := Ideal) (φ := .f32) (deg d))
    (broadcastInDim S50000 ![] bcast_S_S50000 (id (constant (F := Ideal) S_ .f32 0x00000000#32)))

/-- The weight of every edge. -/
def norm (s d : Ends) : FVec Ideal S1650000 .f32 :=
  mulf (F := Ideal) (φ := .f32) (Host.gather gather_S50000_S1650000x1_S1650000_n_0_n_n_0_1_1 (dinv d) (wrapCol s))
    (Host.gather gather_S50000_S1650000x1_S1650000_n_0_n_n_0_1_1 (dinv d) (wrapCol d))

/-- One aggregation: the sources' rows, weighted, summed at the targets. -/
def msg (s d : Ends) (nrm : FVec Ideal S1650000 .f32) (h : Feat) : Feat :=
  Host.scatterAdd scatter_S50000x128_S1650000x1_S1650000x128_1_0_0_1 (broadcastInDim S50000x128 ![] bcast_S_S50000x128 (constant (F := Ideal) S_ .f32 0x00000000#32))
    (broadcastInDim S1650000x1 ![0] bcast_S1650000_S1650000x1_0 d)
    (mulf (F := Ideal) (φ := .f32) (Host.gather gather_S50000x128_S1650000x1_S1650000x128_1_0_n_n_0_1_1128 h (wrapCol s))
      (broadcastInDim S1650000x128 ![0, 1] bcast_S1650000x1_S1650000x128_0_1 (broadcastInDim S1650000x1 ![0] bcast_S1650000_S1650000x1_0 nrm)))

/-- One message-passing step over the graph `ei`. -/
def pass (ei : Edges) (h : Feat) : Feat := msg (src ei) (dst ei) (norm (src ei) (dst ei)) h

/-- The same step on node-feature matrices given row by row. -/
def passM (ei : Edges) (h : Fin 50000 → Fin 128 → EReal) : Fin 50000 → Fin 128 → EReal :=
  fun r k => pass ei (fun j => h (j 0) (j 1)) (Idealize.ShloMosaic.ValueIdx.ix2 r k)

end Cert.HostChain

end
-- ==== Proof.KernelHost.lean ====
/-
  The kernel program's host stretches.

  Between its regions the kernel program runs straight lines of host operations. After such a line every buffer
  holds the fold of the operations' results over the contents at its entry: each operation rewrites its own result
  buffer and leaves the rest. Read back, the buffers the regions and the later lines use are the functions of the
  edge list that the message-passing chain is made of (the endpoints with the self-loops appended, the in-degrees,
  their inverse square roots where positive, the edges' weights, one aggregation step), and slices, narrowings and
  reshapes of the weight arguments; every buffer a line does not write keeps its contents. Everything is stated
  for an arbitrary valuation at the line's entry, so that each statement is about that line alone.
-/
import proofs.«134561_j13649406067417_2_alg».proof.Proof.Gen.KernelIdeal.Launch
import proofs.«134561_j13649406067417_2_alg».proof.Proof.HostChain
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

/-- The buffers' contents at a line's entry. -/
abbrev Val := Valuation τ sig (Elt Ideal)

/-- One operation's written buffer is in the list. -/
local macro "one_w" : term =>
  `((by simp only [nullary_writes, unary_writes, binary_writes, ternary_writes, reshape_writes, Finset.singleton_subset_iff,
      List.mem_toFinset]; exact List.mem_map_of_mem (by decide)))

/-! ## The first line: the endpoints, the in-degrees -/

theorem s0_v5 (Wv : Val) :
    after (hostOps0 (F := Ideal)) Wv (no_index (Proc.devRef .tc main_v5)) = Cert.HostChain.src (Wv (Proc.devRef .tc main_arg2)) := by
  dsimp only [hostOps0]; after_results_simp; rfl

theorem s0_v6 (Wv : Val) :
    after (hostOps0 (F := Ideal)) Wv (no_index (Proc.devRef .tc main_v6)) = Cert.HostChain.dst (Wv (Proc.devRef .tc main_arg2)) := by
  dsimp only [hostOps0]; after_results_simp; rfl

theorem s0_v12 (Wv : Val) :
    after (hostOps0 (F := Ideal)) Wv (no_index (Proc.devRef .tc main_v12))
      = cmpf .ogt (Cert.HostChain.deg (Cert.HostChain.dst (Wv (Proc.devRef .tc main_arg2))))
          (broadcastInDim S50000 ![] bcast_S_S50000 (constant (F := Ideal) S_ .f32 0x00000000#32)) := by
  dsimp only [hostOps0]; after_results_simp; rfl

theorem s0_v13 (Wv : Val) :
    after (hostOps0 (F := Ideal)) Wv (no_index (Proc.devRef .tc main_v13))
      = Host.rsqrt (F := Ideal) (φ := .f32) (Cert.HostChain.deg (Cert.HostChain.dst (Wv (Proc.devRef .tc main_arg2)))) := by
  dsimp only [hostOps0]; after_results_simp; rfl

theorem s0_cst_2 (Wv : Val) :
    after (hostOps0 (F := Ideal)) Wv (no_index (Proc.devRef .tc main_cst_2)) = constant (F := Ideal) S_ .f32 0x00000000#32 := by
  dsimp only [hostOps0]; after_results_simp

/-- The buffers the line writes. -/
abbrev s0_W : List (Ref sig .tc) :=
  [main_v0, main_v1, main_v2, main_v3, main_v4, main_v5, main_v6, main_cst, main_v7, main_cst_0, main_v8, main_v9, main_v10, main_cst_1, main_v11, main_v12, main_v13, main_cst_2]

theorem s0_writes : (hostOps0 (F := Ideal)).Forall fun op => op.writes ⊆ (s0_W.map (Proc.devRef (τ := τ) .tc)).toFinset := by
  simp only [hostOps0, List.Forall]
  exact ⟨one_w, one_w, one_w, one_w, one_w, one_w, one_w, one_w, one_w, one_w, one_w, one_w, one_w, one_w, one_w, one_w, one_w, one_w⟩

/-- A buffer the line does not write keeps its contents. -/
theorem s0_keep (Wv : Val) (r : Ref sig .tc) (h : r ∉ s0_W) :
    after (hostOps0 (F := Ideal)) Wv (Proc.devRef .tc r) = Wv (Proc.devRef .tc r) :=
  after_of_writes_sub _ _ s0_writes h

/-! ## The outlined selection: the inverse square roots of the positive degrees -/

theorem s01_v14 (Wv : Val) :
    after (hostOps0_1 (F := Ideal)) Wv (no_index (Proc.devRef .tc main_v14))
      = select (Wv (Proc.devRef .tc main_v12)) (Wv (Proc.devRef .tc main_v13))
          (broadcastInDim S50000 ![] bcast_S_S50000 (id (Wv (Proc.devRef .tc main_cst_2)))) := by
  dsimp only [hostOps0_1]; after_results_simp; rfl

/-- The buffers the line writes. -/
abbrev s01_W : List (Ref sig .tc) :=
  [main_call0_v0, main_call0_v1, main_v14]

theorem s01_writes : (hostOps0_1 (F := Ideal)).Forall fun op => op.writes ⊆ (s01_W.map (Proc.devRef (τ := τ) .tc)).toFinset := by
  simp only [hostOps0_1, List.Forall]
  exact ⟨one_w, one_w, one_w⟩

/-- A buffer the line does not write keeps its contents. -/
theorem s01_keep (Wv : Val) (r : Ref sig .tc) (h : r ∉ s01_W) :
    after (hostOps0_1 (F := Ideal)) Wv (Proc.devRef .tc r) = Wv (Proc.devRef .tc r) :=
  after_of_writes_sub _ _ s01_writes h

/-! ## The third line: the edges' weights, the weight blocks, the bias rows -/

set_option maxHeartbeats 1600000 in
theorem s02_v29 (Wv : Val) :
    after (hostOps0_2 (F := Ideal)) Wv (no_index (Proc.devRef .tc main_v29))
      = mulf (F := Ideal) (φ := .f32)
          (Host.gather gather_S50000_S1650000x1_S1650000_n_0_n_n_0_1_1 (Wv (Proc.devRef .tc main_v14))
            (Cert.HostChain.wrapCol (Wv (Proc.devRef .tc main_v5))))
          (Host.gather gather_S50000_S1650000x1_S1650000_n_0_n_n_0_1_1 (Wv (Proc.devRef .tc main_v14))
            (Cert.HostChain.wrapCol (Wv (Proc.devRef .tc main_v6)))) := by
  dsimp only [hostOps0_2]; after_results_simp; rfl

theorem s02_v35 (Wv : Val) :
    after (hostOps0_2 (F := Ideal)) Wv (no_index (Proc.devRef .tc main_v35))
      = truncf (F := Ideal) .bf16 (extractStridedSlice S128x128 ![0, 0] (Wv (Proc.devRef .tc main_arg3)) slices_S256x128_S128x128_0_0) bitsLt_bf16_f32 := by
  dsimp only [hostOps0_2]; after_results_simp

theorem s02_v36 (Wv : Val) :
    after (hostOps0_2 (F := Ideal)) Wv (no_index (Proc.devRef .tc main_v36))
      = truncf (F := Ideal) .bf16 (extractStridedSlice S128x128 ![128, 0] (Wv (Proc.devRef .tc main_arg3)) slices_S256x128_S128x128_128_0) bitsLt_bf16_f32 := by
  dsimp only [hostOps0_2]; after_results_simp

theorem s02_v37 (Wv : Val) :
    after (hostOps0_2 (F := Ideal)) Wv (no_index (Proc.devRef .tc main_v37))
      = truncf (F := Ideal) .bf16 (Wv (Proc.devRef .tc main_arg5)) bitsLt_bf16_f32 := by
  dsimp only [hostOps0_2]; after_results_simp

theorem s02_v38 (Wv : Val) :
    after (hostOps0_2 (F := Ideal)) Wv (no_index (Proc.devRef .tc main_v38))
      = truncf (F := Ideal) .bf16 (Wv (Proc.devRef .tc main_arg7)) bitsLt_bf16_f32 := by
  dsimp only [hostOps0_2]; after_results_simp

theorem s02_v39 (Wv : Val) :
    after (hostOps0_2 (F := Ideal)) Wv (no_index (Proc.devRef .tc main_v39))
      = truncf (F := Ideal) .bf16 (Wv (Proc.devRef .tc main_arg9)) bitsLt_bf16_f32 := by
  dsimp only [hostOps0_2]; after_results_simp

theorem s02_v40 (Wv : Val) :
    after (hostOps0_2 (F := Ideal)) Wv (no_index (Proc.devRef .tc main_v40))
      = truncf (F := Ideal) .bf16 (extractStridedSlice S128x128 ![0, 0] (Wv (Proc.devRef .tc main_arg11)) slices_S384x128_S128x128_0_0) bitsLt_bf16_f32 := by
  dsimp only [hostOps0_2]; after_results_simp

theorem s02_v41 (Wv : Val) :
    after (hostOps0_2 (F := Ideal)) Wv (no_index (Proc.devRef .tc main_v41))
      = truncf (F := Ideal) .bf16 (extractStridedSlice S128x128 ![128, 0] (Wv (Proc.devRef .tc main_arg11)) slices_S384x128_S128x128_128_0) bitsLt_bf16_f32 := by
  dsimp only [hostOps0_2]; after_results_simp

theorem s02_v42 (Wv : Val) :
    after (hostOps0_2 (F := Ideal)) Wv (no_index (Proc.devRef .tc main_v42))
      = truncf (F := Ideal) .bf16 (extractStridedSlice S128x128 ![256, 0] (Wv (Proc.devRef .tc main_arg11)) slices_S384x128_S128x128_256_0) bitsLt_bf16_f32 := by
  dsimp only [hostOps0_2]; after_results_simp

theorem s02_v43 (Wv : Val) :
    after (hostOps0_2 (F := Ideal)) Wv (no_index (Proc.devRef .tc main_v43))
      = truncf (F := Ideal) .bf16 (Wv (Proc.devRef .tc main_arg13)) bitsLt_bf16_f32 := by
  dsimp only [hostOps0_2]; after_results_simp

theorem s02_v44 (Wv : Val) :
    after (hostOps0_2 (F := Ideal)) Wv (no_index (Proc.devRef .tc main_v44))
      = truncf (F := Ideal) .bf16 (Wv (Proc.devRef .tc main_arg15)) bitsLt_bf16_f32 := by
  dsimp only [hostOps0_2]; after_results_simp

theorem s02_v45 (Wv : Val) :
    after (hostOps0_2 (F := Ideal)) Wv (no_index (Proc.devRef .tc main_v45))
      = shapeCast _ (Wv (Proc.devRef .tc main_arg4)) shapeCasts_S128_S1x128 := by
  dsimp only [hostOps0_2]; after_results_simp; rfl

theorem s02_v46 (Wv : Val) :
    after (hostOps0_2 (F := Ideal)) Wv (no_index (Proc.devRef .tc main_v46))
      = shapeCast _ (Wv (Proc.devRef .tc main_arg6)) shapeCasts_S128_S1x128 := by
  dsimp only [hostOps0_2]; after_results_simp; rfl

theorem s02_v47 (Wv : Val) :
    after (hostOps0_2 (F := Ideal)) Wv (no_index (Proc.devRef .tc main_v47))
      = shapeCast _ (Wv (Proc.devRef .tc main_arg8)) shapeCasts_S128_S1x128 := by
  dsimp only [hostOps0_2]; after_results_simp; rfl

theorem s02_v48 (Wv : Val) :
    after (hostOps0_2 (F := Ideal)) Wv (no_index (Proc.devRef .tc main_v48))
      = shapeCast _ (Wv (Proc.devRef .tc main_arg10)) shapeCasts_S128_S1x128 := by
  dsimp only [hostOps0_2]; after_results_simp; rfl

theorem s02_v49 (Wv : Val) :
    after (hostOps0_2 (F := Ideal)) Wv (no_index (Proc.devRef .tc main_v49))
      = shapeCast _ (Wv (Proc.devRef .tc main_arg12)) shapeCasts_S128_S1x128 := by
  dsimp only [hostOps0_2]; after_results_simp; rfl

theorem s02_v50 (Wv : Val) :
    after (hostOps0_2 (F := Ideal)) Wv (no_index (Proc.devRef .tc main_v50))
      = shapeCast _ (Wv (Proc.devRef .tc main_arg14)) shapeCasts_S64_S1x64 := by
  dsimp only [hostOps0_2]; after_results_simp; rfl

theorem s02_v51 (Wv : Val) :
    after (hostOps0_2 (F := Ideal)) Wv (no_index (Proc.devRef .tc main_v51))
      = shapeCast _ (Wv (Proc.devRef .tc main_arg16)) shapeCasts_S10_S1x10 := by
  dsimp only [hostOps0_2]; after_results_simp; rfl

/-- The buffers the line writes. -/
abbrev s02_W : List (Ref sig .tc) :=
  [main_c, main_v15, main_v16, main_c_3, main_v17, main_v18, main_v19, main_v20, main_v21, main_c_4, main_v22, main_v23, main_c_5, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51]

theorem s02_writes : (hostOps0_2 (F := Ideal)).Forall fun op => op.writes ⊆ (s02_W.map (Proc.devRef (τ := τ) .tc)).toFinset := by
  simp only [hostOps0_2, List.Forall]
  exact ⟨one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w, one_w⟩

/-- A buffer the line does not write keeps its contents. -/
theorem s02_keep (Wv : Val) (r : Ref sig .tc) (h : r ∉ s02_W) :
    after (hostOps0_2 (F := Ideal)) Wv (Proc.devRef .tc r) = Wv (Proc.devRef .tc r) :=
  after_of_writes_sub _ _ s02_writes h

/-! ## The three leading lines together -/

/-- The contents after the three leading lines, from the contents `Wv` at their entry. -/
abbrev pre (Wv : Val) : Val :=
  after (hostOps0_2 (F := Ideal)) (after (hostOps0_1 (F := Ideal)) (after (hostOps0 (F := Ideal)) Wv))

/-- A buffer the first two lines do not write. -/
theorem mid_keep (Wv : Val) (r : Ref sig .tc) (h0 : r ∉ s0_W) (h1 : r ∉ s01_W) :
    after (hostOps0_1 (F := Ideal)) (after (hostOps0 (F := Ideal)) Wv) (Proc.devRef .tc r) = Wv (Proc.devRef .tc r) :=
  (s01_keep _ r h1).trans (s0_keep _ r h0)

/-- A buffer none of the three lines writes. -/
theorem pre_keep (Wv : Val) (r : Ref sig .tc) (h0 : r ∉ s0_W) (h1 : r ∉ s01_W) (h2 : r ∉ s02_W) :
    pre Wv (Proc.devRef .tc r) = Wv (Proc.devRef .tc r) :=
  (s02_keep _ r h2).trans (mid_keep Wv r h0 h1)

theorem pre_v5 (Wv : Val) :
    pre Wv (no_index (Proc.devRef .tc main_v5)) = Cert.HostChain.src (Wv (Proc.devRef .tc main_arg2)) :=
  (s02_keep _ main_v5 (by decide)).trans ((s01_keep _ main_v5 (by decide)).trans (s0_v5 Wv))

theorem pre_v6 (Wv : Val) :
    pre Wv (no_index (Proc.devRef .tc main_v6)) = Cert.HostChain.dst (Wv (Proc.devRef .tc main_arg2)) :=
  (s02_keep _ main_v6 (by decide)).trans ((s01_keep _ main_v6 (by decide)).trans (s0_v6 Wv))

theorem pre_v29 (Wv : Val) :
    pre Wv (no_index (Proc.devRef .tc main_v29))
      = Cert.HostChain.norm (Cert.HostChain.src (Wv (Proc.devRef .tc main_arg2))) (Cert.HostChain.dst (Wv (Proc.devRef .tc main_arg2))) := by
  dsimp only [pre]
  rw [s02_v29, s01_v14, s01_keep _ main_v5 (by decide), s01_keep _ main_v6 (by decide), s0_v5, s0_v6, s0_v12, s0_v13, s0_cst_2]
  rfl

theorem pre_v35 (Wv : Val) :
    pre Wv (no_index (Proc.devRef .tc main_v35)) = truncf (F := Ideal) .bf16 (extractStridedSlice S128x128 ![0, 0] (Wv (Proc.devRef .tc main_arg3)) slices_S256x128_S128x128_0_0) bitsLt_bf16_f32 := by
  dsimp only [pre]
  rw [s02_v35, mid_keep _ main_arg3 (by decide) (by decide)]

theorem pre_v36 (Wv : Val) :
    pre Wv (no_index (Proc.devRef .tc main_v36)) = truncf (F := Ideal) .bf16 (extractStridedSlice S128x128 ![128, 0] (Wv (Proc.devRef .tc main_arg3)) slices_S256x128_S128x128_128_0) bitsLt_bf16_f32 := by
  dsimp only [pre]
  rw [s02_v36, mid_keep _ main_arg3 (by decide) (by decide)]

theorem pre_v37 (Wv : Val) :
    pre Wv (no_index (Proc.devRef .tc main_v37)) = truncf (F := Ideal) .bf16 (Wv (Proc.devRef .tc main_arg5)) bitsLt_bf16_f32 := by
  dsimp only [pre]
  rw [s02_v37, mid_keep _ main_arg5 (by decide) (by decide)]

theorem pre_v38 (Wv : Val) :
    pre Wv (no_index (Proc.devRef .tc main_v38)) = truncf (F := Ideal) .bf16 (Wv (Proc.devRef .tc main_arg7)) bitsLt_bf16_f32 := by
  dsimp only [pre]
  rw [s02_v38, mid_keep _ main_arg7 (by decide) (by decide)]

theorem pre_v39 (Wv : Val) :
    pre Wv (no_index (Proc.devRef .tc main_v39)) = truncf (F := Ideal) .bf16 (Wv (Proc.devRef .tc main_arg9)) bitsLt_bf16_f32 := by
  dsimp only [pre]
  rw [s02_v39, mid_keep _ main_arg9 (by decide) (by decide)]

theorem pre_v40 (Wv : Val) :
    pre Wv (no_index (Proc.devRef .tc main_v40)) = truncf (F := Ideal) .bf16 (extractStridedSlice S128x128 ![0, 0] (Wv (Proc.devRef .tc main_arg11)) slices_S384x128_S128x128_0_0) bitsLt_bf16_f32 := by
  dsimp only [pre]
  rw [s02_v40, mid_keep _ main_arg11 (by decide) (by decide)]

theorem pre_v41 (Wv : Val) :
    pre Wv (no_index (Proc.devRef .tc main_v41)) = truncf (F := Ideal) .bf16 (extractStridedSlice S128x128 ![128, 0] (Wv (Proc.devRef .tc main_arg11)) slices_S384x128_S128x128_128_0) bitsLt_bf16_f32 := by
  dsimp only [pre]
  rw [s02_v41, mid_keep _ main_arg11 (by decide) (by decide)]

theorem pre_v42 (Wv : Val) :
    pre Wv (no_index (Proc.devRef .tc main_v42)) = truncf (F := Ideal) .bf16 (extractStridedSlice S128x128 ![256, 0] (Wv (Proc.devRef .tc main_arg11)) slices_S384x128_S128x128_256_0) bitsLt_bf16_f32 := by
  dsimp only [pre]
  rw [s02_v42, mid_keep _ main_arg11 (by decide) (by decide)]

theorem pre_v43 (Wv : Val) :
    pre Wv (no_index (Proc.devRef .tc main_v43)) = truncf (F := Ideal) .bf16 (Wv (Proc.devRef .tc main_arg13)) bitsLt_bf16_f32 := by
  dsimp only [pre]
  rw [s02_v43, mid_keep _ main_arg13 (by decide) (by decide)]

theorem pre_v44 (Wv : Val) :
    pre Wv (no_index (Proc.devRef .tc main_v44)) = truncf (F := Ideal) .bf16 (Wv (Proc.devRef .tc main_arg15)) bitsLt_bf16_f32 := by
  dsimp only [pre]
  rw [s02_v44, mid_keep _ main_arg15 (by decide) (by decide)]

theorem pre_v45 (Wv : Val) :
    pre Wv (no_index (Proc.devRef .tc main_v45)) = shapeCast _ (Wv (Proc.devRef .tc main_arg4)) shapeCasts_S128_S1x128 := by
  dsimp only [pre]
  rw [s02_v45, mid_keep _ main_arg4 (by decide) (by decide)]

theorem pre_v46 (Wv : Val) :
    pre Wv (no_index (Proc.devRef .tc main_v46)) = shapeCast _ (Wv (Proc.devRef .tc main_arg6)) shapeCasts_S128_S1x128 := by
  dsimp only [pre]
  rw [s02_v46, mid_keep _ main_arg6 (by decide) (by decide)]

theorem pre_v47 (Wv : Val) :
    pre Wv (no_index (Proc.devRef .tc main_v47)) = shapeCast _ (Wv (Proc.devRef .tc main_arg8)) shapeCasts_S128_S1x128 := by
  dsimp only [pre]
  rw [s02_v47, mid_keep _ main_arg8 (by decide) (by decide)]

theorem pre_v48 (Wv : Val) :
    pre Wv (no_index (Proc.devRef .tc main_v48)) = shapeCast _ (Wv (Proc.devRef .tc main_arg10)) shapeCasts_S128_S1x128 := by
  dsimp only [pre]
  rw [s02_v48, mid_keep _ main_arg10 (by decide) (by decide)]

theorem pre_v49 (Wv : Val) :
    pre Wv (no_index (Proc.devRef .tc main_v49)) = shapeCast _ (Wv (Proc.devRef .tc main_arg12)) shapeCasts_S128_S1x128 := by
  dsimp only [pre]
  rw [s02_v49, mid_keep _ main_arg12 (by decide) (by decide)]

theorem pre_v50 (Wv : Val) :
    pre Wv (no_index (Proc.devRef .tc main_v50)) = shapeCast _ (Wv (Proc.devRef .tc main_arg14)) shapeCasts_S64_S1x64 := by
  dsimp only [pre]
  rw [s02_v50, mid_keep _ main_arg14 (by decide) (by decide)]

theorem pre_v51 (Wv : Val) :
    pre Wv (no_index (Proc.devRef .tc main_v51)) = shapeCast _ (Wv (Proc.devRef .tc main_arg16)) shapeCasts_S10_S1x10 := by
  dsimp only [pre]
  rw [s02_v51, mid_keep _ main_arg16 (by decide) (by decide)]

theorem pre_arg0 (Wv : Val) : pre Wv (no_index (Proc.devRef .tc main_arg0)) = Wv (Proc.devRef .tc main_arg0) :=
  pre_keep Wv main_arg0 (by decide) (by decide) (by decide)

theorem pre_arg1 (Wv : Val) : pre Wv (no_index (Proc.devRef .tc main_arg1)) = Wv (Proc.devRef .tc main_arg1) :=
  pre_keep Wv main_arg1 (by decide) (by decide) (by decide)

/-! ## The two aggregation lines -/

theorem s1_v65 (Wv : Val) :
    after (hostOps1 (F := Ideal)) Wv (no_index (Proc.devRef .tc main_v65))
      = Cert.HostChain.msg (Wv (Proc.devRef .tc main_v5)) (Wv (Proc.devRef .tc main_v6)) (Wv (Proc.devRef .tc main_v29))
          (Wv (Proc.devRef .tc main_v52_2)) := by
  dsimp only [hostOps1]; after_results_simp; rfl

/-- The buffers the line writes. -/
abbrev s1_W : List (Ref sig .tc) :=
  [main_c_6, main_v53, main_v54, main_c_7, main_v55, main_v56, main_v57, main_v58, main_v59, main_v60, main_v61, main_v62, main_cst_8, main_v63, main_v64, main_v65]

theorem s1_writes : (hostOps1 (F := Ideal)).Forall fun op => op.writes ⊆ (s1_W.map (Proc.devRef (τ := τ) .tc)).toFinset := by
  simp only [hostOps1, List.Forall]
  exact ⟨one_w, one_w, one_w, one_w, one_w, one_w, one_w, one_w, one_w, one_w, one_w, one_w, one_w, one_w, one_w, one_w⟩

/-- A buffer the line does not write keeps its contents. -/
theorem s1_keep (Wv : Val) (r : Ref sig .tc) (h : r ∉ s1_W) :
    after (hostOps1 (F := Ideal)) Wv (Proc.devRef .tc r) = Wv (Proc.devRef .tc r) :=
  after_of_writes_sub _ _ s1_writes h

theorem s2_v79 (Wv : Val) :
    after (hostOps2 (F := Ideal)) Wv (no_index (Proc.devRef .tc main_v79))
      = Cert.HostChain.msg (Wv (Proc.devRef .tc main_v5)) (Wv (Proc.devRef .tc main_v6)) (Wv (Proc.devRef .tc main_v29))
          (Wv (Proc.devRef .tc main_v66_1)) := by
  dsimp only [hostOps2]; after_results_simp; rfl

/-- The buffers the line writes. -/
abbrev s2_W : List (Ref sig .tc) :=
  [main_c_9, main_v67, main_v68, main_c_10, main_v69, main_v70, main_v71, main_v72, main_v73, main_v74, main_v75, main_v76, main_cst_11, main_v77, main_v78, main_v79]

theorem s2_writes : (hostOps2 (F := Ideal)).Forall fun op => op.writes ⊆ (s2_W.map (Proc.devRef (τ := τ) .tc)).toFinset := by
  simp only [hostOps2, List.Forall]
  exact ⟨one_w, one_w, one_w, one_w, one_w, one_w, one_w, one_w, one_w, one_w, one_w, one_w, one_w, one_w, one_w, one_w⟩

/-- A buffer the line does not write keeps its contents. -/
theorem s2_keep (Wv : Val) (r : Ref sig .tc) (h : r ∉ s2_W) :
    after (hostOps2 (F := Ideal)) Wv (Proc.devRef .tc r) = Wv (Proc.devRef .tc r) :=
  after_of_writes_sub _ _ s2_writes h

end Cert.KernelIdeal.Host

end
-- ==== Proof.KernelWeights.lean ====
/-
  The kernel's weights, as the network reads them.

  Before its regions the kernel program cuts the two stacked weight matrices into their blocks of 128 rows, narrows
  every weight matrix to the shorter float format (the identity on extended reals) and reshapes every bias vector of
  length `N` into a single row `1×N`. Read as matrices and vectors, a cut block is the block of rows of the stacked
  matrix that starts at its offset, a narrowed matrix is the matrix itself, and the row of a reshaped bias is the bias.
-/
import proofs.«134561_j13649406067417_2_alg».proof.Proof.Gen.KernelIdeal
import proofs.«134561_j13649406067417_2_alg».proof.KernelIdeal
import proofs.«134561_j13649406067417_2_alg».proof.Proof.Spec
import Idealize.ShloMosaic.Lib.Pipeline.Value
import Idealize.ShloMosaic.Lib.ValueIdx
import Idealize.ShloMosaic.Lib.ValueLayout

noncomputable section

namespace Cert.KernelIdeal.Weights

open Cert.KernelIdeal Idealize.ShloMosaic Idealize.ShloMosaic.ValueIdx

/-- The block of 128 rows cut from a `K×128` matrix at row `o`, narrowed: rows `o … o + 127` of the matrix. -/
theorem slice {K : Nat} (o : Nat) (ho : o + 128 ≤ K) (x : FVec Ideal (⟨2, ![K, 128]⟩ : Shape) .f32)
    (hs : (⟨2, ![K, 128]⟩ : Shape).Slices ![o, 0] S128x128) (hb : FTy.bits .bf16 < FTy.bits .f32) :
    Net.mat (m := 128) (n := 128) (truncf (F := Ideal) .bf16 (extractStridedSlice S128x128 ![o, 0] x hs) hb)
      = Net.rowsFrom o 128 ho x := by
  funext k j
  exact extractStridedSlice_apply ![o, 0] x hs (ix2 k j) (ix2 (⟨o + k.val, by have := k.isLt; omega⟩ : Fin K) j) (fun a => by
    match a with
    | ⟨0, _⟩ => rfl
    | ⟨1, _⟩ => exact (Nat.zero_add _).symm)

/-- A row block of the first stacked weight matrix. -/
theorem slice256 (o : Nat) (ho : o + 128 ≤ 256) (x3 : FVec Ideal S256x128 .f32) (hs : S256x128.Slices ![o, 0] S128x128)
    (hb : FTy.bits .bf16 < FTy.bits .f32) :
    Net.mat (m := 128) (n := 128) (truncf (F := Ideal) .bf16 (extractStridedSlice S128x128 ![o, 0] x3 hs) hb)
      = Net.rowsFrom o 128 ho x3 :=
  slice o ho x3 hs hb

/-- A row block of the second stacked weight matrix. -/
theorem slice384 (o : Nat) (ho : o + 128 ≤ 384) (x11 : FVec Ideal S384x128 .f32) (hs : S384x128.Slices ![o, 0] S128x128)
    (hb : FTy.bits .bf16 < FTy.bits .f32) :
    Net.mat (m := 128) (n := 128) (truncf (F := Ideal) .bf16 (extractStridedSlice S128x128 ![o, 0] x11 hs) hb)
      = Net.rowsFrom o 128 ho x11 :=
  slice o ho x11 hs hb

/-- A narrowed weight matrix is the matrix. -/
theorem narrow {K N : Nat} (x : FVec Ideal (⟨2, ![K, N]⟩ : Shape) .f32) (hb : FTy.bits .bf16 < FTy.bits .f32) :
    Net.mat (truncf (F := Ideal) .bf16 x hb) = Net.mat x := rfl

/-- The row of a length-`N` vector reshaped to `1×N` is the vector. -/
theorem biasRow {N : Nat} (b : FVec Ideal (⟨1, ![N]⟩ : Shape) .f32) (h : (⟨1, ![N]⟩ : Shape).ShapeCasts ⟨2, ![1, N]⟩) :
    (fun j : Fin N => (shapeCast (⟨2, ![1, N]⟩ : Shape) b h) (ix2 (0 : Fin 1) j)) = Net.vec b := by
  funext j
  refine shapeCast_apply b h (ix2 (0 : Fin 1) j) (ix1 j) ?_
  rw [Shape.rowMajor_val_one, Shape.rowMajor_val_two]
  show j.val = 0 * N + j.val
  omega

theorem bias128 (b : FVec Ideal S128 .f32) (h : S128.ShapeCasts S1x128) :
    (fun j : Fin 128 => (shapeCast S1x128 b h) (ix2 (0 : Fin 1) j)) = Net.vec b := biasRow b h

theorem bias64 (b : FVec Ideal S64 .f32) (h : S64.ShapeCasts S1x64) :
    (fun j : Fin 64 => (shapeCast S1x64 b h) (ix2 (0 : Fin 1) j)) = Net.vec b := biasRow b h

theorem bias10 (b : FVec Ideal S10 .f32) (h : S10.ShapeCasts S1x10) :
    (fun j : Fin 10 => (shapeCast S1x10 b h) (ix2 (0 : Fin 1) j)) = Net.vec b := biasRow b h

end Cert.KernelIdeal.Weights

end
-- ==== Proof.KernelChain.lean ====
/-
  The kernel program's result as the network of its arguments.

  Boundary by boundary: before region 0 the host operations leave the graph quantities (sources, targets, edge weights),
  the sliced and narrowed weights and the reshaped biases; region 0 leaves `z`, `z0` and `h1 = (z + gx)·Wg1` row by
  row; one aggregation step gives `raw1`; region 1 leaves `z1` and `h2`; a second step gives `raw2`; region 2 leaves
  the result. A buffer that a stretch does not write, or that is not one of a region's arrays, keeps its contents
  across it. Composed, the result buffer holds `Net` of the launch contents, the aggregation carried as `passM`.
-/
import proofs.«134561_j13649406067417_2_alg».proof.Proof.Gen.KernelIdeal.Frame
import proofs.«134561_j13649406067417_2_alg».proof.Proof.RegionA
import proofs.«134561_j13649406067417_2_alg».proof.Proof.RegionB
import proofs.«134561_j13649406067417_2_alg».proof.Proof.RegionC
import proofs.«134561_j13649406067417_2_alg».proof.Proof.KernelHost
import proofs.«134561_j13649406067417_2_alg».proof.Proof.KernelWeights
import proofs.«134561_j13649406067417_2_alg».proof.Proof.HostChain
import proofs.«134561_j13649406067417_2_alg».proof.Proof.Spec

set_option maxRecDepth 16384
set_option pp.maxSteps 5000
set_option pp.deepTerms false

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## A buffer across a boundary it is not written at -/

theorem keep4 (c : Dev nD) (b : Ref sig .tc) (hb : ∀ w, Pipeline.arrRef spec0 w ≠ b) :
    W4 m ρ c (Proc.devRef .tc b) = W3 m ρ c (Proc.devRef .tc b) := W4_of_ne m ρ c b hb
theorem keep5 (c : Dev nD) (b : Ref sig .tc) (hb : b ∉ Host.s1_W) :
    W5 m ρ c (Proc.devRef .tc b) = W4 m ρ c (Proc.devRef .tc b) := Host.s1_keep (W4 m ρ c) b hb
theorem keep6 (c : Dev nD) (b : Ref sig .tc) (hb : ∀ w, Pipeline.arrRef spec1 w ≠ b) :
    W6 m ρ c (Proc.devRef .tc b) = W5 m ρ c (Proc.devRef .tc b) := W6_of_ne m ρ c b hb
theorem keep7 (c : Dev nD) (b : Ref sig .tc) (hb : b ∉ Host.s2_W) :
    W7 m ρ c (Proc.devRef .tc b) = W6 m ρ c (Proc.devRef .tc b) := Host.s2_keep (W6 m ρ c) b hb

/-- An input window's array is as the region found it. -/
theorem in4 (c : Dev nD) (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin _).trans (A_eq0 (V3 m ρ) c w))
theorem in6 (c : Dev nD) (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin _).trans (A_eq1 (V5 m ρ) c w))

/-! ## The launch contents, and the network's pieces of them -/

abbrev a0 (c : Dev nD) : FVec Ideal S50000x128 .f32 := m ((c : Thread nD τ).loc main_arg0)
abbrev a1 (c : Dev nD) : FVec Ideal S50000x128 .f32 := m ((c : Thread nD τ).loc main_arg1)
abbrev a2 (c : Dev nD) : Cert.HostChain.Edges := m ((c : Thread nD τ).loc main_arg2)
abbrev a3 (c : Dev nD) : FVec Ideal S256x128 .f32 := m ((c : Thread nD τ).loc main_arg3)
abbrev a4 (c : Dev nD) : FVec Ideal S128 .f32 := m ((c : Thread nD τ).loc main_arg4)
abbrev a5 (c : Dev nD) : FVec Ideal S128x128 .f32 := m ((c : Thread nD τ).loc main_arg5)
abbrev a6 (c : Dev nD) : FVec Ideal S128 .f32 := m ((c : Thread nD τ).loc main_arg6)
abbrev a7 (c : Dev nD) : FVec Ideal S128x128 .f32 := m ((c : Thread nD τ).loc main_arg7)
abbrev a8 (c : Dev nD) : FVec Ideal S128 .f32 := m ((c : Thread nD τ).loc main_arg8)
abbrev a9 (c : Dev nD) : FVec Ideal S128x128 .f32 := m ((c : Thread nD τ).loc main_arg9)
abbrev a10 (c : Dev nD) : FVec Ideal S128 .f32 := m ((c : Thread nD τ).loc main_arg10)
abbrev a11 (c : Dev nD) : FVec Ideal S384x128 .f32 := m ((c : Thread nD τ).loc main_arg11)
abbrev a12 (c : Dev nD) : FVec Ideal S128 .f32 := m ((c : Thread nD τ).loc main_arg12)
abbrev a13 (c : Dev nD) : FVec Ideal S128x64 .f32 := m ((c : Thread nD τ).loc main_arg13)
abbrev a14 (c : Dev nD) : FVec Ideal S64 .f32 := m ((c : Thread nD τ).loc main_arg14)
abbrev a15 (c : Dev nD) : FVec Ideal S64x10 .f32 := m ((c : Thread nD τ).loc main_arg15)
abbrev a16 (c : Dev nD) : FVec Ideal S10 .f32 := m ((c : Thread nD τ).loc main_arg16)

/-- `z`'s rows. -/
abbrev zf (c : Dev nD) : Fin 50000 → Fin 128 → EReal := fun r =>
  Net.zrow (Net.mat (a0 m c) r) (Net.mat (a1 m c) r) (Net.rowsFrom 0 128 (by norm_num) (a3 m c)) (Net.rowsFrom 128 128 (by norm_num) (a3 m c)) (Net.vec (a4 m c))
/-- `h1 = (z + gx)·Wg1`'s rows. -/
abbrev h1f (c : Dev nD) : Fin 50000 → Fin 128 → EReal := fun r => Net.h1row (zf m c r) (Net.mat (a1 m c) r) (Net.mat (a7 m c))
/-- `z1`'s rows. -/
abbrev z1f (c : Dev nD) : Fin 50000 → Fin 128 → EReal := fun r => Net.z1row (Cert.HostChain.passM (a2 m c) (h1f m c) r) (Net.vec (a8 m c))
/-- `h2 = z1·Wg2`'s rows. -/
abbrev h2f (c : Dev nD) : Fin 50000 → Fin 128 → EReal := fun r => Net.h2row (z1f m c r) (Net.mat (a9 m c))

/-- The network of the launch contents. -/
abbrev netOf (c : Dev nD) : S50000x10.Idx → EReal :=
  Net.arr (m := 50000) (n := 10) (Net.Net (n := 50000) (Cert.HostChain.passM (a2 m c)) (Cert.HostChain.passM (a2 m c)) (Net.mat (a0 m c)) (Net.mat (a1 m c))
    (Net.rowsFrom 0 128 (by norm_num) (a3 m c)) (Net.rowsFrom 128 128 (by norm_num) (a3 m c)) (Net.vec (a4 m c)) (Net.mat (a5 m c)) (Net.vec (a6 m c))
    (Net.mat (a7 m c)) (Net.vec (a8 m c)) (Net.mat (a9 m c)) (Net.vec (a10 m c))
    (Net.rowsFrom 0 128 (by norm_num) (a11 m c)) (Net.rowsFrom 128 128 (by norm_num) (a11 m c)) (Net.rowsFrom 256 128 (by norm_num) (a11 m c))
    (Net.vec (a12 m c)) (Net.mat (a13 m c)) (Net.vec (a14 m c)) (Net.mat (a15 m c)) (Net.vec (a16 m c)))

/-! ## Before region 0 -/

theorem at3_arg0 (c : Dev nD) : W3 m ρ c (Proc.devRef .tc main_arg0) = a0 m c := Host.pre_arg0 (W0 m ρ c)
theorem at3_arg1 (c : Dev nD) : W3 m ρ c (Proc.devRef .tc main_arg1) = a1 m c := Host.pre_arg1 (W0 m ρ c)
theorem at3_v5 (c : Dev nD) : W3 m ρ c (Proc.devRef .tc main_v5) = Cert.HostChain.src (a2 m c) := Host.pre_v5 (W0 m ρ c)
theorem at3_v6 (c : Dev nD) : W3 m ρ c (Proc.devRef .tc main_v6) = Cert.HostChain.dst (a2 m c) := Host.pre_v6 (W0 m ρ c)
theorem at3_v29 (c : Dev nD) : W3 m ρ c (Proc.devRef .tc main_v29)
    = Cert.HostChain.norm (Cert.HostChain.src (a2 m c)) (Cert.HostChain.dst (a2 m c)) := Host.pre_v29 (W0 m ρ c)

/-- The weights and biases as the regions read them, in the network's spelling. -/
theorem at3_w1a (c : Dev nD) : Net.mat (m := 128) (n := 128) (W3 m ρ c (Proc.devRef .tc main_v35)) = Net.rowsFrom 0 128 (by norm_num) (a3 m c) :=
  (congrArg (Net.mat (m := 128) (n := 128)) (Host.pre_v35 (W0 m ρ c))).trans (Weights.slice256 0 (by norm_num) (a3 m c) _ _)
theorem at3_w1b (c : Dev nD) : Net.mat (m := 128) (n := 128) (W3 m ρ c (Proc.devRef .tc main_v36)) = Net.rowsFrom 128 128 (by norm_num) (a3 m c) :=
  (congrArg (Net.mat (m := 128) (n := 128)) (Host.pre_v36 (W0 m ρ c))).trans (Weights.slice256 128 (by norm_num) (a3 m c) _ _)
theorem at3_wdr (c : Dev nD) : Net.mat (m := 128) (n := 128) (W3 m ρ c (Proc.devRef .tc main_v37)) = Net.mat (a5 m c) :=
  (congrArg (Net.mat (m := 128) (n := 128)) (Host.pre_v37 (W0 m ρ c))).trans (Weights.narrow (a5 m c) _)
theorem at3_wg1 (c : Dev nD) : Net.mat (m := 128) (n := 128) (W3 m ρ c (Proc.devRef .tc main_v38)) = Net.mat (a7 m c) :=
  (congrArg (Net.mat (m := 128) (n := 128)) (Host.pre_v38 (W0 m ρ c))).trans (Weights.narrow (a7 m c) _)
theorem at3_wg2 (c : Dev nD) : Net.mat (m := 128) (n := 128) (W3 m ρ c (Proc.devRef .tc main_v39)) = Net.mat (a9 m c) :=
  (congrArg (Net.mat (m := 128) (n := 128)) (Host.pre_v39 (W0 m ρ c))).trans (Weights.narrow (a9 m c) _)
theorem at3_w2a (c : Dev nD) : Net.mat (m := 128) (n := 128) (W3 m ρ c (Proc.devRef .tc main_v40)) = Net.rowsFrom 0 128 (by norm_num) (a11 m c) :=
  (congrArg (Net.mat (m := 128) (n := 128)) (Host.pre_v40 (W0 m ρ c))).trans (Weights.slice384 0 (by norm_num) (a11 m c) _ _)
theorem at3_w2b (c : Dev nD) : Net.mat (m := 128) (n := 128) (W3 m ρ c (Proc.devRef .tc main_v41)) = Net.rowsFrom 128 128 (by norm_num) (a11 m c) :=
  (congrArg (Net.mat (m := 128) (n := 128)) (Host.pre_v41 (W0 m ρ c))).trans (Weights.slice384 128 (by norm_num) (a11 m c) _ _)
theorem at3_w2c (c : Dev nD) : Net.mat (m := 128) (n := 128) (W3 m ρ c (Proc.devRef .tc main_v42)) = Net.rowsFrom 256 128 (by norm_num) (a11 m c) :=
  (congrArg (Net.mat (m := 128) (n := 128)) (Host.pre_v42 (W0 m ρ c))).trans (Weights.slice384 256 (by norm_num) (a11 m c) _ _)
theorem at3_w3 (c : Dev nD) : Net.mat (m := 128) (n := 64) (W3 m ρ c (Proc.devRef .tc main_v43)) = Net.mat (a13 m c) :=
  (congrArg (Net.mat (m := 128) (n := 64)) (Host.pre_v43 (W0 m ρ c))).trans (Weights.narrow (a13 m c) _)
theorem at3_wo (c : Dev nD) : Net.mat (m := 64) (n := 10) (W3 m ρ c (Proc.devRef .tc main_v44)) = Net.mat (a15 m c) :=
  (congrArg (Net.mat (m := 64) (n := 10)) (Host.pre_v44 (W0 m ρ c))).trans (Weights.narrow (a15 m c) _)
theorem at3_b1 (c : Dev nD) : (fun j : Fin 128 => W3 m ρ c (Proc.devRef .tc main_v45) (ix2 0 j)) = Net.vec (a4 m c) :=
  (congrArg (fun (v : S1x128.Idx → EReal) => fun j : Fin 128 => v (ix2 0 j)) (Host.pre_v45 (W0 m ρ c))).trans (Weights.bias128 (a4 m c) _)
theorem at3_bdr (c : Dev nD) : (fun j : Fin 128 => W3 m ρ c (Proc.devRef .tc main_v46) (ix2 0 j)) = Net.vec (a6 m c) :=
  (congrArg (fun (v : S1x128.Idx → EReal) => fun j : Fin 128 => v (ix2 0 j)) (Host.pre_v46 (W0 m ρ c))).trans (Weights.bias128 (a6 m c) _)
theorem at3_bg1 (c : Dev nD) : (fun j : Fin 128 => W3 m ρ c (Proc.devRef .tc main_v47) (ix2 0 j)) = Net.vec (a8 m c) :=
  (congrArg (fun (v : S1x128.Idx → EReal) => fun j : Fin 128 => v (ix2 0 j)) (Host.pre_v47 (W0 m ρ c))).trans (Weights.bias128 (a8 m c) _)
theorem at3_bg2 (c : Dev nD) : (fun j : Fin 128 => W3 m ρ c (Proc.devRef .tc main_v48) (ix2 0 j)) = Net.vec (a10 m c) :=
  (congrArg (fun (v : S1x128.Idx → EReal) => fun j : Fin 128 => v (ix2 0 j)) (Host.pre_v48 (W0 m ρ c))).trans (Weights.bias128 (a10 m c) _)
theorem at3_b2 (c : Dev nD) : (fun j : Fin 128 => W3 m ρ c (Proc.devRef .tc main_v49) (ix2 0 j)) = Net.vec (a12 m c) :=
  (congrArg (fun (v : S1x128.Idx → EReal) => fun j : Fin 128 => v (ix2 0 j)) (Host.pre_v49 (W0 m ρ c))).trans (Weights.bias128 (a12 m c) _)
theorem at3_b3 (c : Dev nD) : (fun j : Fin 64 => W3 m ρ c (Proc.devRef .tc main_v50) (ix2 0 j)) = Net.vec (a14 m c) :=
  (congrArg (fun (v : S1x64.Idx → EReal) => fun j : Fin 64 => v (ix2 0 j)) (Host.pre_v50 (W0 m ρ c))).trans (Weights.bias64 (a14 m c) _)
theorem at3_bo (c : Dev nD) : (fun j : Fin 10 => W3 m ρ c (Proc.devRef .tc main_v51) (ix2 0 j)) = Net.vec (a16 m c) :=
  (congrArg (fun (v : S1x10.Idx → EReal) => fun j : Fin 10 => v (ix2 0 j)) (Host.pre_v51 (W0 m ρ c))).trans (Weights.bias10 (a16 m c) _)

/-! ## Region 0: `z`, `z0`, `h1` -/

theorem at4_z (c : Dev nD) : W4 m ρ c (Proc.devRef .tc main_v52_0) = Net.arr (m := 50000) (n := 128) (zf m c) := by
  refine (W4_arr m ρ c 8).trans ((RegionA.final8 (V3 m ρ) c).trans ?_)
  dsimp only [RegionA.G8, V3]
  rw [at3_arg0, at3_arg1, at3_w1a, at3_w1b, at3_b1]

theorem at4_z0 (c : Dev nD) : W4 m ρ c (Proc.devRef .tc main_v52_1)
    = Net.arr (m := 50000) (n := 128) (fun r => Net.z0row (zf m c r) (Net.mat (a5 m c)) (Net.vec (a6 m c))) := by
  refine (W4_arr m ρ c 9).trans ((RegionA.final9 (V3 m ρ) c).trans ?_)
  dsimp only [RegionA.G9, V3]
  rw [at3_arg0, at3_arg1, at3_w1a, at3_w1b, at3_b1, at3_wdr, at3_bdr]

theorem at4_h1 (c : Dev nD) : W4 m ρ c (Proc.devRef .tc main_v52_2) = Net.arr (m := 50000) (n := 128) (h1f m c) := by
  refine (W4_arr m ρ c 10).trans ((RegionA.final10 (V3 m ρ) c).trans ?_)
  dsimp only [RegionA.G10, V3]
  rw [at3_arg0, at3_arg1, at3_w1a, at3_w1b, at3_b1, at3_wg1]

/-! ## The first aggregation and region 1: `raw1`, `z1`, `h2` -/

theorem at5_raw1 (c : Dev nD) : W5 m ρ c (Proc.devRef .tc main_v65)
    = Cert.HostChain.pass (a2 m c) (Net.arr (m := 50000) (n := 128) (h1f m c)) := by
  refine (Host.s1_v65 (W4 m ρ c)).trans ?_
  rw [keep4 m ρ c main_v5 (by decide), keep4 m ρ c main_v6 (by decide), keep4 m ρ c main_v29 (by decide),
    at3_v5, at3_v6, at3_v29, at4_h1]
  rfl

/-- A buffer that neither region 0 nor the first aggregation writes. -/
theorem at5_keep (c : Dev nD) (b : Ref sig .tc) (h1 : b ∉ Host.s1_W) (h0 : ∀ w, Pipeline.arrRef spec0 w ≠ b) :
    W5 m ρ c (Proc.devRef .tc b) = W3 m ρ c (Proc.devRef .tc b) := (keep5 m ρ c b h1).trans (keep4 m ρ c b h0)

theorem at6_z1 (c : Dev nD) : W6 m ρ c (Proc.devRef .tc main_v66_0) = Net.arr (m := 50000) (n := 128) (z1f m c) := by
  refine (W6_arr m ρ c 3).trans ((RegionB.final3 (V5 m ρ) c).trans ?_)
  dsimp only [RegionB.G3, V5]
  rw [at5_raw1, at5_keep m ρ c main_v47 (by decide) (by decide), at3_bg1]
  rfl

theorem at6_h2 (c : Dev nD) : W6 m ρ c (Proc.devRef .tc main_v66_1) = Net.arr (m := 50000) (n := 128) (h2f m c) := by
  refine (W6_arr m ρ c 4).trans ((RegionB.final4 (V5 m ρ) c).trans ?_)
  dsimp only [RegionB.G4, V5]
  rw [at5_raw1, at5_keep m ρ c main_v47 (by decide) (by decide), at3_bg1, at5_keep m ρ c main_v39 (by decide) (by decide), at3_wg2]
  rfl

/-- A buffer untouched up to region 1's exit. -/
theorem at6_keep (c : Dev nD) (b : Ref sig .tc) (h2 : ∀ w, Pipeline.arrRef spec1 w ≠ b) (h1 : b ∉ Host.s1_W) (h0 : ∀ w, Pipeline.arrRef spec0 w ≠ b) :
    W6 m ρ c (Proc.devRef .tc b) = W3 m ρ c (Proc.devRef .tc b) := (keep6 m ρ c b h2).trans (at5_keep m ρ c b h1 h0)

/-! ## The second aggregation and region 2: `raw2`, the result -/

theorem at7_raw2 (c : Dev nD) : W7 m ρ c (Proc.devRef .tc main_v79)
    = Cert.HostChain.pass (a2 m c) (Net.arr (m := 50000) (n := 128) (h2f m c)) := by
  refine (Host.s2_v79 (W6 m ρ c)).trans ?_
  rw [at6_keep m ρ c main_v5 (by decide) (by decide) (by decide), at6_keep m ρ c main_v6 (by decide) (by decide) (by decide),
    at6_keep m ρ c main_v29 (by decide) (by decide) (by decide), at3_v5, at3_v6, at3_v29, at6_h2]
  rfl

/-- A buffer untouched up to region 2's entry. -/
theorem at7_keep (c : Dev nD) (b : Ref sig .tc) (h3 : b ∉ Host.s2_W) (h2 : ∀ w, Pipeline.arrRef spec1 w ≠ b) (h1 : b ∉ Host.s1_W)
    (h0 : ∀ w, Pipeline.arrRef spec0 w ≠ b) : W7 m ρ c (Proc.devRef .tc b) = W3 m ρ c (Proc.devRef .tc b) :=
  (keep7 m ρ c b h3).trans (at6_keep m ρ c b h2 h1 h0)
/-- One of region 0's outputs, untouched from region 0's exit to region 2's entry. -/
theorem at7_keep4 (c : Dev nD) (b : Ref sig .tc) (h3 : b ∉ Host.s2_W) (h2 : ∀ w, Pipeline.arrRef spec1 w ≠ b) (h1 : b ∉ Host.s1_W) :
    W7 m ρ c (Proc.devRef .tc b) = W4 m ρ c (Proc.devRef .tc b) :=
  (keep7 m ρ c b h3).trans ((keep6 m ρ c b h2).trans (keep5 m ρ c b h1))

/-- What region 2 reads besides `raw2`: the kept rows and the weights, in the network's spelling. -/
theorem at7_bg2 (c : Dev nD) : (fun j : Fin 128 => W7 m ρ c (Proc.devRef .tc main_v48) (ix2 0 j)) = Net.vec (a10 m c) := by
  rw [at7_keep m ρ c main_v48 (by decide) (by decide) (by decide) (by decide)]
  exact at3_bg2 m ρ c
theorem at7_w2a (c : Dev nD) : Net.mat (m := 128) (n := 128) (W7 m ρ c (Proc.devRef .tc main_v40)) = Net.rowsFrom 0 128 (by norm_num) (a11 m c) := by
  rw [at7_keep m ρ c main_v40 (by decide) (by decide) (by decide) (by decide)]
  exact at3_w2a m ρ c
theorem at7_w2b (c : Dev nD) : Net.mat (m := 128) (n := 128) (W7 m ρ c (Proc.devRef .tc main_v41)) = Net.rowsFrom 128 128 (by norm_num) (a11 m c) := by
  rw [at7_keep m ρ c main_v41 (by decide) (by decide) (by decide) (by decide)]
  exact at3_w2b m ρ c
theorem at7_w2c (c : Dev nD) : Net.mat (m := 128) (n := 128) (W7 m ρ c (Proc.devRef .tc main_v42)) = Net.rowsFrom 256 128 (by norm_num) (a11 m c) := by
  rw [at7_keep m ρ c main_v42 (by decide) (by decide) (by decide) (by decide)]
  exact at3_w2c m ρ c
theorem at7_b2 (c : Dev nD) : (fun j : Fin 128 => W7 m ρ c (Proc.devRef .tc main_v49) (ix2 0 j)) = Net.vec (a12 m c) := by
  rw [at7_keep m ρ c main_v49 (by decide) (by decide) (by decide) (by decide)]
  exact at3_b2 m ρ c
theorem at7_w3 (c : Dev nD) : Net.mat (m := 128) (n := 64) (W7 m ρ c (Proc.devRef .tc main_v43)) = Net.mat (a13 m c) := by
  rw [at7_keep m ρ c main_v43 (by decide) (by decide) (by decide) (by decide)]
  exact at3_w3 m ρ c
theorem at7_b3 (c : Dev nD) : (fun j : Fin 64 => W7 m ρ c (Proc.devRef .tc main_v50) (ix2 0 j)) = Net.vec (a14 m c) := by
  rw [at7_keep m ρ c main_v50 (by decide) (by decide) (by decide) (by decide)]
  exact at3_b3 m ρ c
theorem at7_wo (c : Dev nD) : Net.mat (m := 64) (n := 10) (W7 m ρ c (Proc.devRef .tc main_v44)) = Net.mat (a15 m c) := by
  rw [at7_keep m ρ c main_v44 (by decide) (by decide) (by decide) (by decide)]
  exact at3_wo m ρ c
theorem at7_bo (c : Dev nD) : (fun j : Fin 10 => W7 m ρ c (Proc.devRef .tc main_v51) (ix2 0 j)) = Net.vec (a16 m c) := by
  rw [at7_keep m ρ c main_v51 (by decide) (by decide) (by decide) (by decide)]
  exact at3_bo m ρ c
theorem at7_z (c : Dev nD) : W7 m ρ c (Proc.devRef .tc main_v52_0) = Net.arr (m := 50000) (n := 128) (zf m c) :=
  (at7_keep4 m ρ c main_v52_0 (by decide) (by decide) (by decide)).trans (at4_z m ρ c)
theorem at7_z0 (c : Dev nD) : W7 m ρ c (Proc.devRef .tc main_v52_1)
    = Net.arr (m := 50000) (n := 128) (fun r => Net.z0row (zf m c r) (Net.mat (a5 m c)) (Net.vec (a6 m c))) :=
  (at7_keep4 m ρ c main_v52_1 (by decide) (by decide) (by decide)).trans (at4_z0 m ρ c)
theorem at7_z1 (c : Dev nD) : W7 m ρ c (Proc.devRef .tc main_v66_0) = Net.arr (m := 50000) (n := 128) (z1f m c) :=
  (keep7 m ρ c main_v66_0 (by decide)).trans (at6_z1 m ρ c)

/-- THE RESULT: the result buffer's final contents are the network of the launch contents. -/
theorem result (c : Dev nD) : W8 m ρ c (Proc.devRef .tc main_v80) = netOf m c := by
  refine (W8_arr m ρ c 13).trans ((RegionC.final13 (V7 m ρ) c).trans ?_)
  dsimp only [RegionC.G13, V7]
  rw [at7_raw2, at7_bg2, at7_z, at7_z0, at7_z1, at7_w2a, at7_w2b, at7_w2c, at7_b2, at7_w3, at7_b3, at7_wo, at7_bo]
  rfl

end Cert.KernelIdeal.Chain

end
-- ==== Proof.RefTerm.lean ====
/-
  The reference program's result as one pure term of its arguments, stage by stage.

  `zT`: `relu ([x | gx]·W1 + b1)`; `z0T`: `z·Wdr + bdr`; `h1T`: `(z + gx)·Wg1`; `z1T`: `relu (raw + b)`;
  `h2T`: `z1·Wg2`; `outT`: the last dense block on `[z | z1 | z2]`. Between them the two aggregation steps
  (`HostChain.pass`). Whole-array operations throughout: this is the host program's own text.
-/
import proofs.«134561_j13649406067417_2_alg».proof.ReferenceIdeal
import proofs.«134561_j13649406067417_2_alg».proof.Proof.HostChain

noncomputable section

namespace Cert.RefTerm

open Cert.ReferenceIdeal Idealize.ShloMosaic

variable [Cert.ReferenceIdeal.Facts₀] [Cert.KernelIdeal.Facts₀]
open Cert.ReferenceIdeal.Facts₀

abbrev A (s : Shape) := FVec Ideal s .f32

def bias128 (b : A S128) : A S50000x128 :=
  broadcastInDim S50000x128 ![0, 1] bcast_S1x128_S50000x128_0_1 (broadcastInDim S1x128 ![1] bcast_S128_S1x128_1 b)
def bias64 (b : A S64) : A S50000x64 :=
  broadcastInDim S50000x64 ![0, 1] bcast_S1x64_S50000x64_0_1 (broadcastInDim S1x64 ![1] bcast_S64_S1x64_1 b)
def bias10 (b : A S10) : A S50000x10 :=
  broadcastInDim S50000x10 ![0, 1] bcast_S1x10_S50000x10_0_1 (broadcastInDim S1x10 ![1] bcast_S10_S1x10_1 b)
def relu128 (a : A S50000x128) : A S50000x128 :=
  maximumf (F := Ideal) (φ := .f32) a (broadcastInDim S50000x128 ![] bcast_S_S50000x128 (constant (F := Ideal) S_ .f32 0x00000000#32))
def relu64 (a : A S50000x64) : A S50000x64 :=
  maximumf (F := Ideal) (φ := .f32) a (broadcastInDim S50000x64 ![] bcast_S_S50000x64 (constant (F := Ideal) S_ .f32 0x00000000#32))

def zT (x0 x1 : A S50000x128) (x3 : A S256x128) (x4 : A S128) : A S50000x128 :=
  relu128 (addf (F := Ideal) (φ := .f32)
    (Host.dotGeneral (F := Ideal) dot_S50000x256_S256x128_S50000x128_1_0_0_1_n_n none
      (concatenate S50000x256 1 [⟨S50000x128, x0⟩, ⟨S50000x128, x1⟩] concatenates_S50000x128_S50000x128_S50000x256_d1) x3)
    (bias128 x4))
def z0T (z : A S50000x128) (x5 : A S128x128) (x6 : A S128) : A S50000x128 :=
  addf (F := Ideal) (φ := .f32) (Host.dotGeneral (F := Ideal) dot_S50000x128_S128x128_S50000x128_1_0_0_1_n_n none z x5) (bias128 x6)
def h1T (z x1 : A S50000x128) (x7 : A S128x128) : A S50000x128 :=
  Host.dotGeneral (F := Ideal) dot_S50000x128_S128x128_S50000x128_1_0_0_1_n_n none (addf (F := Ideal) (φ := .f32) z x1) x7
def z1T (raw : A S50000x128) (b : A S128) : A S50000x128 := relu128 (addf (F := Ideal) (φ := .f32) raw (bias128 b))
def h2T (z1 : A S50000x128) (x9 : A S128x128) : A S50000x128 :=
  Host.dotGeneral (F := Ideal) dot_S50000x128_S128x128_S50000x128_1_0_0_1_n_n none z1 x9
def zcT (z z1 z2 : A S50000x128) (x11 : A S384x128) (x12 : A S128) : A S50000x128 :=
  relu128 (addf (F := Ideal) (φ := .f32)
    (Host.dotGeneral (F := Ideal) dot_S50000x384_S384x128_S50000x128_1_0_0_1_n_n none
      (concatenate S50000x384 1 [⟨S50000x128, z⟩, ⟨S50000x128, z1⟩, ⟨S50000x128, z2⟩] concatenates_S50000x128_S50000x128_S50000x128_S50000x384_d1) x11)
    (bias128 x12))
def zfT (zc z0 : A S50000x128) (x13 : A S128x64) (x14 : A S64) : A S50000x64 :=
  relu64 (addf (F := Ideal) (φ := .f32)
    (Host.dotGeneral (F := Ideal) dot_S50000x128_S128x64_S50000x64_1_0_0_1_n_n none (addf (F := Ideal) (φ := .f32) zc z0) x13) (bias64 x14))
def oT (zf : A S50000x64) (x15 : A S64x10) (x16 : A S10) : A S50000x10 :=
  addf (F := Ideal) (φ := .f32) (Host.dotGeneral (F := Ideal) dot_S50000x64_S64x10_S50000x10_1_0_0_1_n_n none zf x15) (bias10 x16)

/-- The reference's result. -/
def out (x0 x1 : A S50000x128) (x2 : Cert.HostChain.Edges) (x3 : A S256x128) (x4 : A S128) (x5 : A S128x128) (x6 : A S128)
    (x7 : A S128x128) (x8 : A S128) (x9 : A S128x128) (x10 : A S128) (x11 : A S384x128) (x12 : A S128) (x13 : A S128x64) (x14 : A S64)
    (x15 : A S64x10) (x16 : A S10) : A S50000x10 :=
  oT (zfT (zcT (zT x0 x1 x3 x4)
        (z1T (Cert.HostChain.pass x2 (h1T (zT x0 x1 x3 x4) x1 x7)) x8)
        (z1T (Cert.HostChain.pass x2 (h2T (z1T (Cert.HostChain.pass x2 (h1T (zT x0 x1 x3 x4) x1 x7)) x8) x9)) x10)
        x11 x12)
      (z0T (zT x0 x1 x3 x4) x5 x6) x13 x14) x15 x16

end Cert.RefTerm

end
-- ==== Proof.RefFold.lean ====
/-
  The reference program's run, read back as one closed term.

  The reference is a straight line of host operations, so its run ends with every buffer at the fold of the
  operations' results over the launch contents. The fold is read window by window: the operation list is cut into
  fourteen consecutive windows, and for each window, from ANY entry contents `V`, the buffers that later windows read
  are computed as the stage functions of `Cert.RefTerm` and `Cert.HostChain` applied to `V` at the window's inputs;
  every buffer a window does not write keeps its contents through it. Chaining the windows gives the result buffer as
  `Cert.RefTerm.out` of the seventeen arguments: the two aggregation steps compute the same endpoint vectors and
  edge weights from the edge list, so both are `Cert.HostChain.pass` over the same graph.
-/
import proofs.«134561_j13649406067417_2_alg».proof.Proof.Gen.KernelIdeal
import proofs.«134561_j13649406067417_2_alg».proof.Proof.Gen.ReferenceIdeal
import proofs.«134561_j13649406067417_2_alg».proof.Proof.RefTerm
import proofs.«134561_j13649406067417_2_alg».proof.Proof.RefRun

noncomputable section

namespace Cert.ReferenceIdeal.RefFold

open Cert.ReferenceIdeal Cert.ReferenceIdeal.Gen Idealize.ShloMosaic Idealize.ShloMosaic.TcCoe Idealize.SL.Sem Idealize.ShloMosaic.StableHlo

/-! ## Folds of concatenated lists -/

/-- Running two lists of operations one after the other is running their concatenation. -/
theorem after_append {Val : EltTy → Type} (a b : List (HloOp τ sig Val)) (V : Valuation τ sig Val) :
    after (a ++ b) V = after b (after a V) := by
  induction a generalizing V with
  | nil => rfl
  | cons op a ih => simp only [List.cons_append, after_cons, ih]

/-- Buffer contents at the extended reals. -/
abbrev Val := Valuation τ sig (Elt Ideal)

/-- One row of the edge list, as a vector. -/
abbrev Row := (⟨S1600000, .i32⟩ : BufTy).Contents (Elt Ideal)

/-- Row 0 of the edge list (the sources), as a vector. -/
def row0 (ei : Cert.HostChain.Edges) : Row :=
  shapeCast _ (extractStridedSlice S1x1600000 ![0, 0] ei slices_S2x1600000_S1x1600000_0_0) shapeCasts_S1x1600000_S1600000

/-- Row 1 of the edge list (the targets), as a vector. -/
def row1 (ei : Cert.HostChain.Edges) : Row :=
  shapeCast _ (extractStridedSlice S1x1600000 ![1, 0] ei slices_S2x1600000_S1x1600000_1_0) shapeCasts_S1x1600000_S1600000

/-- An endpoint vector with every node appended once (the self-loops). -/
def ends (a : Row) : Cert.HostChain.Ends :=
  concatenate S1650000 0 [⟨S1600000, a⟩, ⟨S50000, (iotaInDim S50000 32 0)⟩] concatenates_S1600000_S50000_S1650000_d0

theorem ends_row0 (ei : Cert.HostChain.Edges) : ends (row0 ei) = Cert.HostChain.src ei := rfl
theorem ends_row1 (ei : Cert.HostChain.Edges) : ends (row1 ei) = Cert.HostChain.dst ei := rfl
/-- One aggregation step is the gather / weight / scatter chain at the graph's own endpoints and weights. -/
theorem msg_pass (ei : Cert.HostChain.Edges) (h : Cert.HostChain.Feat) :
    Cert.HostChain.msg (Cert.HostChain.src ei) (Cert.HostChain.dst ei)
      (Cert.HostChain.norm (Cert.HostChain.src ei) (Cert.HostChain.dst ei)) h = Cert.HostChain.pass ei h := rfl

/-- `g^(-1/2)` where `g` is positive, zero elsewhere. -/
def dinvOf (g : FVec Ideal S50000 .f32) : FVec Ideal S50000 .f32 :=
  select (cmpf .ogt g (broadcastInDim S50000 ![] bcast_S_S50000 (constant (F := Ideal) S_ .f32 0x00000000#32))) (Host.rsqrt (F := Ideal) (φ := .f32) g)
    (broadcastInDim S50000 ![] bcast_S_S50000 (id (constant (F := Ideal) S_ .f32 0x00000000#32)))

/-- Every edge's weight from per-node factors `dv`: the factors at its two endpoints, multiplied. -/
def normOf (dv : FVec Ideal S50000 .f32) (s d : Cert.HostChain.Ends) : FVec Ideal S1650000 .f32 :=
  mulf (F := Ideal) (φ := .f32) (Host.gather gather_S50000_S1650000x1_S1650000_n_0_n_n_0_1_1 dv (Cert.HostChain.wrapCol s))
    (Host.gather gather_S50000_S1650000x1_S1650000_n_0_n_n_0_1_1 dv (Cert.HostChain.wrapCol d))

theorem dinvOf_deg (d : Cert.HostChain.Ends) : dinvOf (Cert.HostChain.deg d) = Cert.HostChain.dinv d := rfl
theorem normOf_dinv (s d : Cert.HostChain.Ends) : normOf (Cert.HostChain.dinv d) s d = Cert.HostChain.norm s d := rfl

/-! ## The program's operations, cut into consecutive windows -/

section Windows
variable {F : FTy → Type} [FloatOps F]

/-- The first dense block: the edge list's two rows as vectors, `z`, `z0` and `h1`. -/
def wA : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg1 main_v4 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v4 main_arg3 main_v5 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v6 (broadcastInDim S1x128 ![1] bcast_S128_S1x128_1 : (⟨S128, .f32⟩ : BufTy).Contents (Elt F) → (⟨S1x128, .f32⟩ : BufTy).Contents (Elt F)),
    unary main_v6 main_v7 (broadcastInDim S50000x128 ![0, 1] bcast_S1x128_S50000x128_0_1 : (⟨S1x128, .f32⟩ : BufTy).Contents (Elt F) → (⟨S50000x128, .f32⟩ : BufTy).Contents (Elt F)),
    binary main_v5 main_v7 main_v8 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v8) (TRef.of (T := ⟨S50000x128, .f32⟩) main_call0_v0) (TRef.of (T := ⟨S50000x128, .f32⟩) main_v9) maximumf,
    binary main_v9 main_arg5 main_v10 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v11 (broadcastInDim S1x128 ![1] bcast_S128_S1x128_1 : (⟨S128, .f32⟩ : BufTy).Contents (Elt F) → (⟨S1x128, .f32⟩ : BufTy).Contents (Elt F)),
    unary main_v11 main_v12 (broadcastInDim S50000x128 ![0, 1] bcast_S1x128_S50000x128_0_1 : (⟨S1x128, .f32⟩ : BufTy).Contents (Elt F) → (⟨S50000x128, .f32⟩ : BufTy).Contents (Elt F)),
    binary main_v10 main_v12 main_v13 (addf : (⟨S50000x128, .f32⟩ : BufTy).Contents (Elt F) → (⟨S50000x128, .f32⟩ : BufTy).Contents (Elt F) → (⟨S50000x128, .f32⟩ : BufTy).Contents (Elt F)),
    binary main_v9 main_arg1 main_v14 (addf : (⟨S50000x128, .f32⟩ : BufTy).Contents (Elt F) → (⟨S50000x128, .f32⟩ : BufTy).Contents (Elt F) → (⟨S50000x128, .f32⟩ : BufTy).Contents (Elt F)),
    binary main_v14 main_arg7 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The endpoints with the self-loops appended (first aggregation). -/
def wE1 : List (HloOp τ sig (Elt F)) :=
  [ nullary main_v16 (iotaInDim S50000 32 0),
    binary main_v1 main_v16 main_v17 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v16 main_v18 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- In-degrees: ones scatter-added at the targets (first aggregation). -/
def wD1 : List (HloOp τ sig (Elt F)) :=
  [ nullary main_cst (constant S_ .f32 0x3F800000#32),
    unary main_cst main_v19 (broadcastInDim S1650000 ![] bcast_S_S1650000 : (⟨S_, .f32⟩ : BufTy).Contents (Elt F) → (⟨S1650000, .f32⟩ : BufTy).Contents (Elt F)),
    nullary main_cst_0 (constant S_ .f32 0x00000000#32),
    unary main_cst_0 main_v20 (broadcastInDim S50000 ![] bcast_S_S50000 : (⟨S_, .f32⟩ : BufTy).Contents (Elt F) → (⟨S50000, .f32⟩ : BufTy).Contents (Elt F)),
    unary main_v18 main_v21 (broadcastInDim S1650000x1 ![0] bcast_S1650000_S1650000x1_0 : (⟨S1650000, .i32⟩ : BufTy).Contents (Elt F) → (⟨S1650000x1, .i32⟩ : BufTy).Contents (Elt F)),
    ternary main_v20 main_v21 main_v19 main_v22 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)) ]

/-- The degrees' inverse square roots where positive, zero elsewhere (first aggregation). -/
def wI1 : List (HloOp τ sig (Elt F)) :=
  [ nullary main_cst_1 (constant S_ .f32 0x00000000#32),
    unary main_cst_1 main_v23 (broadcastInDim S50000 ![] bcast_S_S50000 : (⟨S_, .f32⟩ : BufTy).Contents (Elt F) → (⟨S50000, .f32⟩ : BufTy).Contents (Elt F)),
    binary main_v22 main_v23 main_v24 (cmpf .ogt : (⟨S50000, .f32⟩ : BufTy).Contents (Elt F) → (⟨S50000, .f32⟩ : BufTy).Contents (Elt F) → (⟨S50000, .i1⟩ : BufTy).Contents (Elt F)),
    unary main_v22 main_v25 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v24) (TRef.of (T := ⟨S50000, .f32⟩) main_v25) (TRef.of (T := ⟨S50000, .f32⟩) main_call1_v1) (TRef.of (T := ⟨S50000, .f32⟩) main_v26) select ]

/-- The edge weights: the inverse square roots gathered at both endpoints and multiplied (first aggregation). -/
def wN1 : List (HloOp τ sig (Elt F)) :=
  [ nullary main_c (constantI S_ 32 0#32),
    unary main_c main_v27 (broadcastInDim S1650000 ![] bcast_S_S1650000 : (⟨S_, .i32⟩ : BufTy).Contents (Elt F) → (⟨S1650000, .i32⟩ : BufTy).Contents (Elt F)),
    binary main_v17 main_v27 main_v28 (cmpi .slt : (⟨S1650000, .i32⟩ : BufTy).Contents (Elt F) → (⟨S1650000, .i32⟩ : BufTy).Contents (Elt F) → (⟨S1650000, .i1⟩ : BufTy).Contents (Elt F)),
    nullary main_c_3 (constantI S_ 32 50000#32),
    unary main_c_3 main_v29 (broadcastInDim S1650000 ![] bcast_S_S1650000 : (⟨S_, .i32⟩ : BufTy).Contents (Elt F) → (⟨S1650000, .i32⟩ : BufTy).Contents (Elt F)),
    binary main_v17 main_v29 main_v30 (addi : (⟨S1650000, .i32⟩ : BufTy).Contents (Elt F) → (⟨S1650000, .i32⟩ : BufTy).Contents (Elt F) → (⟨S1650000, .i32⟩ : BufTy).Contents (Elt F)),
    ternary main_v28 main_v30 main_v17 main_v31 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v31 main_v32 (broadcastInDim S1650000x1 ![0] bcast_S1650000_S1650000x1_0 : (⟨S1650000, .i32⟩ : BufTy).Contents (Elt F) → (⟨S1650000x1, .i32⟩ : BufTy).Contents (Elt F)),
    binary main_v26 main_v32 main_v33 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_4 (constantI S_ 32 0#32),
    unary main_c_4 main_v34 (broadcastInDim S1650000 ![] bcast_S_S1650000 : (⟨S_, .i32⟩ : BufTy).Contents (Elt F) → (⟨S1650000, .i32⟩ : BufTy).Contents (Elt F)),
    binary main_v18 main_v34 main_v35 (cmpi .slt : (⟨S1650000, .i32⟩ : BufTy).Contents (Elt F) → (⟨S1650000, .i32⟩ : BufTy).Contents (Elt F) → (⟨S1650000, .i1⟩ : BufTy).Contents (Elt F)),
    nullary main_c_5 (constantI S_ 32 50000#32),
    unary main_c_5 main_v36 (broadcastInDim S1650000 ![] bcast_S_S1650000 : (⟨S_, .i32⟩ : BufTy).Contents (Elt F) → (⟨S1650000, .i32⟩ : BufTy).Contents (Elt F)),
    binary main_v18 main_v36 main_v37 (addi : (⟨S1650000, .i32⟩ : BufTy).Contents (Elt F) → (⟨S1650000, .i32⟩ : BufTy).Contents (Elt F) → (⟨S1650000, .i32⟩ : BufTy).Contents (Elt F)),
    ternary main_v35 main_v37 main_v18 main_v38 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v38 main_v39 (broadcastInDim S1650000x1 ![0] bcast_S1650000_S1650000x1_0 : (⟨S1650000, .i32⟩ : BufTy).Contents (Elt F) → (⟨S1650000x1, .i32⟩ : BufTy).Contents (Elt F)),
    binary main_v26 main_v39 main_v40 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v33 main_v40 main_v41 (mulf : (⟨S1650000, .f32⟩ : BufTy).Contents (Elt F) → (⟨S1650000, .f32⟩ : BufTy).Contents (Elt F) → (⟨S1650000, .f32⟩ : BufTy).Contents (Elt F)) ]

/-- Gather, weight, scatter-add (first aggregation). -/
def wM1 : List (HloOp τ sig (Elt F)) :=
  [ nullary main_c_6 (constantI S_ 32 0#32),
    unary main_c_6 main_v42 (broadcastInDim S1650000 ![] bcast_S_S1650000 : (⟨S_, .i32⟩ : BufTy).Contents (Elt F) → (⟨S1650000, .i32⟩ : BufTy).Contents (Elt F)),
    binary main_v17 main_v42 main_v43 (cmpi .slt : (⟨S1650000, .i32⟩ : BufTy).Contents (Elt F) → (⟨S1650000, .i32⟩ : BufTy).Contents (Elt F) → (⟨S1650000, .i1⟩ : BufTy).Contents (Elt F)),
    nullary main_c_7 (constantI S_ 32 50000#32),
    unary main_c_7 main_v44 (broadcastInDim S1650000 ![] bcast_S_S1650000 : (⟨S_, .i32⟩ : BufTy).Contents (Elt F) → (⟨S1650000, .i32⟩ : BufTy).Contents (Elt F)),
    binary main_v17 main_v44 main_v45 (addi : (⟨S1650000, .i32⟩ : BufTy).Contents (Elt F) → (⟨S1650000, .i32⟩ : BufTy).Contents (Elt F) → (⟨S1650000, .i32⟩ : BufTy).Contents (Elt F)),
    ternary main_v43 main_v45 main_v17 main_v46 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v46 main_v47 (broadcastInDim S1650000x1 ![0] bcast_S1650000_S1650000x1_0 : (⟨S1650000, .i32⟩ : BufTy).Contents (Elt F) → (⟨S1650000x1, .i32⟩ : BufTy).Contents (Elt F)),
    binary main_v15 main_v47 main_v48 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v41 main_v49 (broadcastInDim S1650000x1 ![0] bcast_S1650000_S1650000x1_0 : (⟨S1650000, .f32⟩ : BufTy).Contents (Elt F) → (⟨S1650000x1, .f32⟩ : BufTy).Contents (Elt F)),
    unary main_v49 main_v50 (broadcastInDim S1650000x128 ![0, 1] bcast_S1650000x1_S1650000x128_0_1 : (⟨S1650000x1, .f32⟩ : BufTy).Contents (Elt F) → (⟨S1650000x128, .f32⟩ : BufTy).Contents (Elt F)),
    binary main_v48 main_v50 main_v51 (mulf : (⟨S1650000x128, .f32⟩ : BufTy).Contents (Elt F) → (⟨S1650000x128, .f32⟩ : BufTy).Contents (Elt F) → (⟨S1650000x128, .f32⟩ : BufTy).Contents (Elt F)),
    nullary main_cst_8 (constant S_ .f32 0x00000000#32),
    unary main_cst_8 main_v52 (broadcastInDim S50000x128 ![] bcast_S_S50000x128 : (⟨S_, .f32⟩ : BufTy).Contents (Elt F) → (⟨S50000x128, .f32⟩ : BufTy).Contents (Elt F)),
    unary main_v18 main_v53 (broadcastInDim S1650000x1 ![0] bcast_S1650000_S1650000x1_0 : (⟨S1650000, .i32⟩ : BufTy).Contents (Elt F) → (⟨S1650000x1, .i32⟩ : BufTy).Contents (Elt F)),
    ternary main_v52 main_v53 main_v51 main_v54 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Bias and relu after the first aggregation, then the second layer's product. -/
def wB : List (HloOp τ sig (Elt F)) :=
  [ unary main_arg8 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v57) (TRef.of (T := ⟨S50000x128, .f32⟩) main_call2_v0) (TRef.of (T := ⟨S50000x128, .f32⟩) main_v58) maximumf,
    binary main_v58 main_arg9 main_v59 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- The endpoints with the self-loops appended (second aggregation). -/
def wE2 : List (HloOp τ sig (Elt F)) :=
  [ nullary main_v60 (iotaInDim S50000 32 0),
    binary main_v1 main_v60 main_v61 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)),
    binary main_v3 main_v60 main_v62 ((fun a b => concatenate S1650000 0 [⟨S1600000, a⟩, ⟨S50000, b⟩] concatenates_S1600000_S50000_S1650000_d0) : (⟨S1600000, .i32⟩ : BufTy).Contents (Elt F) → (⟨S50000, .i32⟩ : BufTy).Contents (Elt F) → (⟨S1650000, .i32⟩ : BufTy).Contents (Elt F)) ]

/-- In-degrees: ones scatter-added at the targets (second aggregation). -/
def wD2 : List (HloOp τ sig (Elt F)) :=
  [ nullary main_cst_9 (constant S_ .f32 0x3F800000#32),
    unary main_cst_9 main_v63 (broadcastInDim S1650000 ![] bcast_S_S1650000 : (⟨S_, .f32⟩ : BufTy).Contents (Elt F) → (⟨S1650000, .f32⟩ : BufTy).Contents (Elt F)),
    nullary main_cst_10 (constant S_ .f32 0x00000000#32),
    unary main_cst_10 main_v64 (broadcastInDim S50000 ![] bcast_S_S50000 : (⟨S_, .f32⟩ : BufTy).Contents (Elt F) → (⟨S50000, .f32⟩ : BufTy).Contents (Elt F)),
    unary main_v62 main_v65 (broadcastInDim S1650000x1 ![0] bcast_S1650000_S1650000x1_0 : (⟨S1650000, .i32⟩ : BufTy).Contents (Elt F) → (⟨S1650000x1, .i32⟩ : BufTy).Contents (Elt F)),
    ternary main_v64 main_v65 main_v63 main_v66 ((fun x i u => Host.scatterAdd scatter_S50000_S1650000x1_S1650000_n_0_0_1 x i u) : (⟨S50000, .f32⟩ : BufTy).Contents (Elt F) → (⟨S1650000x1, .i32⟩ : BufTy).Contents (Elt F) → (⟨S1650000, .f32⟩ : BufTy).Contents (Elt F) → (⟨S50000, .f32⟩ : BufTy).Contents (Elt F)) ]

/-- The degrees' inverse square roots where positive, zero elsewhere (second aggregation). -/
def wI2 : List (HloOp τ sig (Elt F)) :=
  [ nullary main_cst_11 (constant S_ .f32 0x00000000#32),
    unary main_cst_11 main_v67 (broadcastInDim S50000 ![] bcast_S_S50000 : (⟨S_, .f32⟩ : BufTy).Contents (Elt F) → (⟨S50000, .f32⟩ : BufTy).Contents (Elt F)),
    binary main_v66 main_v67 main_v68 (cmpf .ogt : (⟨S50000, .f32⟩ : BufTy).Contents (Elt F) → (⟨S50000, .f32⟩ : BufTy).Contents (Elt F) → (⟨S50000, .i1⟩ : BufTy).Contents (Elt F)),
    unary main_v66 main_v69 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v68) (TRef.of (T := ⟨S50000, .f32⟩) main_v69) (TRef.of (T := ⟨S50000, .f32⟩) main_call3_v1) (TRef.of (T := ⟨S50000, .f32⟩) main_v70) select ]

/-- The edge weights: the inverse square roots gathered at both endpoints and multiplied (second aggregation). -/
def wN2 : List (HloOp τ sig (Elt F)) :=
  [ nullary main_c_13 (constantI S_ 32 0#32),
    unary main_c_13 main_v71 (broadcastInDim S1650000 ![] bcast_S_S1650000 : (⟨S_, .i32⟩ : BufTy).Contents (Elt F) → (⟨S1650000, .i32⟩ : BufTy).Contents (Elt F)),
    binary main_v61 main_v71 main_v72 (cmpi .slt : (⟨S1650000, .i32⟩ : BufTy).Contents (Elt F) → (⟨S1650000, .i32⟩ : BufTy).Contents (Elt F) → (⟨S1650000, .i1⟩ : BufTy).Contents (Elt F)),
    nullary main_c_14 (constantI S_ 32 50000#32),
    unary main_c_14 main_v73 (broadcastInDim S1650000 ![] bcast_S_S1650000 : (⟨S_, .i32⟩ : BufTy).Contents (Elt F) → (⟨S1650000, .i32⟩ : BufTy).Contents (Elt F)),
    binary main_v61 main_v73 main_v74 (addi : (⟨S1650000, .i32⟩ : BufTy).Contents (Elt F) → (⟨S1650000, .i32⟩ : BufTy).Contents (Elt F) → (⟨S1650000, .i32⟩ : BufTy).Contents (Elt F)),
    ternary main_v72 main_v74 main_v61 main_v75 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v75 main_v76 (broadcastInDim S1650000x1 ![0] bcast_S1650000_S1650000x1_0 : (⟨S1650000, .i32⟩ : BufTy).Contents (Elt F) → (⟨S1650000x1, .i32⟩ : BufTy).Contents (Elt F)),
    binary main_v70 main_v76 main_v77 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    nullary main_c_15 (constantI S_ 32 0#32),
    unary main_c_15 main_v78 (broadcastInDim S1650000 ![] bcast_S_S1650000 : (⟨S_, .i32⟩ : BufTy).Contents (Elt F) → (⟨S1650000, .i32⟩ : BufTy).Contents (Elt F)),
    binary main_v62 main_v78 main_v79 (cmpi .slt : (⟨S1650000, .i32⟩ : BufTy).Contents (Elt F) → (⟨S1650000, .i32⟩ : BufTy).Contents (Elt F) → (⟨S1650000, .i1⟩ : BufTy).Contents (Elt F)),
    nullary main_c_16 (constantI S_ 32 50000#32),
    unary main_c_16 main_v80 (broadcastInDim S1650000 ![] bcast_S_S1650000 : (⟨S_, .i32⟩ : BufTy).Contents (Elt F) → (⟨S1650000, .i32⟩ : BufTy).Contents (Elt F)),
    binary main_v62 main_v80 main_v81 (addi : (⟨S1650000, .i32⟩ : BufTy).Contents (Elt F) → (⟨S1650000, .i32⟩ : BufTy).Contents (Elt F) → (⟨S1650000, .i32⟩ : BufTy).Contents (Elt F)),
    ternary main_v79 main_v81 main_v62 main_v82 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v82 main_v83 (broadcastInDim S1650000x1 ![0] bcast_S1650000_S1650000x1_0 : (⟨S1650000, .i32⟩ : BufTy).Contents (Elt F) → (⟨S1650000x1, .i32⟩ : BufTy).Contents (Elt F)),
    binary main_v70 main_v83 main_v84 ((fun x i => Host.gather gather_S50000_S1650000x1_S1650000_n_0_n_n_0_1_1 x i) : (⟨S50000, .f32⟩ : BufTy).Contents (Elt F) → (⟨S1650000x1, .i32⟩ : BufTy).Contents (Elt F) → (⟨S1650000, .f32⟩ : BufTy).Contents (Elt F)),
    binary main_v77 main_v84 main_v85 (mulf : (⟨S1650000, .f32⟩ : BufTy).Contents (Elt F) → (⟨S1650000, .f32⟩ : BufTy).Contents (Elt F) → (⟨S1650000, .f32⟩ : BufTy).Contents (Elt F)) ]

/-- Gather, weight, scatter-add (second aggregation). -/
def wM2 : List (HloOp τ sig (Elt F)) :=
  [ nullary main_c_17 (constantI S_ 32 0#32),
    unary main_c_17 main_v86 (broadcastInDim S1650000 ![] bcast_S_S1650000 : (⟨S_, .i32⟩ : BufTy).Contents (Elt F) → (⟨S1650000, .i32⟩ : BufTy).Contents (Elt F)),
    binary main_v61 main_v86 main_v87 (cmpi .slt : (⟨S1650000, .i32⟩ : BufTy).Contents (Elt F) → (⟨S1650000, .i32⟩ : BufTy).Contents (Elt F) → (⟨S1650000, .i1⟩ : BufTy).Contents (Elt F)),
    nullary main_c_18 (constantI S_ 32 50000#32),
    unary main_c_18 main_v88 (broadcastInDim S1650000 ![] bcast_S_S1650000 : (⟨S_, .i32⟩ : BufTy).Contents (Elt F) → (⟨S1650000, .i32⟩ : BufTy).Contents (Elt F)),
    binary main_v61 main_v88 main_v89 (addi : (⟨S1650000, .i32⟩ : BufTy).Contents (Elt F) → (⟨S1650000, .i32⟩ : BufTy).Contents (Elt F) → (⟨S1650000, .i32⟩ : BufTy).Contents (Elt F)),
    ternary main_v87 main_v89 main_v61 main_v90 (select : (⟨S1650000, .i1⟩ : BufTy).Contents (Elt F) → (⟨S1650000, .i32⟩ : BufTy).Contents (Elt F) → (⟨S1650000, .i32⟩ : BufTy).Contents (Elt F) → (⟨S1650000, .i32⟩ : BufTy).Contents (Elt F)),
    unary main_v90 main_v91 (broadcastInDim S1650000x1 ![0] bcast_S1650000_S1650000x1_0 : (⟨S1650000, .i32⟩ : BufTy).Contents (Elt F) → (⟨S1650000x1, .i32⟩ : BufTy).Contents (Elt F)),
    binary main_v59 main_v91 main_v92 ((fun x i => Host.gather gather_S50000x128_S1650000x1_S1650000x128_1_0_n_n_0_1_1128 x i) : (⟨S50000x128, .f32⟩ : BufTy).Contents (Elt F) → (⟨S1650000x1, .i32⟩ : BufTy).Contents (Elt F) → (⟨S1650000x128, .f32⟩ : BufTy).Contents (Elt F)),
    unary main_v85 main_v93 (broadcastInDim S1650000x1 ![0] bcast_S1650000_S1650000x1_0 : (⟨S1650000, .f32⟩ : BufTy).Contents (Elt F) → (⟨S1650000x1, .f32⟩ : BufTy).Contents (Elt F)),
    unary main_v93 main_v94 (broadcastInDim S1650000x128 ![0, 1] bcast_S1650000x1_S1650000x128_0_1 : (⟨S1650000x1, .f32⟩ : BufTy).Contents (Elt F) → (⟨S1650000x128, .f32⟩ : BufTy).Contents (Elt F)),
    binary main_v92 main_v94 main_v95 (mulf : (⟨S1650000x128, .f32⟩ : BufTy).Contents (Elt F) → (⟨S1650000x128, .f32⟩ : BufTy).Contents (Elt F) → (⟨S1650000x128, .f32⟩ : BufTy).Contents (Elt F)),
    nullary main_cst_19 (constant S_ .f32 0x00000000#32),
    unary main_cst_19 main_v96 (broadcastInDim S50000x128 ![] bcast_S_S50000x128 : (⟨S_, .f32⟩ : BufTy).Contents (Elt F) → (⟨S50000x128, .f32⟩ : BufTy).Contents (Elt F)),
    unary main_v62 main_v97 (broadcastInDim S1650000x1 ![0] bcast_S1650000_S1650000x1_0 : (⟨S1650000, .i32⟩ : BufTy).Contents (Elt F) → (⟨S1650000x1, .i32⟩ : BufTy).Contents (Elt F)),
    ternary main_v96 main_v97 main_v95 main_v98 ((fun x i u => Host.scatterAdd scatter_S50000x128_S1650000x1_S1650000x128_1_0_0_1 x i u) : (⟨S50000x128, .f32⟩ : BufTy).Contents (Elt F) → (⟨S1650000x1, .i32⟩ : BufTy).Contents (Elt F) → (⟨S1650000x128, .f32⟩ : BufTy).Contents (Elt F) → (⟨S50000x128, .f32⟩ : BufTy).Contents (Elt F)) ]

/-- Bias and relu after the second aggregation. -/
def wC1 : List (HloOp τ sig (Elt F)) :=
  [ unary main_arg10 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v98 main_v100 main_v101 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v101) (TRef.of (T := ⟨S50000x128, .f32⟩) main_call4_v0) (TRef.of (T := ⟨S50000x128, .f32⟩) main_v102) maximumf ]

/-- The last dense block on the three concatenated features. -/
def wC2 : List (HloOp τ sig (Elt F)) :=
  [ nary ![main_v9, main_v58, main_v102] main_v103 (fun u => concatenate S50000x384 1 [⟨S50000x128, u 0⟩, ⟨S50000x128, u 1⟩, ⟨S50000x128, u 2⟩] concatenates_S50000x128_S50000x128_S50000x128_S50000x384_d1),
    binary main_v103 main_arg11 main_v104 ((fun l r => Host.dotGeneral dot_S50000x384_S384x128_S50000x128_1_0_0_1_n_n none l r) : (⟨S50000x384, .f32⟩ : BufTy).Contents (Elt F) → (⟨S384x128, .f32⟩ : BufTy).Contents (Elt F) → (⟨S50000x128, .f32⟩ : BufTy).Contents (Elt F)),
    unary main_arg12 main_v105 (broadcastInDim S1x128 ![1] bcast_S128_S1x128_1 : (⟨S128, .f32⟩ : BufTy).Contents (Elt F) → (⟨S1x128, .f32⟩ : BufTy).Contents (Elt F)),
    unary main_v105 main_v106 (broadcastInDim S50000x128 ![0, 1] bcast_S1x128_S50000x128_0_1 : (⟨S1x128, .f32⟩ : BufTy).Contents (Elt F) → (⟨S50000x128, .f32⟩ : BufTy).Contents (Elt F)),
    binary main_v104 main_v106 main_v107 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v107) (TRef.of (T := ⟨S50000x128, .f32⟩) main_call5_v0) (TRef.of (T := ⟨S50000x128, .f32⟩) main_v108) maximumf,
    binary main_v108 main_v13 main_v109 (addf : (⟨S50000x128, .f32⟩ : BufTy).Contents (Elt F) → (⟨S50000x128, .f32⟩ : BufTy).Contents (Elt F) → (⟨S50000x128, .f32⟩ : BufTy).Contents (Elt F)),
    binary main_v109 main_arg13 main_v110 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg14 main_v111 (broadcastInDim S1x64 ![1] bcast_S64_S1x64_1 : (⟨S64, .f32⟩ : BufTy).Contents (Elt F) → (⟨S1x64, .f32⟩ : BufTy).Contents (Elt F)),
    unary main_v111 main_v112 (broadcastInDim S50000x64 ![0, 1] bcast_S1x64_S50000x64_0_1 : (⟨S1x64, .f32⟩ : BufTy).Contents (Elt F) → (⟨S50000x64, .f32⟩ : BufTy).Contents (Elt F)),
    binary main_v110 main_v112 main_v113 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S50000x64, .f32⟩) main_call6_v0) (broadcastInDim S50000x64 ![] bcast_S_S50000x64),
    TRef.binary (TRef.of (T := ⟨S50000x64, .f32⟩) main_v113) (TRef.of (T := ⟨S50000x64, .f32⟩) main_call6_v0) (TRef.of (T := ⟨S50000x64, .f32⟩) main_v114) maximumf,
    binary main_v114 main_arg15 main_v115 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    unary main_arg16 main_v116 (broadcastInDim S1x10 ![1] bcast_S10_S1x10_1 : (⟨S10, .f32⟩ : BufTy).Contents (Elt F) → (⟨S1x10, .f32⟩ : BufTy).Contents (Elt F)),
    unary main_v116 main_v117 (broadcastInDim S50000x10 ![0, 1] bcast_S1x10_S50000x10_0_1 : (⟨S1x10, .f32⟩ : BufTy).Contents (Elt F) → (⟨S50000x10, .f32⟩ : BufTy).Contents (Elt F)),
    binary main_v115 main_v117 main_v118 (addf : (⟨S50000x10, .f32⟩ : BufTy).Contents (Elt F) → (⟨S50000x10, .f32⟩ : BufTy).Contents (Elt F) → (⟨S50000x10, .f32⟩ : BufTy).Contents (Elt F)) ]

set_option maxRecDepth 8192 in
set_option maxHeartbeats 4000000 in
/-- The windows, in order, are the whole program. -/
theorem ops_split : (ValueP.ops : List (HloOp τ sig (Elt F))) = wA ++ (wE1 ++ (wD1 ++ (wI1 ++ (wN1 ++ (wM1 ++ (wB ++ (wE2 ++ (wD2 ++ (wI2 ++ (wN2 ++ (wM2 ++ (wC1 ++ (wC2))))))))))))) := rfl

end Windows

/-! ## What each window writes, and what it keeps -/

/-- The buffers the window `wA` writes. -/
abbrev wA_W : List (Ref sig .tc) := [main_v0, main_v1, main_v2, main_v3, main_v4, main_v5, main_v6, main_v7, main_v8, main_call0_cst, main_call0_v0, main_v9, main_v10, main_v11, main_v12, main_v13, main_v14, main_v15]
theorem wA_writes : (wA (F := Ideal)).Forall fun op => op.writes ⊆ (wA_W.map (Proc.devRef (τ := τ) .tc)).toFinset := by
  simp only [wA, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wA_keep (V : Val) (r : Ref sig .tc) (h : r ∉ wA_W) :
    after (wA (F := Ideal)) V (Proc.devRef .tc r) = V (Proc.devRef .tc r) :=
  after_of_writes_sub wA _ wA_writes h
theorem wA_keep' (V : Val) (r : Ref sig .tc) (h : r ∉ wA_W) :
    after (wA (F := Ideal)) V (no_index (Proc.devRef .tc r)) = V (Proc.devRef .tc r) := wA_keep V r h

/-- The buffers the window `wE1` writes. -/
abbrev wE1_W : List (Ref sig .tc) := [main_v16, main_v17, main_v18]
theorem wE1_writes : (wE1 (F := Ideal)).Forall fun op => op.writes ⊆ (wE1_W.map (Proc.devRef (τ := τ) .tc)).toFinset := by
  simp only [wE1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wE1_keep (V : Val) (r : Ref sig .tc) (h : r ∉ wE1_W) :
    after (wE1 (F := Ideal)) V (Proc.devRef .tc r) = V (Proc.devRef .tc r) :=
  after_of_writes_sub wE1 _ wE1_writes h
theorem wE1_keep' (V : Val) (r : Ref sig .tc) (h : r ∉ wE1_W) :
    after (wE1 (F := Ideal)) V (no_index (Proc.devRef .tc r)) = V (Proc.devRef .tc r) := wE1_keep V r h

/-- The buffers the window `wD1` writes. -/
abbrev wD1_W : List (Ref sig .tc) := [main_cst, main_v19, main_cst_0, main_v20, main_v21, main_v22]
theorem wD1_writes : (wD1 (F := Ideal)).Forall fun op => op.writes ⊆ (wD1_W.map (Proc.devRef (τ := τ) .tc)).toFinset := by
  simp only [wD1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wD1_keep (V : Val) (r : Ref sig .tc) (h : r ∉ wD1_W) :
    after (wD1 (F := Ideal)) V (Proc.devRef .tc r) = V (Proc.devRef .tc r) :=
  after_of_writes_sub wD1 _ wD1_writes h
theorem wD1_keep' (V : Val) (r : Ref sig .tc) (h : r ∉ wD1_W) :
    after (wD1 (F := Ideal)) V (no_index (Proc.devRef .tc r)) = V (Proc.devRef .tc r) := wD1_keep V r h

/-- The buffers the window `wI1` writes. -/
abbrev wI1_W : List (Ref sig .tc) := [main_cst_1, main_v23, main_v24, main_v25, main_cst_2, main_call1_v0, main_call1_v1, main_v26]
theorem wI1_writes : (wI1 (F := Ideal)).Forall fun op => op.writes ⊆ (wI1_W.map (Proc.devRef (τ := τ) .tc)).toFinset := by
  simp only [wI1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wI1_keep (V : Val) (r : Ref sig .tc) (h : r ∉ wI1_W) :
    after (wI1 (F := Ideal)) V (Proc.devRef .tc r) = V (Proc.devRef .tc r) :=
  after_of_writes_sub wI1 _ wI1_writes h
theorem wI1_keep' (V : Val) (r : Ref sig .tc) (h : r ∉ wI1_W) :
    after (wI1 (F := Ideal)) V (no_index (Proc.devRef .tc r)) = V (Proc.devRef .tc r) := wI1_keep V r h

/-- The buffers the window `wN1` writes. -/
abbrev wN1_W : List (Ref sig .tc) := [main_c, main_v27, main_v28, main_c_3, main_v29, main_v30, main_v31, main_v32, main_v33, main_c_4, main_v34, main_v35, main_c_5, main_v36, main_v37, main_v38, main_v39, main_v40, main_v41]
theorem wN1_writes : (wN1 (F := Ideal)).Forall fun op => op.writes ⊆ (wN1_W.map (Proc.devRef (τ := τ) .tc)).toFinset := by
  simp only [wN1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wN1_keep (V : Val) (r : Ref sig .tc) (h : r ∉ wN1_W) :
    after (wN1 (F := Ideal)) V (Proc.devRef .tc r) = V (Proc.devRef .tc r) :=
  after_of_writes_sub wN1 _ wN1_writes h
theorem wN1_keep' (V : Val) (r : Ref sig .tc) (h : r ∉ wN1_W) :
    after (wN1 (F := Ideal)) V (no_index (Proc.devRef .tc r)) = V (Proc.devRef .tc r) := wN1_keep V r h

/-- The buffers the window `wM1` writes. -/
abbrev wM1_W : List (Ref sig .tc) := [main_c_6, main_v42, main_v43, main_c_7, main_v44, main_v45, main_v46, main_v47, main_v48, main_v49, main_v50, main_v51, main_cst_8, main_v52, main_v53, main_v54]
theorem wM1_writes : (wM1 (F := Ideal)).Forall fun op => op.writes ⊆ (wM1_W.map (Proc.devRef (τ := τ) .tc)).toFinset := by
  simp only [wM1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wM1_keep (V : Val) (r : Ref sig .tc) (h : r ∉ wM1_W) :
    after (wM1 (F := Ideal)) V (Proc.devRef .tc r) = V (Proc.devRef .tc r) :=
  after_of_writes_sub wM1 _ wM1_writes h
theorem wM1_keep' (V : Val) (r : Ref sig .tc) (h : r ∉ wM1_W) :
    after (wM1 (F := Ideal)) V (no_index (Proc.devRef .tc r)) = V (Proc.devRef .tc r) := wM1_keep V r h

/-- The buffers the window `wB` writes. -/
abbrev wB_W : List (Ref sig .tc) := [main_v55, main_v56, main_v57, main_call2_cst, main_call2_v0, main_v58, main_v59]
theorem wB_writes : (wB (F := Ideal)).Forall fun op => op.writes ⊆ (wB_W.map (Proc.devRef (τ := τ) .tc)).toFinset := by
  simp only [wB, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wB_keep (V : Val) (r : Ref sig .tc) (h : r ∉ wB_W) :
    after (wB (F := Ideal)) V (Proc.devRef .tc r) = V (Proc.devRef .tc r) :=
  after_of_writes_sub wB _ wB_writes h
theorem wB_keep' (V : Val) (r : Ref sig .tc) (h : r ∉ wB_W) :
    after (wB (F := Ideal)) V (no_index (Proc.devRef .tc r)) = V (Proc.devRef .tc r) := wB_keep V r h

/-- The buffers the window `wE2` writes. -/
abbrev wE2_W : List (Ref sig .tc) := [main_v60, main_v61, main_v62]
theorem wE2_writes : (wE2 (F := Ideal)).Forall fun op => op.writes ⊆ (wE2_W.map (Proc.devRef (τ := τ) .tc)).toFinset := by
  simp only [wE2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wE2_keep (V : Val) (r : Ref sig .tc) (h : r ∉ wE2_W) :
    after (wE2 (F := Ideal)) V (Proc.devRef .tc r) = V (Proc.devRef .tc r) :=
  after_of_writes_sub wE2 _ wE2_writes h
theorem wE2_keep' (V : Val) (r : Ref sig .tc) (h : r ∉ wE2_W) :
    after (wE2 (F := Ideal)) V (no_index (Proc.devRef .tc r)) = V (Proc.devRef .tc r) := wE2_keep V r h

/-- The buffers the window `wD2` writes. -/
abbrev wD2_W : List (Ref sig .tc) := [main_cst_9, main_v63, main_cst_10, main_v64, main_v65, main_v66]
theorem wD2_writes : (wD2 (F := Ideal)).Forall fun op => op.writes ⊆ (wD2_W.map (Proc.devRef (τ := τ) .tc)).toFinset := by
  simp only [wD2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wD2_keep (V : Val) (r : Ref sig .tc) (h : r ∉ wD2_W) :
    after (wD2 (F := Ideal)) V (Proc.devRef .tc r) = V (Proc.devRef .tc r) :=
  after_of_writes_sub wD2 _ wD2_writes h
theorem wD2_keep' (V : Val) (r : Ref sig .tc) (h : r ∉ wD2_W) :
    after (wD2 (F := Ideal)) V (no_index (Proc.devRef .tc r)) = V (Proc.devRef .tc r) := wD2_keep V r h

/-- The buffers the window `wI2` writes. -/
abbrev wI2_W : List (Ref sig .tc) := [main_cst_11, main_v67, main_v68, main_v69, main_cst_12, main_call3_v0, main_call3_v1, main_v70]
theorem wI2_writes : (wI2 (F := Ideal)).Forall fun op => op.writes ⊆ (wI2_W.map (Proc.devRef (τ := τ) .tc)).toFinset := by
  simp only [wI2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wI2_keep (V : Val) (r : Ref sig .tc) (h : r ∉ wI2_W) :
    after (wI2 (F := Ideal)) V (Proc.devRef .tc r) = V (Proc.devRef .tc r) :=
  after_of_writes_sub wI2 _ wI2_writes h
theorem wI2_keep' (V : Val) (r : Ref sig .tc) (h : r ∉ wI2_W) :
    after (wI2 (F := Ideal)) V (no_index (Proc.devRef .tc r)) = V (Proc.devRef .tc r) := wI2_keep V r h

/-- The buffers the window `wN2` writes. -/
abbrev wN2_W : List (Ref sig .tc) := [main_c_13, main_v71, main_v72, main_c_14, main_v73, main_v74, main_v75, main_v76, main_v77, main_c_15, main_v78, main_v79, main_c_16, main_v80, main_v81, main_v82, main_v83, main_v84, main_v85]
theorem wN2_writes : (wN2 (F := Ideal)).Forall fun op => op.writes ⊆ (wN2_W.map (Proc.devRef (τ := τ) .tc)).toFinset := by
  simp only [wN2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wN2_keep (V : Val) (r : Ref sig .tc) (h : r ∉ wN2_W) :
    after (wN2 (F := Ideal)) V (Proc.devRef .tc r) = V (Proc.devRef .tc r) :=
  after_of_writes_sub wN2 _ wN2_writes h
theorem wN2_keep' (V : Val) (r : Ref sig .tc) (h : r ∉ wN2_W) :
    after (wN2 (F := Ideal)) V (no_index (Proc.devRef .tc r)) = V (Proc.devRef .tc r) := wN2_keep V r h

/-- The buffers the window `wM2` writes. -/
abbrev wM2_W : List (Ref sig .tc) := [main_c_17, main_v86, main_v87, main_c_18, main_v88, main_v89, main_v90, main_v91, main_v92, main_v93, main_v94, main_v95, main_cst_19, main_v96, main_v97, main_v98]
theorem wM2_writes : (wM2 (F := Ideal)).Forall fun op => op.writes ⊆ (wM2_W.map (Proc.devRef (τ := τ) .tc)).toFinset := by
  simp only [wM2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wM2_keep (V : Val) (r : Ref sig .tc) (h : r ∉ wM2_W) :
    after (wM2 (F := Ideal)) V (Proc.devRef .tc r) = V (Proc.devRef .tc r) :=
  after_of_writes_sub wM2 _ wM2_writes h
theorem wM2_keep' (V : Val) (r : Ref sig .tc) (h : r ∉ wM2_W) :
    after (wM2 (F := Ideal)) V (no_index (Proc.devRef .tc r)) = V (Proc.devRef .tc r) := wM2_keep V r h

/-- The buffers the window `wC1` writes. -/
abbrev wC1_W : List (Ref sig .tc) := [main_v99, main_v100, main_v101, main_call4_cst, main_call4_v0, main_v102]
theorem wC1_writes : (wC1 (F := Ideal)).Forall fun op => op.writes ⊆ (wC1_W.map (Proc.devRef (τ := τ) .tc)).toFinset := by
  simp only [wC1, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wC1_keep (V : Val) (r : Ref sig .tc) (h : r ∉ wC1_W) :
    after (wC1 (F := Ideal)) V (Proc.devRef .tc r) = V (Proc.devRef .tc r) :=
  after_of_writes_sub wC1 _ wC1_writes h
theorem wC1_keep' (V : Val) (r : Ref sig .tc) (h : r ∉ wC1_W) :
    after (wC1 (F := Ideal)) V (no_index (Proc.devRef .tc r)) = V (Proc.devRef .tc r) := wC1_keep V r h

/-- The buffers the window `wC2` writes. -/
abbrev wC2_W : List (Ref sig .tc) := [main_v103, main_v104, main_v105, main_v106, main_v107, main_call5_cst, main_call5_v0, main_v108, main_v109, main_v110, main_v111, main_v112, main_v113, main_call6_cst, main_call6_v0, main_v114, main_v115, main_v116, main_v117, main_v118]
theorem wC2_writes : (wC2 (F := Ideal)).Forall fun op => op.writes ⊆ (wC2_W.map (Proc.devRef (τ := τ) .tc)).toFinset := by
  simp only [wC2, List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩
/-- A buffer the window does not write keeps its contents through it. -/
theorem wC2_keep (V : Val) (r : Ref sig .tc) (h : r ∉ wC2_W) :
    after (wC2 (F := Ideal)) V (Proc.devRef .tc r) = V (Proc.devRef .tc r) :=
  after_of_writes_sub wC2 _ wC2_writes h
theorem wC2_keep' (V : Val) (r : Ref sig .tc) (h : r ∉ wC2_W) :
    after (wC2 (F := Ideal)) V (no_index (Proc.devRef .tc r)) = V (Proc.devRef .tc r) := wC2_keep V r h

/-! ## What each window computes, from any entry contents -/

set_option maxHeartbeats 1800000 in
theorem A_v1 (V : Val) : after (wA (F := Ideal)) V (no_index (Proc.devRef .tc main_v1))
    = row0 (V (Proc.devRef .tc main_arg2)) := by
  unfold wA
  after_results_simp
  rfl

set_option maxHeartbeats 1800000 in
theorem A_v3 (V : Val) : after (wA (F := Ideal)) V (no_index (Proc.devRef .tc main_v3))
    = row1 (V (Proc.devRef .tc main_arg2)) := by
  unfold wA
  after_results_simp
  rfl

set_option maxHeartbeats 1800000 in
theorem A_v9 (V : Val) : after (wA (F := Ideal)) V (no_index (Proc.devRef .tc main_v9))
    = Cert.RefTerm.zT (V (Proc.devRef .tc main_arg0)) (V (Proc.devRef .tc main_arg1)) (V (Proc.devRef .tc main_arg3)) (V (Proc.devRef .tc main_arg4)) := by
  unfold wA
  after_results_simp
  rfl

set_option maxHeartbeats 1800000 in
theorem A_v13 (V : Val) : after (wA (F := Ideal)) V (no_index (Proc.devRef .tc main_v13))
    = Cert.RefTerm.z0T (Cert.RefTerm.zT (V (Proc.devRef .tc main_arg0)) (V (Proc.devRef .tc main_arg1)) (V (Proc.devRef .tc main_arg3)) (V (Proc.devRef .tc main_arg4))) (V (Proc.devRef .tc main_arg5)) (V (Proc.devRef .tc main_arg6)) := by
  unfold wA
  after_results_simp
  rfl

set_option maxHeartbeats 1800000 in
theorem A_v15 (V : Val) : after (wA (F := Ideal)) V (no_index (Proc.devRef .tc main_v15))
    = Cert.RefTerm.h1T (Cert.RefTerm.zT (V (Proc.devRef .tc main_arg0)) (V (Proc.devRef .tc main_arg1)) (V (Proc.devRef .tc main_arg3)) (V (Proc.devRef .tc main_arg4))) (V (Proc.devRef .tc main_arg1)) (V (Proc.devRef .tc main_arg7)) := by
  unfold wA
  after_results_simp
  rfl

theorem E1_v17 (V : Val) : after (wE1 (F := Ideal)) V (no_index (Proc.devRef .tc main_v17))
    = ends (V (Proc.devRef .tc main_v1)) := by
  unfold wE1
  after_results_simp
  rfl

theorem E1_v18 (V : Val) : after (wE1 (F := Ideal)) V (no_index (Proc.devRef .tc main_v18))
    = ends (V (Proc.devRef .tc main_v3)) := by
  unfold wE1
  after_results_simp
  rfl

theorem D1_v22 (V : Val) : after (wD1 (F := Ideal)) V (no_index (Proc.devRef .tc main_v22))
    = Cert.HostChain.deg (V (Proc.devRef .tc main_v18)) := by
  unfold wD1
  after_results_simp
  rfl

theorem I1_v26 (V : Val) : after (wI1 (F := Ideal)) V (no_index (Proc.devRef .tc main_v26))
    = dinvOf (V (Proc.devRef .tc main_v22)) := by
  unfold wI1
  after_results_simp
  rfl

set_option maxHeartbeats 1900000 in
theorem N1_v41 (V : Val) : after (wN1 (F := Ideal)) V (no_index (Proc.devRef .tc main_v41))
    = normOf (V (Proc.devRef .tc main_v26)) (V (Proc.devRef .tc main_v17)) (V (Proc.devRef .tc main_v18)) := by
  unfold wN1
  after_results_simp
  rfl

set_option maxHeartbeats 1600000 in
theorem M1_v54 (V : Val) : after (wM1 (F := Ideal)) V (no_index (Proc.devRef .tc main_v54))
    = Cert.HostChain.msg (V (Proc.devRef .tc main_v17)) (V (Proc.devRef .tc main_v18)) (V (Proc.devRef .tc main_v41)) (V (Proc.devRef .tc main_v15)) := by
  unfold wM1
  after_results_simp
  rfl

theorem B_v58 (V : Val) : after (wB (F := Ideal)) V (no_index (Proc.devRef .tc main_v58))
    = Cert.RefTerm.z1T (V (Proc.devRef .tc main_v54)) (V (Proc.devRef .tc main_arg8)) := by
  unfold wB
  after_results_simp
  rfl

theorem B_v59 (V : Val) : after (wB (F := Ideal)) V (no_index (Proc.devRef .tc main_v59))
    = Cert.RefTerm.h2T (Cert.RefTerm.z1T (V (Proc.devRef .tc main_v54)) (V (Proc.devRef .tc main_arg8))) (V (Proc.devRef .tc main_arg9)) := by
  unfold wB
  after_results_simp
  rfl

theorem E2_v61 (V : Val) : after (wE2 (F := Ideal)) V (no_index (Proc.devRef .tc main_v61))
    = ends (V (Proc.devRef .tc main_v1)) := by
  unfold wE2
  after_results_simp
  rfl

theorem E2_v62 (V : Val) : after (wE2 (F := Ideal)) V (no_index (Proc.devRef .tc main_v62))
    = ends (V (Proc.devRef .tc main_v3)) := by
  unfold wE2
  after_results_simp
  rfl

theorem D2_v66 (V : Val) : after (wD2 (F := Ideal)) V (no_index (Proc.devRef .tc main_v66))
    = Cert.HostChain.deg (V (Proc.devRef .tc main_v62)) := by
  unfold wD2
  after_results_simp
  rfl

theorem I2_v70 (V : Val) : after (wI2 (F := Ideal)) V (no_index (Proc.devRef .tc main_v70))
    = dinvOf (V (Proc.devRef .tc main_v66)) := by
  unfold wI2
  after_results_simp
  rfl

set_option maxHeartbeats 1900000 in
theorem N2_v85 (V : Val) : after (wN2 (F := Ideal)) V (no_index (Proc.devRef .tc main_v85))
    = normOf (V (Proc.devRef .tc main_v70)) (V (Proc.devRef .tc main_v61)) (V (Proc.devRef .tc main_v62)) := by
  unfold wN2
  after_results_simp
  rfl

set_option maxHeartbeats 1600000 in
theorem M2_v98 (V : Val) : after (wM2 (F := Ideal)) V (no_index (Proc.devRef .tc main_v98))
    = Cert.HostChain.msg (V (Proc.devRef .tc main_v61)) (V (Proc.devRef .tc main_v62)) (V (Proc.devRef .tc main_v85)) (V (Proc.devRef .tc main_v59)) := by
  unfold wM2
  after_results_simp
  rfl

theorem C1_v102 (V : Val) : after (wC1 (F := Ideal)) V (no_index (Proc.devRef .tc main_v102))
    = Cert.RefTerm.z1T (V (Proc.devRef .tc main_v98)) (V (Proc.devRef .tc main_arg10)) := by
  unfold wC1
  after_results_simp
  rfl

set_option maxHeartbeats 2000000 in
theorem C2_v118 (V : Val) : after (wC2 (F := Ideal)) V (no_index (Proc.devRef .tc main_v118))
    = Cert.RefTerm.oT (Cert.RefTerm.zfT (Cert.RefTerm.zcT (V (Proc.devRef .tc main_v9)) (V (Proc.devRef .tc main_v58)) (V (Proc.devRef .tc main_v102)) (V (Proc.devRef .tc main_arg11)) (V (Proc.devRef .tc main_arg12))) (V (Proc.devRef .tc main_v13)) (V (Proc.devRef .tc main_arg13)) (V (Proc.devRef .tc main_arg14))) (V (Proc.devRef .tc main_arg15)) (V (Proc.devRef .tc main_arg16)) := by
  unfold wC2
  after_results_simp
  rfl

/-! ## The whole program -/

/-- The whole program as the windows run in order. -/
theorem after_ops (V : Val) : after (ValueP.ops (F := Ideal)) V = (after (wC2 (F := Ideal)) (after (wC1 (F := Ideal)) (after (wM2 (F := Ideal)) (after (wN2 (F := Ideal)) (after (wI2 (F := Ideal)) (after (wD2 (F := Ideal)) (after (wE2 (F := Ideal)) (after (wB (F := Ideal)) (after (wM1 (F := Ideal)) (after (wN1 (F := Ideal)) (after (wI1 (F := Ideal)) (after (wD1 (F := Ideal)) (after (wE1 (F := Ideal)) (after (wA (F := Ideal)) V)))))))))))))) := by
  rw [ops_split]
  simp only [after_append]

/-- A buffer no window writes keeps its contents through the whole program. -/
theorem kept (V : Val) (r : Ref sig .tc) (hwA : r ∉ wA_W) (hwE1 : r ∉ wE1_W) (hwD1 : r ∉ wD1_W) (hwI1 : r ∉ wI1_W) (hwN1 : r ∉ wN1_W) (hwM1 : r ∉ wM1_W) (hwB : r ∉ wB_W) (hwE2 : r ∉ wE2_W) (hwD2 : r ∉ wD2_W) (hwI2 : r ∉ wI2_W) (hwN2 : r ∉ wN2_W) (hwM2 : r ∉ wM2_W) (hwC1 : r ∉ wC1_W) (hwC2 : r ∉ wC2_W) :
    after (ValueP.ops (F := Ideal)) V (Proc.devRef .tc r) = V (Proc.devRef .tc r) := by
  rw [after_ops, wC2_keep _ r hwC2, wC1_keep _ r hwC1, wM2_keep _ r hwM2, wN2_keep _ r hwN2, wI2_keep _ r hwI2, wD2_keep _ r hwD2, wE2_keep _ r hwE2, wB_keep _ r hwB, wM1_keep _ r hwM1, wN1_keep _ r hwN1, wI1_keep _ r hwI1, wD1_keep _ r hwD1, wE1_keep _ r hwE1, wA_keep _ r hwA]

/-- The result buffer holds the reference's closed term of the arguments. -/
theorem result (V : Val) : after (ValueP.ops (F := Ideal)) V (Proc.devRef .tc main_v118)
    = Cert.RefTerm.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) := by
  rw [after_ops]
  simp (disch := decide) only [A_v1, A_v3, A_v9, A_v13, A_v15, E1_v17, E1_v18, D1_v22, I1_v26, N1_v41, M1_v54, B_v58, B_v59, E2_v61, E2_v62, D2_v66, I2_v70, N2_v85, M2_v98, C1_v102, C2_v118, wA_keep', wE1_keep', wD1_keep', wI1_keep', wN1_keep', wM1_keep', wB_keep', wE2_keep', wD2_keep', wI2_keep', wN2_keep', wM2_keep', wC1_keep', wC2_keep']
  simp only [ends_row0, ends_row1, dinvOf_deg, normOf_dinv, msg_pass]
  rfl

/-- On every device, from any memory with zero counters: every weakly fair execution of the reference terminates
    with the result at the closed term `Cert.RefTerm.out` of the seventeen arguments, and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v118) = Cert.RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v118).trans (result (launchContents m c)),
      (h c main_arg0).trans (kept (launchContents m c) main_arg0 (by decide) (by decide) (by decide) (by decide) (by decide) (by decide) (by decide) (by decide) (by decide) (by decide) (by decide) (by decide) (by decide) (by decide)),
      (h c main_arg1).trans (kept (launchContents m c) main_arg1 (by decide) (by decide) (by decide) (by decide) (by decide) (by decide) (by decide) (by decide) (by decide) (by decide) (by decide) (by decide) (by decide) (by decide)),
      (h c main_arg2).trans (kept (launchContents m c) main_arg2 (by decide) (by decide) (by decide) (by decide) (by decide) (by decide) (by decide) (by decide) (by decide) (by decide) (by decide) (by decide) (by decide) (by decide)),
      (h c main_arg3).trans (kept (launchContents m c) main_arg3 (by decide) (by decide) (by decide) (by decide) (by decide) (by decide) (by decide) (by decide) (by decide) (by decide) (by decide) (by decide) (by decide) (by decide)),
      (h c main_arg4).trans (kept (launchContents m c) main_arg4 (by decide) (by decide) (by decide) (by decide) (by decide) (by decide) (by decide) (by decide) (by decide) (by decide) (by decide) (by decide) (by decide) (by decide)),
      (h c main_arg5).trans (kept (launchContents m c) main_arg5 (by decide) (by decide) (by decide) (by decide) (by decide) (by decide) (by decide) (by decide) (by decide) (by decide) (by decide) (by decide) (by decide) (by decide)),
      (h c main_arg6).trans (kept (launchContents m c) main_arg6 (by decide) (by decide) (by decide) (by decide) (by decide) (by decide) (by decide) (by decide) (by decide) (by decide) (by decide) (by decide) (by decide) (by decide)),
      (h c main_arg7).trans (kept (launchContents m c) main_arg7 (by decide) (by decide) (by decide) (by decide) (by decide) (by decide) (by decide) (by decide) (by decide) (by decide) (by decide) (by decide) (by decide) (by decide)),
      (h c main_arg8).trans (kept (launchContents m c) main_arg8 (by decide) (by decide) (by decide) (by decide) (by decide) (by decide) (by decide) (by decide) (by decide) (by decide) (by decide) (by decide) (by decide) (by decide)),
      (h c main_arg9).trans (kept (launchContents m c) main_arg9 (by decide) (by decide) (by decide) (by decide) (by decide) (by decide) (by decide) (by decide) (by decide) (by decide) (by decide) (by decide) (by decide) (by decide)),
      (h c main_arg10).trans (kept (launchContents m c) main_arg10 (by decide) (by decide) (by decide) (by decide) (by decide) (by decide) (by decide) (by decide) (by decide) (by decide) (by decide) (by decide) (by decide) (by decide)),
      (h c main_arg11).trans (kept (launchContents m c) main_arg11 (by decide) (by decide) (by decide) (by decide) (by decide) (by decide) (by decide) (by decide) (by decide) (by decide) (by decide) (by decide) (by decide) (by decide)),
      (h c main_arg12).trans (kept (launchContents m c) main_arg12 (by decide) (by decide) (by decide) (by decide) (by decide) (by decide) (by decide) (by decide) (by decide) (by decide) (by decide) (by decide) (by decide) (by decide)),
      (h c main_arg13).trans (kept (launchContents m c) main_arg13 (by decide) (by decide) (by decide) (by decide) (by decide) (by decide) (by decide) (by decide) (by decide) (by decide) (by decide) (by decide) (by decide) (by decide)),
      (h c main_arg14).trans (kept (launchContents m c) main_arg14 (by decide) (by decide) (by decide) (by decide) (by decide) (by decide) (by decide) (by decide) (by decide) (by decide) (by decide) (by decide) (by decide) (by decide)),
      (h c main_arg15).trans (kept (launchContents m c) main_arg15 (by decide) (by decide) (by decide) (by decide) (by decide) (by decide) (by decide) (by decide) (by decide) (by decide) (by decide) (by decide) (by decide) (by decide)),
      (h c main_arg16).trans (kept (launchContents m c) main_arg16 (by decide) (by decide) (by decide) (by decide) (by decide) (by decide) (by decide) (by decide) (by decide) (by decide) (by decide) (by decide) (by decide) (by decide))⟩)
    (ValueP.run_raw (F := Ideal) m ρ)

end Cert.ReferenceIdeal.RefFold

end
-- ==== Proof.RefDense.lean ====
/-
  The reference's dense stages, read one node-row at a time.

  Every dense stage of the reference is a whole-array expression: a matrix product with plain dimension numbers,
  a bias broadcast along the rows, a rectifier against a broadcast zero, and before the first and the fourth layer
  a concatenation of feature arrays along the column axis. Read at an index `(r, c)`, the product is the row `r` of
  the left operand against the column `c` of the weights, the bias is its entry `c`, and a concatenated row against
  `W` is the sum of the pieces against `W`'s row blocks (the contraction's index set `Fin (K₁ + K₂)` splits into its
  two ranges; only the commutative-monoid laws of `+` are used). So each stage is the corresponding row function of
  the network applied to every row, and the whole result is the network around the two aggregation steps.
-/
import proofs.«134561_j13649406067417_2_alg».proof.Proof.RefTerm
import proofs.«134561_j13649406067417_2_alg».proof.Proof.Spec
import proofs.«134561_j13649406067417_2_alg».proof.Proof.LibPlainDot
import proofs.«134561_j13649406067417_2_alg».proof.Proof.Gen.KernelIdeal
import proofs.«134561_j13649406067417_2_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

noncomputable section

namespace Cert.RefDense

open Cert.ReferenceIdeal Idealize.ShloMosaic Idealize.ShloMosaic.ValueIdx Cert.RefTerm
open scoped BigOperators

/-! ## The layout operations at an index -/

/-- A bias: a length-`N` vector made a row and repeated down `M` rows reads its entry at the column. -/
theorem bias_apply {M N : Nat} (h₁ : (⟨1, ![N]⟩ : Shape).BroadcastsInDim ⟨2, ![1, N]⟩ ![1])
    (h₂ : (⟨2, ![1, N]⟩ : Shape).BroadcastsInDim ⟨2, ![M, N]⟩ ![0, 1]) (b : (⟨1, ![N]⟩ : Shape).Idx → EReal)
    (r : Fin M) (c : Fin N) :
    broadcastInDim (⟨2, ![M, N]⟩ : Shape) ![0, 1] h₂ (broadcastInDim (⟨2, ![1, N]⟩ : Shape) ![1] h₁ b) (ix2 r c) = b (ix1 c) := by
  refine (broadcastInDim_apply _ h₂ _ (ix2 r c) (ix2 (0 : Fin 1) c) ?_).trans ?_
  · intro a
    match a with
    | ⟨0, _⟩ => rfl
    | ⟨1, _⟩ =>
      show c.val = if N = 1 then 0 else c.val
      split
      · have := c.isLt; omega
      · rfl
  · refine broadcastInDim_apply _ h₁ b (ix2 (0 : Fin 1) c) (ix1 c) ?_
    intro a
    match a with
    | ⟨0, _⟩ =>
      show c.val = if N = 1 then 0 else c.val
      split
      · have := c.isLt; omega
      · rfl

/-- The rectifier: the maximum with a broadcast zero. -/
theorem relu_apply {s : Shape} (h : S_.BroadcastsInDim s ![]) (a : FVec Ideal s .f32) (j : s.Idx) :
    maximumf (F := Ideal) (φ := .f32) a (broadcastInDim s ![] h (constant (F := Ideal) S_ .f32 0x00000000#32)) j = max (a j) 0 := by
  refine (maximumf_apply _ _ j).trans ?_
  refine congrArg (max (a j)) ?_
  refine (broadcastInDim_apply _ h _ j (fun a => a.elim0) (fun a => a.elim0)).trans ?_
  exact (constant_apply _ _).trans Ideal.ofBits_zero_f32

/-- A plain product at an index: the left operand's row against the weights, at the column. -/
theorem dot_apply (M K N : Nat) (l : FVec Ideal (⟨2, ![M, K]⟩ : Shape) .f32) (w : FVec Ideal (⟨2, ![K, N]⟩ : Shape) .f32)
    (r : Fin M) (c : Fin N) :
    Host.dotGeneral (F := Ideal) (DotDims.plain M K N) none l w (ix2 r c) = Net.dotv (Net.mat l r) (Net.mat w) c :=
  Cert.PlainDot.dotGeneral_apply M K N none .single l w (ix2 r c)

/-- A sum over `Fin (K₁ + K₂)` is the sum over its first `K₁` indices plus the sum over the `K₂` after them. -/
theorem sum_split {K₁ K₂ : Nat} (f : Fin (K₁ + K₂) → EReal) :
    ∑ k, f k = (∑ k : Fin K₁, f ⟨0 + k.val, by have := k.isLt; omega⟩) + ∑ k : Fin K₂, f ⟨K₁ + k.val, by have := k.isLt; omega⟩ := by
  rw [Fin.sum_univ_add]
  refine congr (congrArg HAdd.hAdd (Finset.sum_congr rfl fun k _ => congrArg f (Fin.ext ?_))) (Finset.sum_congr rfl fun k _ => congrArg f (Fin.ext ?_))
  · exact (Nat.zero_add _).symm
  · rfl

/-- A sum over 384 indices as the sums over its three blocks of 128. -/
theorem sum_split3 (f : Fin 384 → EReal) :
    ∑ k, f k = (∑ k : Fin 128, f ⟨0 + k.val, by have := k.isLt; omega⟩) + (∑ k : Fin 128, f ⟨128 + k.val, by have := k.isLt; omega⟩)
      + ∑ k : Fin 128, f ⟨256 + k.val, by have := k.isLt; omega⟩ := by
  refine (sum_split (K₁ := 256) (K₂ := 128) f).trans ?_
  refine congr (congrArg HAdd.hAdd ?_) rfl
  refine (sum_split (K₁ := 128) (K₂ := 128) (fun k => f ⟨0 + k.val, by have := k.isLt; omega⟩)).trans ?_
  refine congr (congrArg HAdd.hAdd ?_) ?_ <;> refine Finset.sum_congr rfl fun k _ => congrArg f (Fin.ext ?_)
  · show 0 + (0 + k.val) = 0 + k.val
    omega
  · show 0 + (128 + k.val) = 128 + k.val
    omega

/-- Two feature arrays side by side, read at a column of the first. -/
theorem cat2_left (a b : A S50000x128) (h : Shape.Concatenates [S50000x128, S50000x128] S50000x256 1) (r : Fin 50000) (k : Fin 128) :
    concatenate S50000x256 1 [⟨S50000x128, a⟩, ⟨S50000x128, b⟩] h (ix2 r (⟨0 + k.val, by have := k.isLt; omega⟩ : Fin 256))
      = a (ix2 r k) :=
  concatenate_pair_apply_left (t := S50000x256) (s₁ := S50000x128) (s₂ := S50000x128) (1 : Fin 2) a b h _ rfl (ix2 r k) (fun d => by
    match d with
    | ⟨0, _⟩ => rfl
    | ⟨1, _⟩ => exact (Nat.zero_add _).symm)

/-- Two feature arrays side by side, read at a column of the second. -/
theorem cat2_right (a b : A S50000x128) (h : Shape.Concatenates [S50000x128, S50000x128] S50000x256 1) (r : Fin 50000) (k : Fin 128) :
    concatenate S50000x256 1 [⟨S50000x128, a⟩, ⟨S50000x128, b⟩] h (ix2 r (⟨128 + k.val, by have := k.isLt; omega⟩ : Fin 256))
      = b (ix2 r k) :=
  concatenate_pair_apply_right (t := S50000x256) (s₁ := S50000x128) (s₂ := S50000x128) (1 : Fin 2) a b h _ rfl rfl (ix2 r k)
    (fun d hd => by
      match d with
      | ⟨0, _⟩ => rfl
      | ⟨1, _⟩ => exact absurd rfl hd)
    (by show k.val + 128 = 128 + k.val; omega)

/-- Three feature arrays side by side, read at a column of the piece that starts at column `pre`. -/
theorem cat3_piece (a b c : A S50000x128) (h : Shape.Concatenates [S50000x128, S50000x128, S50000x128] S50000x384 1)
    (p : Nat) (hp : p < 3) (x : A S50000x128)
    (hx : [(⟨S50000x128, a⟩ : (s : Shape) × (s.Idx → EReal)), ⟨S50000x128, b⟩, ⟨S50000x128, c⟩][p] = ⟨S50000x128, x⟩)
    (pre : Nat) (hpre : p * 128 = pre) (hle : pre + 128 ≤ 384) (r : Fin 50000) (k : Fin 128) :
    concatenate S50000x384 1 [⟨S50000x128, a⟩, ⟨S50000x128, b⟩, ⟨S50000x128, c⟩] h
        (ix2 r (⟨pre + k.val, by have := k.isLt; omega⟩ : Fin 384)) = x (ix2 r k) := by
  subst hpre
  refine concatenate_apply_piece (t := S50000x384) (1 : Fin 2) [⟨S50000x128, a⟩, ⟨S50000x128, b⟩, ⟨S50000x128, c⟩] h _ p hp S50000x128 x hx rfl (p * 128) ?_ (ix2 r k)
    (fun d hd => by
      match d with
      | ⟨0, _⟩ => rfl
      | ⟨1, _⟩ => exact absurd rfl hd) rfl
  match p, hp with
  | 0, _ => rfl
  | 1, _ => rfl
  | 2, _ => rfl

/-! ## The stages, row by row -/

theorem zT_eq (x0 x1 : A S50000x128) (x3 : A S256x128) (x4 : A S128) :
    zT x0 x1 x3 x4 = Net.arr (fun r => Net.zrow (Net.mat x0 r) (Net.mat x1 r)
      (Net.rowsFrom 0 128 (by norm_num) x3) (Net.rowsFrom 128 128 (by norm_num) x3) (Net.vec x4)) := by
  funext i
  obtain ⟨r, c, rfl⟩ : ∃ (r : Fin 50000) (c : Fin 128), i = ix2 r c := ⟨i 0, i 1, eq_ix2 i⟩
  refine (relu_apply _ _ _).trans ?_
  refine congrArg (fun t => max t 0) ?_
  refine congr (congrArg HAdd.hAdd ?_) (bias_apply _ _ x4 r c)
  refine (dot_apply 50000 256 128 _ x3 r c).trans ?_
  refine (sum_split (K₁ := 128) (K₂ := 128) _).trans ?_
  refine congr (congrArg HAdd.hAdd ?_) ?_
  · exact Finset.sum_congr rfl fun k _ => congr (congrArg HMul.hMul (cat2_left x0 x1 _ r k)) rfl
  · exact Finset.sum_congr rfl fun k _ => congr (congrArg HMul.hMul (cat2_right x0 x1 _ r k)) rfl

theorem z0T_eq (Z : Fin 50000 → Fin 128 → EReal) (x5 : A S128x128) (x6 : A S128) :
    z0T (Net.arr Z) x5 x6 = Net.arr (fun r => Net.z0row (Z r) (Net.mat x5) (Net.vec x6)) := by
  funext i
  obtain ⟨r, c, rfl⟩ : ∃ (r : Fin 50000) (c : Fin 128), i = ix2 r c := ⟨i 0, i 1, eq_ix2 i⟩
  refine (addf_apply _ _ _).trans ?_
  exact congr (congrArg HAdd.hAdd (dot_apply 50000 128 128 (Net.arr Z) x5 r c)) (bias_apply _ _ x6 r c)

theorem h1T_eq (Z : Fin 50000 → Fin 128 → EReal) (x1 : A S50000x128) (x7 : A S128x128) :
    h1T (Net.arr Z) x1 x7 = Net.arr (fun r => Net.h1row (Z r) (Net.mat x1 r) (Net.mat x7)) := by
  funext i
  obtain ⟨r, c, rfl⟩ : ∃ (r : Fin 50000) (c : Fin 128), i = ix2 r c := ⟨i 0, i 1, eq_ix2 i⟩
  exact dot_apply 50000 128 128 (addf (F := Ideal) (φ := .f32) (Net.arr Z) x1) x7 r c

theorem z1T_eq (raw : A S50000x128) (b : A S128) :
    z1T raw b = Net.arr (fun r => Net.z1row (Net.mat raw r) (Net.vec b)) := by
  funext i
  obtain ⟨r, c, rfl⟩ : ∃ (r : Fin 50000) (c : Fin 128), i = ix2 r c := ⟨i 0, i 1, eq_ix2 i⟩
  refine (relu_apply _ _ _).trans ?_
  refine congrArg (fun t => max t 0) ?_
  refine (addf_apply _ _ _).trans ?_
  exact congrArg (raw (ix2 r c) + ·) (bias_apply _ _ b r c)

theorem h2T_eq (Z1 : Fin 50000 → Fin 128 → EReal) (x9 : A S128x128) :
    h2T (Net.arr Z1) x9 = Net.arr (fun r => Net.h2row (Z1 r) (Net.mat x9)) := by
  funext i
  obtain ⟨r, c, rfl⟩ : ∃ (r : Fin 50000) (c : Fin 128), i = ix2 r c := ⟨i 0, i 1, eq_ix2 i⟩
  exact dot_apply 50000 128 128 (Net.arr Z1) x9 r c

theorem zcT_eq (Z Z1 Z2 : Fin 50000 → Fin 128 → EReal) (x11 : A S384x128) (x12 : A S128) :
    zcT (Net.arr Z) (Net.arr Z1) (Net.arr Z2) x11 x12 = Net.arr (fun r => Net.zcrow (Z r) (Z1 r) (Z2 r)
      (Net.rowsFrom 0 128 (by norm_num) x11) (Net.rowsFrom 128 128 (by norm_num) x11) (Net.rowsFrom 256 128 (by norm_num) x11)
      (Net.vec x12)) := by
  funext i
  obtain ⟨r, c, rfl⟩ : ∃ (r : Fin 50000) (c : Fin 128), i = ix2 r c := ⟨i 0, i 1, eq_ix2 i⟩
  refine (relu_apply _ _ _).trans ?_
  refine congrArg (fun t => max t 0) ?_
  refine congr (congrArg HAdd.hAdd ?_) (bias_apply _ _ x12 r c)
  refine (dot_apply 50000 384 128 _ x11 r c).trans ?_
  refine (sum_split3 _).trans ?_
  refine congr (congrArg HAdd.hAdd (congr (congrArg HAdd.hAdd ?_) ?_)) ?_
  · exact Finset.sum_congr rfl fun k _ => congr (congrArg HMul.hMul
      (cat3_piece (Net.arr Z) (Net.arr Z1) (Net.arr Z2) _ 0 (by decide) (Net.arr Z) rfl 0 rfl (by norm_num) r k)) rfl
  · exact Finset.sum_congr rfl fun k _ => congr (congrArg HMul.hMul
      (cat3_piece (Net.arr Z) (Net.arr Z1) (Net.arr Z2) _ 1 (by decide) (Net.arr Z1) rfl 128 rfl (by norm_num) r k)) rfl
  · exact Finset.sum_congr rfl fun k _ => congr (congrArg HMul.hMul
      (cat3_piece (Net.arr Z) (Net.arr Z1) (Net.arr Z2) _ 2 (by decide) (Net.arr Z2) rfl 256 rfl (by norm_num) r k)) rfl

theorem zfT_eq (ZC Z0 : Fin 50000 → Fin 128 → EReal) (x13 : A S128x64) (x14 : A S64) :
    zfT (Net.arr ZC) (Net.arr Z0) x13 x14 = Net.arr (fun r => Net.zfrow (ZC r) (Z0 r) (Net.mat x13) (Net.vec x14)) := by
  funext i
  obtain ⟨r, c, rfl⟩ : ∃ (r : Fin 50000) (c : Fin 64), i = ix2 r c := ⟨i 0, i 1, eq_ix2 i⟩
  refine (relu_apply _ _ _).trans ?_
  refine congrArg (fun t => max t 0) ?_
  refine (addf_apply _ _ _).trans ?_
  exact congr (congrArg HAdd.hAdd
    (dot_apply 50000 128 64 (addf (F := Ideal) (φ := .f32) (Net.arr ZC) (Net.arr Z0)) x13 r c)) (bias_apply _ _ x14 r c)

theorem oT_eq (ZF : Fin 50000 → Fin 64 → EReal) (x15 : A S64x10) (x16 : A S10) :
    oT (Net.arr ZF) x15 x16 = Net.arr (fun r => Net.orow (ZF r) (Net.mat x15) (Net.vec x16)) := by
  funext i
  obtain ⟨r, c, rfl⟩ : ∃ (r : Fin 50000) (c : Fin 10), i = ix2 r c := ⟨i 0, i 1, eq_ix2 i⟩
  refine (addf_apply _ _ _).trans ?_
  exact congr (congrArg HAdd.hAdd (dot_apply 50000 64 10 (Net.arr ZF) x15 r c)) (bias_apply _ _ x16 r c)

/-! ## The whole reference -/

/-- The reference's result is the network, node by node, around the two aggregation steps. -/
theorem out_eq (x0 x1 : A S50000x128) (x2 : Cert.HostChain.Edges) (x3 : A S256x128) (x4 : A S128) (x5 : A S128x128) (x6 : A S128)
    (x7 : A S128x128) (x8 : A S128) (x9 : A S128x128) (x10 : A S128) (x11 : A S384x128) (x12 : A S128) (x13 : A S128x64) (x14 : A S64)
    (x15 : A S64x10) (x16 : A S10) :
    Cert.RefTerm.out x0 x1 x2 x3 x4 x5 x6 x7 x8 x9 x10 x11 x12 x13 x14 x15 x16
      = Net.arr (Net.Net (n := 50000) (Cert.HostChain.passM x2) (Cert.HostChain.passM x2) (Net.mat x0) (Net.mat x1)
          (Net.rowsFrom 0 128 (by norm_num) x3) (Net.rowsFrom 128 128 (by norm_num) x3) (Net.vec x4) (Net.mat x5) (Net.vec x6)
          (Net.mat x7) (Net.vec x8) (Net.mat x9) (Net.vec x10)
          (Net.rowsFrom 0 128 (by norm_num) x11) (Net.rowsFrom 128 128 (by norm_num) x11) (Net.rowsFrom 256 128 (by norm_num) x11)
          (Net.vec x12) (Net.mat x13) (Net.vec x14) (Net.mat x15) (Net.vec x16)) := by
  unfold Cert.RefTerm.out
  rw [zT_eq x0 x1 x3 x4, h1T_eq, z1T_eq _ x8, h2T_eq, z1T_eq _ x10, zcT_eq, z0T_eq, zfT_eq, oT_eq]
  rfl

end Cert.RefDense

end
-- ==== Proof.lean ====
/- The proof of `Cert.Claim`: the three frames, the (empty) idealization ledger, and the equality of the idealized
   kernel program's and the idealized reference's results over the extended reals.

   Both programs compute the same network. Every dense stage acts on one node's feature row: the kernel program
   computes it block by block over the node axis, with each stacked weight matrix cut into its row blocks beforehand
   (so a contraction over 256 or 384 columns appears as two or three over 128), the reference on whole arrays with the
   feature arrays concatenated; the two agree because a sum over a concatenated index is the sum of the sums over
   its pieces — a law of addition alone, which holds on the extended reals with no finiteness needed. The two
   message-passing steps (degree normalisation, gather, scatter-add) are the same host operations in both programs
   and are carried as one function (`HostChain.passM`) that is never opened. So both result buffers hold
   `Net` (Proof/Spec.lean) of the argument arrays:
   - the kernel program's, by its run with the result named (Proof/KernelRun.lean) read boundary by boundary
     (Proof/KernelChain.lean over Proof/RegionA.lean, RegionB.lean, RegionC.lean, KernelHost.lean, KernelWeights.lean);
   - the reference's, by its operations' fold read back (Proof/RefFold.lean over Proof/RefRun.lean) and its dense
     stages read at an index (Proof/RefDense.lean).
   The precondition (finite inputs) is not used by any step. -/
import proofs.«134561_j13649406067417_2_alg».proof.Defs
import proofs.«134561_j13649406067417_2_alg».proof.Proof.Gen.Kernel
import proofs.«134561_j13649406067417_2_alg».proof.Proof.Gen.Kernel.Skeleton
import proofs.«134561_j13649406067417_2_alg».proof.Proof.Gen.Kernel.Launch
import proofs.«134561_j13649406067417_2_alg».proof.Proof.Gen.Kernel.Points
import proofs.«134561_j13649406067417_2_alg».proof.Proof.Gen.Kernel.Frame
import proofs.«134561_j13649406067417_2_alg».proof.Proof.Gen.KernelIdeal
import proofs.«134561_j13649406067417_2_alg».proof.Proof.Gen.KernelIdeal.Skeleton
import proofs.«134561_j13649406067417_2_alg».proof.Proof.Gen.KernelIdeal.Launch
import proofs.«134561_j13649406067417_2_alg».proof.Proof.Gen.KernelIdeal.Points
import proofs.«134561_j13649406067417_2_alg».proof.Proof.Gen.KernelIdeal.Frame
import proofs.«134561_j13649406067417_2_alg».proof.Proof.Gen.ReferenceIdeal
import proofs.«134561_j13649406067417_2_alg».proof.Proof.Gen.Pre_finite_inputs
import proofs.«134561_j13649406067417_2_alg».proof.Proof.KernelRun
import proofs.«134561_j13649406067417_2_alg».proof.Proof.KernelChain
import proofs.«134561_j13649406067417_2_alg».proof.Proof.RefFold
import proofs.«134561_j13649406067417_2_alg».proof.Proof.RefDense
import Idealize.ShloMosaic.Adequacy
import Idealize.ShloMosaic.Init

set_option maxRecDepth 16384

noncomputable section

namespace Cert.Proof

open Idealize.ShloMosaic Idealize.SL.Sem

/-- The word-level kernel program runs and keeps its arguments: the generated frame certificate. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference is a straight line of host operations, none of which writes an argument. -/
theorem frame_ri : Cert.frame_ReferenceIdeal := fun m ρ _ =>
  (θ_run Cert.ReferenceIdeal.defs _ _).mono (fun _ h c => (h c).2) (Cert.ReferenceIdeal.RefFold.run m ρ)

/-- From memories agreeing on the arguments both programs end with the network of those arguments in their result. -/
theorem algebraic : Cert.algebraic_KernelIdeal_ReferenceIdeal := by
  intro m ρ m' ρ' _ hagree
  refine ⟨fun c => Cert.KernelIdeal.Chain.netOf m c, ?_, ?_⟩
  · exact (θ_run Cert.KernelIdeal.defs _ _).mono
      (fun r h c => ⟨(h c).1.trans (Cert.KernelIdeal.Chain.result m ρ c), (h c).2⟩) (Cert.KernelIdeal.Run.run m ρ)
  · refine (θ_run Cert.ReferenceIdeal.defs _ _).mono (fun r h c => ⟨(h c).1.trans ?_, (h c).2⟩)
      (Cert.ReferenceIdeal.RefFold.run m' ρ')
    obtain ⟨e0, e1, e2, e3, e4, e5, e6, e7, e8, e9, e10, e11, e12, e13, e14, e15, e16⟩ := hagree c
    rw [Cert.RefDense.out_eq, e0, e1, e2, e3, e4, e5, e6, e7, e8, e9, e10, e11, e12, e13, e14, e15, e16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
